-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v87)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v87) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v127) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_

variable [Facts]

def fn_part4 {F : FTy → Type} [FloatOps F] (main_arg16 : FVec F S128 .f32) (main_arg17 : FVec F S128x16 .f32) (main_arg18 : FVec F S16 .f32) (main_v63 : IVec S_ 1) (main_v67 : IVec S_ 1) : IVec S_ 1 :=
  let main_v68 : IVec S_ 1 := andi main_v63 main_v67
  let main_v69 : FVec F S128 .f32 := Host.absf main_arg16
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x16 .f32 := Host.absf main_arg17
  let main_cst_28 : FVec F S_ .f32 := constant S_ .f32 0x7F800000#32
  let main_v75 : FVec F S128x16 .f32 := broadcastInDim S128x16 ![] bcast_S_S128x16 main_cst_28
  let main_v76 : IVec S128x16 1 := cmpf .olt main_v74 main_v75
  let main_c_29 : IVec S_ 1 := constantI S_ 1 1#1
  let main_v77 : IVec S_ 1 := (fun x v => Host.reduce IntOp.andi x v reducesTo_S128x16_S_d0_1 h_S_) main_v76 main_c_29
  let main_v78 : IVec S_ 1 := andi main_v73 main_v77
  let main_v79 : FVec F S16 .f32 := Host.absf main_arg18
  let main_cst_30 : FVec F S_ .f32 := constant S_ .f32 0x7F800000#32
  let main_v80 : FVec F S16 .f32 := broadcastInDim S16 ![] bcast_S_S16 main_cst_30
  let main_v81 : IVec S16 1 := cmpf .olt main_v79 main_v80
  let main_c_31 : IVec S_ 1 := constantI S_ 1 1#1
  let main_v82 : IVec S_ 1 := (fun x v => Host.reduce IntOp.andi x v reducesTo_S16_S_d0 h_S_) main_v81 main_c_31
  let main_v83 : IVec S_ 1 := andi main_v78 main_v82
  main_v83

def fn_part3 {F : FTy → Type} [FloatOps F] (main_arg13 : FVec F S128 .f32) (main_arg14 : FVec F S128x128 .f32) (main_arg15 : FVec F S128x128 .f32) (main_arg16 : FVec F S128 .f32) (main_arg17 : FVec F S128x16 .f32) (main_arg18 : FVec F S16 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg14
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128x128 .f32 := Host.absf main_arg15
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg16 main_arg17 main_arg18 main_v63 main_v67

def fn_part2 {F : FTy → Type} [FloatOps F] (main_arg9 : FVec F S128x128 .f32) (main_arg10 : FVec F S128 .f32) (main_arg11 : FVec F S128x128 .f32) (main_arg12 : FVec F S128x128 .f32) (main_arg13 : FVec F S128 .f32) (main_arg14 : FVec F S128x128 .f32) (main_arg15 : FVec F S128x128 .f32) (main_arg16 : FVec F S128 .f32) (main_arg17 : FVec F S128x16 .f32) (main_arg18 : FVec F S16 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128x128 .f32 := Host.absf main_arg12
  let main_cst_18 : FVec F S_ .f32 := constant S_ .f32 0x7F800000#32
  let main_v50 : FVec F S128x128 .f32 := broadcastInDim S128x128 ![] bcast_S_S128x128 main_cst_18
  fn_part3 (F := F) main_arg13 main_arg14 main_arg15 main_arg16 main_arg17 main_arg18 main_v48 main_v49 main_v50

def fn_part1 {F : FTy → Type} [FloatOps F] (main_arg6 : FVec F S128x128 .f32) (main_arg7 : FVec F S128 .f32) (main_arg8 : FVec F S128x128 .f32) (main_arg9 : FVec F S128x128 .f32) (main_arg10 : FVec F S128 .f32) (main_arg11 : FVec F S128x128 .f32) (main_arg12 : FVec F S128x128 .f32) (main_arg13 : FVec F S128 .f32) (main_arg14 : FVec F S128x128 .f32) (main_arg15 : FVec F S128x128 .f32) (main_arg16 : FVec F S128 .f32) (main_arg17 : FVec F S128x16 .f32) (main_arg18 : FVec F S16 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_arg12 main_arg13 main_arg14 main_arg15 main_arg16 main_arg17 main_arg18 main_v33

def fn {F : FTy → Type} [FloatOps F] (main_arg0 : FVec F S50000x128 .f32) (main_arg1 : IVec S2x800000 32) (main_arg2 : IVec S50000 32) (main_arg3 : FVec F S128x128 .f32) (main_arg4 : FVec F S128 .f32) (main_arg5 : FVec F S128x128 .f32) (main_arg6 : FVec F S128x128 .f32) (main_arg7 : FVec F S128 .f32) (main_arg8 : FVec F S128x128 .f32) (main_arg9 : FVec F S128x128 .f32) (main_arg10 : FVec F S128 .f32) (main_arg11 : FVec F S128x128 .f32) (main_arg12 : FVec F S128x128 .f32) (main_arg13 : FVec F S128 .f32) (main_arg14 : FVec F S128x128 .f32) (main_arg15 : FVec F S128x128 .f32) (main_arg16 : FVec F S128 .f32) (main_arg17 : FVec F S128x16 .f32) (main_arg18 : FVec F S16 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_arg13 main_arg14 main_arg15 main_arg16 main_arg17 main_arg18 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x1 : Shape := ⟨2, ![50000, 1]⟩
abbrev S800000x128 : Shape := ⟨2, ![800000, 128]⟩
abbrev S256x128 : Shape := ⟨2, ![256, 128]⟩
abbrev S1x128 : Shape := ⟨2, ![1, 128]⟩
abbrev S2000x128 : Shape := ⟨2, ![2000, 128]⟩
abbrev S2000x1 : Shape := ⟨2, ![2000, 1]⟩
abbrev S2000x256 : Shape := ⟨2, ![2000, 256]⟩
abbrev S64x128 : Shape := ⟨2, ![64, 128]⟩
abbrev S64 : Shape := ⟨1, ![64]⟩
abbrev S64x1 : Shape := ⟨2, ![64, 1]⟩
abbrev S1x16 : Shape := ⟨2, ![1, 16]⟩
abbrev S64x16 : Shape := ⟨2, ![64, 16]⟩

abbrev nBuf : Space → Nat
  | .hbm => 127
  | .vmem => 46
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128x128, .f32⟩
  | .hbm, ⟨13, _⟩ => ⟨S128, .f32⟩
  | .hbm, ⟨14, _⟩ => ⟨S128x128, .f32⟩
  | .hbm, ⟨15, _⟩ => ⟨S128x128, .f32⟩
  | .hbm, ⟨16, _⟩ => ⟨S128, .f32⟩
  | .hbm, ⟨17, _⟩ => ⟨S128x16, .f32⟩
  | .hbm, ⟨18, _⟩ => ⟨S16, .f32⟩
  | .hbm, ⟨19, _⟩ => ⟨S1x800000, .i32⟩
  | .hbm, ⟨20, _⟩ => ⟨S800000, .i32⟩
  | .hbm, ⟨21, _⟩ => ⟨S1x800000, .i32⟩
  | .hbm, ⟨22, _⟩ => ⟨S800000, .i32⟩
  | .hbm, ⟨23, _⟩ => ⟨S_, .f32⟩
  | .hbm, ⟨24, _⟩ => ⟨S800000, .f32⟩
  | .hbm, ⟨25, _⟩ => ⟨S_, .f32⟩
  | .hbm, ⟨26, _⟩ => ⟨S50000, .f32⟩
  | .hbm, ⟨27, _⟩ => ⟨S800000x1, .i32⟩
  | .hbm, ⟨28, _⟩ => ⟨S50000, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S_, .f32⟩
  | .hbm, ⟨33, _⟩ => ⟨S50000, .f32⟩
  | .hbm, ⟨34, _⟩ => ⟨S50000, .f32⟩
  | .hbm, ⟨35, _⟩ => ⟨S50000x1, .f32⟩
  | .hbm, ⟨36, _⟩ => ⟨S50000x128, .bf16⟩
  | .hbm, ⟨37, _⟩ => ⟨S_, .i32⟩
  | .hbm, ⟨38, _⟩ => ⟨S800000, .i32⟩
  | .hbm, ⟨39, _⟩ => ⟨S800000, .i1⟩
  | .hbm, ⟨40, _⟩ => ⟨S_, .i32⟩
  | .hbm, ⟨41, _⟩ => ⟨S800000, .i32⟩
  | .hbm, ⟨42, _⟩ => ⟨S800000, .i32⟩
  | .hbm, ⟨43, _⟩ => ⟨S800000, .i32⟩
  | .hbm, ⟨44, _⟩ => ⟨S800000x1, .i32⟩
  | .hbm, ⟨45, _⟩ => ⟨S800000x128, .bf16⟩
  | .hbm, ⟨46, _⟩ => ⟨S800000x128, .f32⟩
  | .hbm, ⟨47, _⟩ => ⟨S_, .f32⟩
  | .hbm, ⟨48, _⟩ => ⟨S50000x128, .f32⟩
  | .hbm, ⟨49, _⟩ => ⟨S800000x1, .i32⟩
  | .hbm, ⟨50, _⟩ => ⟨S50000x128, .f32⟩
  | .hbm, ⟨51, _⟩ => ⟨S256x128, .f32⟩
  | .hbm, ⟨52, _⟩ => ⟨S1x128, .f32⟩
  | .hbm, ⟨53, _⟩ => ⟨S50000x128, .f32⟩
  | .hbm, ⟨54, _⟩ => ⟨S50000x128, .bf16⟩
  | .hbm, ⟨55, _⟩ => ⟨S_, .i32⟩
  | .hbm, ⟨56, _⟩ => ⟨S800000, .i32⟩
  | .hbm, ⟨57, _⟩ => ⟨S800000, .i1⟩
  | .hbm, ⟨58, _⟩ => ⟨S_, .i32⟩
  | .hbm, ⟨59, _⟩ => ⟨S800000, .i32⟩
  | .hbm, ⟨60, _⟩ => ⟨S800000, .i32⟩
  | .hbm, ⟨61, _⟩ => ⟨S800000, .i32⟩
  | .hbm, ⟨62, _⟩ => ⟨S800000x1, .i32⟩
  | .hbm, ⟨63, _⟩ => ⟨S800000x128, .bf16⟩
  | .hbm, ⟨64, _⟩ => ⟨S800000x128, .f32⟩
  | .hbm, ⟨65, _⟩ => ⟨S_, .f32⟩
  | .hbm, ⟨66, _⟩ => ⟨S50000x128, .f32⟩
  | .hbm, ⟨67, _⟩ => ⟨S800000x1, .i32⟩
  | .hbm, ⟨68, _⟩ => ⟨S50000x128, .f32⟩
  | .hbm, ⟨69, _⟩ => ⟨S256x128, .f32⟩
  | .hbm, ⟨70, _⟩ => ⟨S1x128, .f32⟩
  | .hbm, ⟨71, _⟩ => ⟨S50000x128, .f32⟩
  | .hbm, ⟨72, _⟩ => ⟨S50000x128, .bf16⟩
  | .hbm, ⟨73, _⟩ => ⟨S_, .i32⟩
  | .hbm, ⟨74, _⟩ => ⟨S800000, .i32⟩
  | .hbm, ⟨75, _⟩ => ⟨S800000, .i1⟩
  | .hbm, ⟨76, _⟩ => ⟨S_, .i32⟩
  | .hbm, ⟨77, _⟩ => ⟨S800000, .i32⟩
  | .hbm, ⟨78, _⟩ => ⟨S800000, .i32⟩
  | .hbm, ⟨79, _⟩ => ⟨S800000, .i32⟩
  | .hbm, ⟨80, _⟩ => ⟨S800000x1, .i32⟩
  | .hbm, ⟨81, _⟩ => ⟨S800000x128, .bf16⟩
  | .hbm, ⟨82, _⟩ => ⟨S800000x128, .f32⟩
  | .hbm, ⟨83, _⟩ => ⟨S_, .f32⟩
  | .hbm, ⟨84, _⟩ => ⟨S50000x128, .f32⟩
  | .hbm, ⟨85, _⟩ => ⟨S800000x1, .i32⟩
  | .hbm, ⟨86, _⟩ => ⟨S50000x128, .f32⟩
  | .hbm, ⟨87, _⟩ => ⟨S256x128, .f32⟩
  | .hbm, ⟨88, _⟩ => ⟨S1x128, .f32⟩
  | .hbm, ⟨89, _⟩ => ⟨S50000x128, .f32⟩
  | .hbm, ⟨90, _⟩ => ⟨S50000x128, .bf16⟩
  | .hbm, ⟨91, _⟩ => ⟨S_, .i32⟩
  | .hbm, ⟨92, _⟩ => ⟨S800000, .i32⟩
  | .hbm, ⟨93, _⟩ => ⟨S800000, .i1⟩
  | .hbm, ⟨94, _⟩ => ⟨S_, .i32⟩
  | .hbm, ⟨95, _⟩ => ⟨S800000, .i32⟩
  | .hbm, ⟨96, _⟩ => ⟨S800000, .i32⟩
  | .hbm, ⟨97, _⟩ => ⟨S800000, .i32⟩
  | .hbm, ⟨98, _⟩ => ⟨S800000x1, .i32⟩
  | .hbm, ⟨99, _⟩ => ⟨S800000x128, .bf16⟩
  | .hbm, ⟨100, _⟩ => ⟨S800000x128, .f32⟩
  | .hbm, ⟨101, _⟩ => ⟨S_, .f32⟩
  | .hbm, ⟨102, _⟩ => ⟨S50000x128, .f32⟩
  | .hbm, ⟨103, _⟩ => ⟨S800000x1, .i32⟩
  | .hbm, ⟨104, _⟩ => ⟨S50000x128, .f32⟩
  | .hbm, ⟨105, _⟩ => ⟨S256x128, .f32⟩
  | .hbm, ⟨106, _⟩ => ⟨S1x128, .f32⟩
  | .hbm, ⟨107, _⟩ => ⟨S50000x128, .f32⟩
  | .hbm, ⟨108, _⟩ => ⟨S_, .f32⟩
  | .hbm, ⟨109, _⟩ => ⟨S64x128, .f32⟩
  | .hbm, ⟨110, _⟩ => ⟨S50000x1, .i32⟩
  | .hbm, ⟨111, _⟩ => ⟨S64x128, .f32⟩
  | .hbm, ⟨112, _⟩ => ⟨S_, .f32⟩
  | .hbm, ⟨113, _⟩ => ⟨S50000, .f32⟩
  | .hbm, ⟨114, _⟩ => ⟨S_, .f32⟩
  | .hbm, ⟨115, _⟩ => ⟨S64, .f32⟩
  | .hbm, ⟨116, _⟩ => ⟨S50000x1, .i32⟩
  | .hbm, ⟨117, _⟩ => ⟨S64, .f32⟩
  | .hbm, ⟨118, _⟩ => ⟨S_, .f32⟩
  | .hbm, ⟨119, _⟩ => ⟨S64, .f32⟩
  | .hbm, ⟨120, _⟩ => ⟨S64, .f32⟩
  | .hbm, ⟨121, _⟩ => ⟨S64x1, .f32⟩
  | .hbm, ⟨122, _⟩ => ⟨S64x128, .f32⟩
  | .hbm, ⟨123, _⟩ => ⟨S64x128, .f32⟩
  | .hbm, ⟨124, _⟩ => ⟨S1x128, .f32⟩
  | .hbm, ⟨125, _⟩ => ⟨S1x16, .f32⟩
  | .hbm, ⟨126, _⟩ => ⟨S64x16, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x1, .f32⟩
  | .local _ .vmem, ⟨5, _⟩ => ⟨S2000x1, .f32⟩
  | .local _ .vmem, ⟨6, _⟩ => ⟨S256x128, .f32⟩
  | .local _ .vmem, ⟨7, _⟩ => ⟨S1x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S2000x1, .f32⟩
  | .local _ .vmem, ⟨15, _⟩ => ⟨S2000x1, .f32⟩
  | .local _ .vmem, ⟨16, _⟩ => ⟨S256x128, .f32⟩
  | .local _ .vmem, ⟨17, _⟩ => ⟨S1x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S2000x1, .f32⟩
  | .local _ .vmem, ⟨25, _⟩ => ⟨S2000x1, .f32⟩
  | .local _ .vmem, ⟨26, _⟩ => ⟨S256x128, .f32⟩
  | .local _ .vmem, ⟨27, _⟩ => ⟨S1x128, .f32⟩
  | .local _ .vmem, ⟨28, _⟩ => ⟨S2000x128, .f32⟩
  | .local _ .vmem, ⟨29, _⟩ => ⟨S2000x128, .f32⟩
  | .local _ .vmem, ⟨30, _⟩ => ⟨S2000x128, .f32⟩
  | .local _ .vmem, ⟨31, _⟩ => ⟨S2000x128, .f32⟩
  | .local _ .vmem, ⟨32, _⟩ => ⟨S2000x128, .f32⟩
  | .local _ .vmem, ⟨33, _⟩ => ⟨S2000x128, .f32⟩
  | .local _ .vmem, ⟨34, _⟩ => ⟨S2000x1, .f32⟩
  | .local _ .vmem, ⟨35, _⟩ => ⟨S2000x1, .f32⟩
  | .local _ .vmem, ⟨36, _⟩ => ⟨S256x128, .f32⟩
  | .local _ .vmem, ⟨37, _⟩ => ⟨S1x128, .f32⟩
  | .local _ .vmem, ⟨38, _⟩ => ⟨S2000x128, .f32⟩
  | .local _ .vmem, ⟨39, _⟩ => ⟨S2000x128, .f32⟩
  | .local _ .vmem, ⟨40, _⟩ => ⟨S64x128, .f32⟩
  | .local _ .vmem, ⟨41, _⟩ => ⟨S128x128, .f32⟩
  | .local _ .vmem, ⟨42, _⟩ => ⟨S1x128, .f32⟩
  | .local _ .vmem, ⟨43, _⟩ => ⟨S128x16, .f32⟩
  | .local _ .vmem, ⟨44, _⟩ => ⟨S1x16, .f32⟩
  | .local _ .vmem, ⟨45, _⟩ => ⟨S64x16, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_cst : Ref sig .tc := ⟨.hbm, 23, rfl⟩
abbrev main_v4 : Ref sig .tc := ⟨.hbm, 24, rfl⟩
abbrev main_cst_0 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_cst_1 : Ref sig .tc := ⟨.hbm, 29, rfl⟩
abbrev main_v8 : Ref sig .tc := ⟨.hbm, 30, rfl⟩
abbrev main_v9 : Ref sig .tc := ⟨.hbm, 31, rfl⟩
abbrev main_cst_2 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_c : Ref sig .tc := ⟨.hbm, 37, rfl⟩
abbrev main_v14 : Ref sig .tc := ⟨.hbm, 38, rfl⟩
abbrev main_v15 : Ref sig .tc := ⟨.hbm, 39, rfl⟩
abbrev main_c_3 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_cst_4 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_c_5 : Ref sig .tc := ⟨.hbm, 55, rfl⟩
abbrev main_v29 : Ref sig .tc := ⟨.hbm, 56, rfl⟩
abbrev main_v30 : Ref sig .tc := ⟨.hbm, 57, rfl⟩
abbrev main_c_6 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_cst_7 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_c_8 : Ref sig .tc := ⟨.hbm, 73, rfl⟩
abbrev main_v44 : Ref sig .tc := ⟨.hbm, 74, rfl⟩
abbrev main_v45 : Ref sig .tc := ⟨.hbm, 75, rfl⟩
abbrev main_c_9 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_cst_10 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_c_11 : Ref sig .tc := ⟨.hbm, 91, rfl⟩
abbrev main_v59 : Ref sig .tc := ⟨.hbm, 92, rfl⟩
abbrev main_v60 : Ref sig .tc := ⟨.hbm, 93, rfl⟩
abbrev main_c_12 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_cst_13 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_cst_14 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_cst_15 : Ref sig .tc := ⟨.hbm, 112, rfl⟩
abbrev main_v76 : Ref sig .tc := ⟨.hbm, 113, rfl⟩
abbrev main_cst_16 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_cst_17 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg5_0 : Ref sig .tc := ⟨.vmem, 28, rfl⟩
abbrev cc2_stg5_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg2_1 : Ref sig .tc := ⟨.vmem, 35, rfl⟩
abbrev cc3_stg3_0 : Ref sig .tc := ⟨.vmem, 36, rfl⟩
abbrev cc3_stg4_0 : Ref sig .tc := ⟨.vmem, 37, rfl⟩
abbrev cc3_stg5_0 : Ref sig .tc := ⟨.vmem, 38, rfl⟩
abbrev cc3_stg5_1 : Ref sig .tc := ⟨.vmem, 39, rfl⟩
abbrev cc4_stg0_0 : Ref sig .tc := ⟨.vmem, 40, rfl⟩
abbrev cc4_stg1_0 : Ref sig .tc := ⟨.vmem, 41, rfl⟩
abbrev cc4_stg2_0 : Ref sig .tc := ⟨.vmem, 42, rfl⟩
abbrev cc4_stg3_0 : Ref sig .tc := ⟨.vmem, 43, rfl⟩
abbrev cc4_stg4_0 : Ref sig .tc := ⟨.vmem, 44, rfl⟩
abbrev cc4_stg5_0 : Ref sig .tc := ⟨.vmem, 45, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem5_0 : DmaSem sig := 18
abbrev cc1_sem5_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25
abbrev cc2_sem3_0 : DmaSem sig := 26
abbrev cc2_sem4_0 : DmaSem sig := 27
abbrev cc2_sem5_0 : DmaSem sig := 28
abbrev cc2_sem5_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem2_1 : DmaSem sig := 35
abbrev cc3_sem3_0 : DmaSem sig := 36
abbrev cc3_sem4_0 : DmaSem sig := 37
abbrev cc3_sem5_0 : DmaSem sig := 38
abbrev cc3_sem5_1 : DmaSem sig := 39
abbrev cc4_sem0_0 : DmaSem sig := 40
abbrev cc4_sem1_0 : DmaSem sig := 41
abbrev cc4_sem2_0 : DmaSem sig := 42
abbrev cc4_sem3_0 : DmaSem sig := 43
abbrev cc4_sem4_0 : DmaSem sig := 44
abbrev cc4_sem5_0 : DmaSem sig := 45

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S256x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S256x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S64x128 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x16 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x16 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S64x16 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  bitsLt_bf16_f32 : FTy.bits .bf16 < FTy.bits .f32
  bcast_S_S50000x128 : S_.BroadcastsInDim S50000x128 (![] : Fin 0 → Fin S50000x128.rank)
  concatenates_S128x128_S128x128_S256x128_d0 : Shape.Concatenates [S128x128, S128x128] S256x128 0
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  concatenates_S2000x128_S2000x128_S2000x256_d1 : Shape.Concatenates [S2000x128, S2000x128] S2000x256 1
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  bcast_S_S64x128 : S_.BroadcastsInDim S64x128 (![] : Fin 0 → Fin S64x128.rank)
  bcast_S50000_S50000x1_0 : S50000.BroadcastsInDim S50000x1 (![0] : Fin 1 → Fin S50000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  shapeCasts_S16_S1x16 : S16.ShapeCasts S1x16
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S128x128_S128x128_0_0 : ∀ a, (![0, 0] : Fin 2 → Nat) a + S128x128.size a ≤ S128x128.size a
  h_S128x128 : 0 < S128x128.numel
  broadcasts_S1x128_S64x128 : S1x128.Broadcasts S64x128
  inb_S128x16_S128x16_0_0 : ∀ a, (![0, 0] : Fin 2 → Nat) a + S128x16.size a ≤ S128x16.size a
  h_S128x16 : 0 < S128x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S64x16 : S1x16.Broadcasts S64x16
  inb_S64x16_S64x16_0_0 : ∀ a, (![0, 0] : Fin 2 → Nat) a + S64x16.size a ≤ S64x16.size a
  h_S64x16 : 0 < S64x16.numel
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x256_S256x128_S2000x128_1_0_0_1_n_n_wf : DotDims.WF S2000x256 S256x128 S2000x128 [1] [0] [0] [1] [] []
  scatter_S64x128_S50000x1_S50000x128_1_0_0_1_wf : ScatterDims.WF S64x128 S50000x1 S50000x128 [1] [0] [0] 1
  scatter_S64_S50000x1_S50000_n_0_0_1_wf : ScatterDims.WF S64 S50000x1 S50000 [] [0] [0] 1
  dot_S64x128_S128x128_S64x128_1_0_0_1_n_n_wf : DotDims.WF S64x128 S128x128 S64x128 [1] [0] [0] [1] [] []
  dot_S64x128_S128x16_S64x16_1_0_0_1_n_n_wf : DotDims.WF S64x128 S128x16 S64x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S50000x1.size a
  hwx0_2 : ∀ i : grid0.Coords, EltTy.bits .f32 = 32 ∨ (Rect.block (s := S50000x1) S2000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x128.size a
  hwx0_3 : ∀ i : grid0.Coords, EltTy.bits .f32 = 32 ∨ (Rect.block (s := S256x128) S256x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S50000x128.size a
  hwx0_5 : ∀ i : grid0.Coords, EltTy.bits .f32 = 32 ∨ (Rect.block (s := S50000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x128.size a ≤ S256x128.size a
  hwx1_3 : ∀ i : grid1.Coords, EltTy.bits .f32 = 32 ∨ (Rect.block (s := S256x128) S256x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .f32 = 32 ∨ (Rect.block (s := S50000x128) S2000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x1.size a ≤ S50000x1.size a
  hwx2_2 : ∀ i : grid2.Coords, EltTy.bits .f32 = 32 ∨ (Rect.block (s := S50000x1) S2000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x128.size a ≤ S256x128.size a
  hwx2_3 : ∀ i : grid2.Coords, EltTy.bits .f32 = 32 ∨ (Rect.block (s := S256x128) S256x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x128.size a ≤ S50000x128.size a
  hwx2_5 : ∀ i : grid2.Coords, EltTy.bits .f32 = 32 ∨ (Rect.block (s := S50000x128) S2000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S50000x128.size a
  hwx3_1 : ∀ i : grid3.Coords, EltTy.bits .f32 = 32 ∨ (Rect.block (s := S50000x128) S2000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S50000x1.size a
  hwx3_2 : ∀ i : grid3.Coords, EltTy.bits .f32 = 32 ∨ (Rect.block (s := S50000x1) S2000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S256x128.size a ≤ S256x128.size a
  hwx3_3 : ∀ i : grid3.Coords, EltTy.bits .f32 = 32 ∨ (Rect.block (s := S256x128) S256x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x128.size a ≤ S50000x128.size a
  hwx3_5 : ∀ i : grid3.Coords, EltTy.bits .f32 = 32 ∨ (Rect.block (s := S50000x128) S2000x128.size (cc3_transform_5 i) (hinb3_5 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S64x128.size a ≤ S64x128.size a
  hwx4_0 : ∀ i : grid4.Coords, EltTy.bits .f32 = 32 ∨ (Rect.block (s := S64x128) S64x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x16.size a ≤ S128x16.size a
  hwx4_3 : ∀ i : grid4.Coords, EltTy.bits .f32 = 32 ∨ (Rect.block (s := S128x16) S128x16.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x16.size a ≤ S1x16.size a
  hwx4_4 : ∀ i : grid4.Coords, EltTy.bits .f32 = 32 ∨ (Rect.block (s := S1x16) S1x16.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S64x16.size a ≤ S64x16.size a
  hwx4_5 : ∀ i : grid4.Coords, EltTy.bits .f32 = 32 ∨ (Rect.block (s := S64x16) S64x16.size (cc4_transform_5 i) (hinb4_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf
def dot_S64x128_S128x16_S64x16_1_0_0_1_n_n : DotDims S64x128 S128x16 S64x16 where
  lhsContracting := [1]
  rhsContracting := [0]
  lhsNonContracting := [0]
  rhsNonContracting := [1]
  lhsBatch := []
  rhsBatch := []
  wf := dot_S64x128_S128x16_S64x16_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v25) S256x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v27) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v27) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v39) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v40) S256x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v41) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v42) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v42) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v54) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v12) S2000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v55) S256x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v56) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v57) S2000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v57) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v69) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v12) S2000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v70) S256x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v71) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v72) S2000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v84) S64x128.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_arg15) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v85) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg17) S128x16.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v86) S1x16.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v87) S64x16.size cc4_transform_5 reads4_5 true true 1 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S64x128 : Shape := ⟨2, ![64, 128]⟩
abbrev S64 : Shape := ⟨1, ![64]⟩
abbrev S64x1 : Shape := ⟨2, ![64, 1]⟩
abbrev S64x16 : Shape := ⟨2, ![64, 16]⟩
abbrev S1x16 : Shape := ⟨2, ![1, 16]⟩

abbrev nBuf : Space → Nat
  | .hbm => 183
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x128, .f32⟩
  | 4 => ⟨S128, .f32⟩
  | 5 => ⟨S128x128, .f32⟩
  | 6 => ⟨S128x128, .f32⟩
  | 7 => ⟨S128, .f32⟩
  | 8 => ⟨S128x128, .f32⟩
  | 9 => ⟨S128x128, .f32⟩
  | 10 => ⟨S128, .f32⟩
  | 11 => ⟨S128x128, .f32⟩
  | 12 => ⟨S128x128, .f32⟩
  | 13 => ⟨S128, .f32⟩
  | 14 => ⟨S128x128, .f32⟩
  | 15 => ⟨S128x128, .f32⟩
  | 16 => ⟨S128, .f32⟩
  | 17 => ⟨S128x16, .f32⟩
  | 18 => ⟨S16, .f32⟩
  | 19 => ⟨S1x800000, .i32⟩
  | 20 => ⟨S800000, .i32⟩
  | 21 => ⟨S1x800000, .i32⟩
  | 22 => ⟨S800000, .i32⟩
  | 23 => ⟨S_, .i32⟩
  | 24 => ⟨S800000, .i32⟩
  | 25 => ⟨S800000, .i1⟩
  | 26 => ⟨S_, .i32⟩
  | 27 => ⟨S800000, .i32⟩
  | 28 => ⟨S800000, .i32⟩
  | 29 => ⟨S800000, .i32⟩
  | 30 => ⟨S800000x1, .i32⟩
  | 31 => ⟨S800000x128, .f32⟩
  | 32 => ⟨S_, .f32⟩
  | 33 => ⟨S50000x128, .f32⟩
  | 34 => ⟨S800000x1, .i32⟩
  | 35 => ⟨S50000x128, .f32⟩
  | 36 => ⟨S_, .f32⟩
  | 37 => ⟨S800000, .f32⟩
  | 38 => ⟨S_, .f32⟩
  | 39 => ⟨S50000, .f32⟩
  | 40 => ⟨S800000x1, .i32⟩
  | 41 => ⟨S50000, .f32⟩
  | 42 => ⟨S_, .f32⟩
  | 43 => ⟨S50000, .f32⟩
  | 44 => ⟨S50000, .f32⟩
  | 45 => ⟨S50000x1, .f32⟩
  | 46 => ⟨S50000x128, .f32⟩
  | 47 => ⟨S50000x128, .f32⟩
  | 48 => ⟨S50000x128, .f32⟩
  | 49 => ⟨S1x128, .f32⟩
  | 50 => ⟨S50000x128, .f32⟩
  | 51 => ⟨S50000x128, .f32⟩
  | 52 => ⟨S50000x128, .f32⟩
  | 53 => ⟨S50000x128, .f32⟩
  | 54 => ⟨S_, .f32⟩
  | 55 => ⟨S50000x128, .f32⟩
  | 56 => ⟨S50000x128, .f32⟩
  | 57 => ⟨S_, .i32⟩
  | 58 => ⟨S800000, .i32⟩
  | 59 => ⟨S800000, .i1⟩
  | 60 => ⟨S_, .i32⟩
  | 61 => ⟨S800000, .i32⟩
  | 62 => ⟨S800000, .i32⟩
  | 63 => ⟨S800000, .i32⟩
  | 64 => ⟨S800000x1, .i32⟩
  | 65 => ⟨S800000x128, .f32⟩
  | 66 => ⟨S_, .f32⟩
  | 67 => ⟨S50000x128, .f32⟩
  | 68 => ⟨S800000x1, .i32⟩
  | 69 => ⟨S50000x128, .f32⟩
  | 70 => ⟨S_, .f32⟩
  | 71 => ⟨S800000, .f32⟩
  | 72 => ⟨S_, .f32⟩
  | 73 => ⟨S50000, .f32⟩
  | 74 => ⟨S800000x1, .i32⟩
  | 75 => ⟨S50000, .f32⟩
  | 76 => ⟨S_, .f32⟩
  | 77 => ⟨S50000, .f32⟩
  | 78 => ⟨S50000, .f32⟩
  | 79 => ⟨S50000x1, .f32⟩
  | 80 => ⟨S50000x128, .f32⟩
  | 81 => ⟨S50000x128, .f32⟩
  | 82 => ⟨S50000x128, .f32⟩
  | 83 => ⟨S1x128, .f32⟩
  | 84 => ⟨S50000x128, .f32⟩
  | 85 => ⟨S50000x128, .f32⟩
  | 86 => ⟨S50000x128, .f32⟩
  | 87 => ⟨S50000x128, .f32⟩
  | 88 => ⟨S_, .f32⟩
  | 89 => ⟨S50000x128, .f32⟩
  | 90 => ⟨S50000x128, .f32⟩
  | 91 => ⟨S_, .i32⟩
  | 92 => ⟨S800000, .i32⟩
  | 93 => ⟨S800000, .i1⟩
  | 94 => ⟨S_, .i32⟩
  | 95 => ⟨S800000, .i32⟩
  | 96 => ⟨S800000, .i32⟩
  | 97 => ⟨S800000, .i32⟩
  | 98 => ⟨S800000x1, .i32⟩
  | 99 => ⟨S800000x128, .f32⟩
  | 100 => ⟨S_, .f32⟩
  | 101 => ⟨S50000x128, .f32⟩
  | 102 => ⟨S800000x1, .i32⟩
  | 103 => ⟨S50000x128, .f32⟩
  | 104 => ⟨S_, .f32⟩
  | 105 => ⟨S800000, .f32⟩
  | 106 => ⟨S_, .f32⟩
  | 107 => ⟨S50000, .f32⟩
  | 108 => ⟨S800000x1, .i32⟩
  | 109 => ⟨S50000, .f32⟩
  | 110 => ⟨S_, .f32⟩
  | 111 => ⟨S50000, .f32⟩
  | 112 => ⟨S50000, .f32⟩
  | 113 => ⟨S50000x1, .f32⟩
  | 114 => ⟨S50000x128, .f32⟩
  | 115 => ⟨S50000x128, .f32⟩
  | 116 => ⟨S50000x128, .f32⟩
  | 117 => ⟨S1x128, .f32⟩
  | 118 => ⟨S50000x128, .f32⟩
  | 119 => ⟨S50000x128, .f32⟩
  | 120 => ⟨S50000x128, .f32⟩
  | 121 => ⟨S50000x128, .f32⟩
  | 122 => ⟨S_, .f32⟩
  | 123 => ⟨S50000x128, .f32⟩
  | 124 => ⟨S50000x128, .f32⟩
  | 125 => ⟨S_, .i32⟩
  | 126 => ⟨S800000, .i32⟩
  | 127 => ⟨S800000, .i1⟩
  | _ => ⟨S50000x128, .f32⟩

abbrev hbmTy0_1 (i : Nat) : BufTy := match i % 128 with
  | 0 => ⟨S_, .i32⟩
  | 1 => ⟨S800000, .i32⟩
  | 2 => ⟨S800000, .i32⟩
  | 3 => ⟨S800000, .i32⟩
  | 4 => ⟨S800000x1, .i32⟩
  | 5 => ⟨S800000x128, .f32⟩
  | 6 => ⟨S_, .f32⟩
  | 7 => ⟨S50000x128, .f32⟩
  | 8 => ⟨S800000x1, .i32⟩
  | 9 => ⟨S50000x128, .f32⟩
  | 10 => ⟨S_, .f32⟩
  | 11 => ⟨S800000, .f32⟩
  | 12 => ⟨S_, .f32⟩
  | 13 => ⟨S50000, .f32⟩
  | 14 => ⟨S800000x1, .i32⟩
  | 15 => ⟨S50000, .f32⟩
  | 16 => ⟨S_, .f32⟩
  | 17 => ⟨S50000, .f32⟩
  | 18 => ⟨S50000, .f32⟩
  | 19 => ⟨S50000x1, .f32⟩
  | 20 => ⟨S50000x128, .f32⟩
  | 21 => ⟨S50000x128, .f32⟩
  | 22 => ⟨S50000x128, .f32⟩
  | 23 => ⟨S1x128, .f32⟩
  | 24 => ⟨S50000x128, .f32⟩
  | 25 => ⟨S50000x128, .f32⟩
  | 26 => ⟨S50000x128, .f32⟩
  | 27 => ⟨S50000x128, .f32⟩
  | 28 => ⟨S_, .f32⟩
  | 29 => ⟨S50000x128, .f32⟩
  | 30 => ⟨S50000x128, .f32⟩
  | 31 => ⟨S_, .f32⟩
  | 32 => ⟨S64x128, .f32⟩
  | 33 => ⟨S50000x1, .i32⟩
  | 34 => ⟨S64x128, .f32⟩
  | 35 => ⟨S_, .f32⟩
  | 36 => ⟨S50000, .f32⟩
  | 37 => ⟨S_, .f32⟩
  | 38 => ⟨S64, .f32⟩
  | 39 => ⟨S50000x1, .i32⟩
  | 40 => ⟨S64, .f32⟩
  | 41 => ⟨S_, .f32⟩
  | 42 => ⟨S64, .f32⟩
  | 43 => ⟨S64, .f32⟩
  | 44 => ⟨S64x1, .f32⟩
  | 45 => ⟨S64x128, .f32⟩
  | 46 => ⟨S64x128, .f32⟩
  | 47 => ⟨S64x128, .f32⟩
  | 48 => ⟨S1x128, .f32⟩
  | 49 => ⟨S64x128, .f32⟩
  | 50 => ⟨S64x128, .f32⟩
  | 51 => ⟨S64x16, .f32⟩
  | 52 => ⟨S1x16, .f32⟩
  | 53 => ⟨S64x16, .f32⟩
  | 54 => ⟨S64x16, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_c : Ref sig .tc := ⟨.hbm, 23, rfl⟩
abbrev main_v4 : Ref sig .tc := ⟨.hbm, 24, rfl⟩
abbrev main_v5 : Ref sig .tc := ⟨.hbm, 25, rfl⟩
abbrev main_c_0 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_cst : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_cst_1 : Ref sig .tc := ⟨.hbm, 36, rfl⟩
abbrev main_v14 : Ref sig .tc := ⟨.hbm, 37, rfl⟩
abbrev main_cst_2 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_cst_3 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_call0_cst : Ref sig .tc := ⟨.hbm, 54, rfl⟩
abbrev main_call0_v0 : Ref sig .tc := ⟨.hbm, 55, rfl⟩
abbrev main_v29 : Ref sig .tc := ⟨.hbm, 56, rfl⟩
abbrev main_c_4 : Ref sig .tc := ⟨.hbm, 57, rfl⟩
abbrev main_v30 : Ref sig .tc := ⟨.hbm, 58, rfl⟩
abbrev main_v31 : Ref sig .tc := ⟨.hbm, 59, rfl⟩
abbrev main_c_5 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_cst_6 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_cst_7 : Ref sig .tc := ⟨.hbm, 70, rfl⟩
abbrev main_v40 : Ref sig .tc := ⟨.hbm, 71, rfl⟩
abbrev main_cst_8 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_cst_9 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_call1_cst : Ref sig .tc := ⟨.hbm, 88, rfl⟩
abbrev main_call1_v0 : Ref sig .tc := ⟨.hbm, 89, rfl⟩
abbrev main_v55 : Ref sig .tc := ⟨.hbm, 90, rfl⟩
abbrev main_c_10 : Ref sig .tc := ⟨.hbm, 91, rfl⟩
abbrev main_v56 : Ref sig .tc := ⟨.hbm, 92, rfl⟩
abbrev main_v57 : Ref sig .tc := ⟨.hbm, 93, rfl⟩
abbrev main_c_11 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_cst_12 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_cst_13 : Ref sig .tc := ⟨.hbm, 104, rfl⟩
abbrev main_v66 : Ref sig .tc := ⟨.hbm, 105, rfl⟩
abbrev main_cst_14 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_cst_15 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_call2_cst : Ref sig .tc := ⟨.hbm, 122, rfl⟩
abbrev main_call2_v0 : Ref sig .tc := ⟨.hbm, 123, rfl⟩
abbrev main_v81 : Ref sig .tc := ⟨.hbm, 124, rfl⟩
abbrev main_c_16 : Ref sig .tc := ⟨.hbm, 125, rfl⟩
abbrev main_v82 : Ref sig .tc := ⟨.hbm, 126, rfl⟩
abbrev main_v83 : Ref sig .tc := ⟨.hbm, 127, rfl⟩
abbrev main_c_17 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_cst_18 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_cst_19 : Ref sig .tc := ⟨.hbm, 138, rfl⟩
abbrev main_v92 : Ref sig .tc := ⟨.hbm, 139, rfl⟩
abbrev main_cst_20 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_cst_21 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_call3_cst : Ref sig .tc := ⟨.hbm, 156, rfl⟩
abbrev main_call3_v0 : Ref sig .tc := ⟨.hbm, 157, rfl⟩
abbrev main_v107 : Ref sig .tc := ⟨.hbm, 158, rfl⟩
abbrev main_cst_22 : Ref sig .tc := ⟨.hbm, 159, rfl⟩
abbrev main_v108 : Ref sig .tc := ⟨.hbm, 160, rfl⟩
abbrev main_v109 : Ref sig .tc := ⟨.hbm, 161, rfl⟩
abbrev main_v110 : Ref sig .tc := ⟨.hbm, 162, rfl⟩
abbrev main_cst_23 : Ref sig .tc := ⟨.hbm, 163, rfl⟩
abbrev main_v111 : Ref sig .tc := ⟨.hbm, 164, rfl⟩
abbrev main_cst_24 : Ref sig .tc := ⟨.hbm, 165, rfl⟩
abbrev main_v112 : Ref sig .tc := ⟨.hbm, 166, rfl⟩
abbrev main_v113 : Ref sig .tc := ⟨.hbm, 167, rfl⟩
abbrev main_v114 : Ref sig .tc := ⟨.hbm, 168, rfl⟩
abbrev main_cst_25 : Ref sig .tc := ⟨.hbm, 169, rfl⟩
abbrev main_v115 : Ref sig .tc := ⟨.hbm, 170, rfl⟩
abbrev main_v116 : Ref sig .tc := ⟨.hbm, 171, rfl⟩
abbrev main_v117 : Ref sig .tc := ⟨.hbm, 172, rfl⟩
abbrev main_v118 : Ref sig .tc := ⟨.hbm, 173, rfl⟩
abbrev main_v119 : Ref sig .tc := ⟨.hbm, 174, rfl⟩
abbrev main_v120 : Ref sig .tc := ⟨.hbm, 175, rfl⟩
abbrev main_v121 : Ref sig .tc := ⟨.hbm, 176, rfl⟩
abbrev main_v122 : Ref sig .tc := ⟨.hbm, 177, rfl⟩
abbrev main_v123 : Ref sig .tc := ⟨.hbm, 178, rfl⟩
abbrev main_v124 : Ref sig .tc := ⟨.hbm, 179, rfl⟩
abbrev main_v125 : Ref sig .tc := ⟨.hbm, 180, rfl⟩
abbrev main_v126 : Ref sig .tc := ⟨.hbm, 181, rfl⟩
abbrev main_v127 : Ref sig .tc := ⟨.hbm, 182, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S64x128 : S_.BroadcastsInDim S64x128 (![] : Fin 0 → Fin S64x128.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S1x128_S64x128_0_1 : S1x128.BroadcastsInDim S64x128 (![0, 1] : Fin 2 → Fin S64x128.rank)
  bcast_S16_S1x16_1 : S16.BroadcastsInDim S1x16 (![1] : Fin 1 → Fin S1x16.rank)
  bcast_S1x16_S64x16_0_1 : S1x16.BroadcastsInDim S64x16 (![0, 1] : Fin 2 → Fin S64x16.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  scatter_S64x128_S50000x1_S50000x128_1_0_0_1_wf : ScatterDims.WF S64x128 S50000x1 S50000x128 [1] [0] [0] 1
  scatter_S64_S50000x1_S50000_n_0_0_1_wf : ScatterDims.WF S64 S50000x1 S50000 [] [0] [0] 1
  dot_S64x128_S128x128_S64x128_1_0_0_1_n_n_wf : DotDims.WF S64x128 S128x128 S64x128 [1] [0] [0] [1] [] []
  dot_S64x128_S128x16_S64x16_1_0_0_1_n_n_wf : DotDims.WF S64x128 S128x16 S64x16 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf
def dot_S64x128_S128x16_S64x16_1_0_0_1_n_n : DotDims S64x128 S128x16 S64x16 where
  lhsContracting := [1]
  rhsContracting := [0]
  lhsNonContracting := [0]
  rhsNonContracting := [1]
  lhsBatch := []
  rhsBatch := []
  wf := dot_S64x128_S128x16_S64x16_1_0_0_1_n_n_wf

class Facts : Prop extends Facts₀ where

variable [Facts]
-- ==== Proof.SageRun.lean ====
/-
  The run of the idealized kernel program with its RESULT kept: every weakly fair execution of the program's ten
  segments (five stretches of host operations, five pipelined kernels) terminates without a fault, the result buffer
  ends at the contents the fold of the segments leaves there, and the argument arrays end as launched. The fold is the
  chain of boundary contents: a stretch of host operations applies its operations to the contents before it, a kernel
  region replaces each of its arrays by what its write-backs leave and keeps every other buffer.
-/
import proofs.«111463_j31756988186712_2_alg».proof.Proof.Gen.KernelIdeal.Frame

set_option maxRecDepth 16384

noncomputable section

namespace Cert.KernelIdeal.SageRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The segments' launch, the last thread state read against the final state: the result buffer at the last boundary's
    contents, each argument walked back through the boundaries to the launch memory. -/
theorem run_val : θ_run defs (onTc (τ := τ) (main (F := F))) ⟨m, fun _ => 0, ρ⟩ (fun r => ∀ c : Dev nD,
      r.2.mem ((c.tc : Thread nD τ).loc main_v87) = W10 m ρ c (Proc.devRef .tc main_v87)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v87 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c),
       (h c _ (mem_uc main_arg12 (by decide))).trans (W10_main_arg12 m ρ c),
       (h c _ (mem_uc main_arg13 (by decide))).trans (W10_main_arg13 m ρ c),
       (h c _ (mem_uc main_arg14 (by decide))).trans (W10_main_arg14 m ρ c),
       (h c _ (mem_uc main_arg15 (by decide))).trans (W10_main_arg15 m ρ c),
       (h c _ (mem_uc main_arg16 (by decide))).trans (W10_main_arg16 m ρ c),
       (h c _ (mem_uc main_arg17 (by decide))).trans (W10_main_arg17 m ρ c),
       (h c _ (mem_uc main_arg18 (by decide))).trans (W10_main_arg18 m ρ c)⟩)

end Cert.KernelIdeal.SageRun

end
-- ==== Proof.LayerAlgebra.lean ====
/-
  The algebra of one entry of a mean-aggregation graph layer, on the extended reals.

  One side multiplies the neighbour sum by the reciprocal of the neighbour count, puts the result beside the node's own
  features and takes ONE product of contraction length 256 with the two weight matrices stacked; the other divides the
  neighbour sum by the count and takes two products of contraction length 128 with the bias added between them. The two
  agree at every extended real: dividing by a nonzero `y` is multiplying by `y⁻¹`, so `a · (1 / y) = a / y`; a sum
  over 256 positions is the sum over the first 128 plus the sum over the last 128; and addition is commutative and
  associative. No finiteness is used. The divisor is `max c 1`, which is at least one, hence not zero.
-/
import Idealize.ShloMosaic.PureOps.Ideal
import Idealize.ShloMosaic.PureOps.Ideal.Laws

noncomputable section

namespace Cert.LayerAlgebra

open Idealize.ShloMosaic

/-- The single-precision pattern of one is the extended real one. -/
theorem ofBits_one_f32 : Ideal.ofBits .f32 0x3F800000#32 = 1 := by
  simp [Ideal.ofBits, Ideal.ieee, -EReal.coe_mul]; norm_num

/-- A count clamped below by one is not zero. -/
theorem max_one_ne_zero (c : EReal) : max c 1 ≠ 0 :=
  ne_of_gt (lt_of_lt_of_le zero_lt_one (le_max_right c 1))

/-- Multiplying by the reciprocal of a nonzero divisor is dividing by it, at every extended real. -/
theorem mul_div_one (a y : EReal) (hy : y ≠ 0) : a * Ideal.div 1 y = Ideal.div a y := by
  unfold Ideal.div
  rw [if_neg hy, if_neg hy, one_mul]

/-- A sum over 256 positions is the sum over the first 128 plus the sum over the last 128. -/
theorem sum_split (f : Fin 256 → EReal) :
    ∑ k : Fin 256, f k
      = (∑ i : Fin 128, f ⟨i.val, by have := i.isLt; omega⟩) + ∑ i : Fin 128, f ⟨128 + i.val, by have := i.isLt; omega⟩ :=
  Fin.sum_univ_add (a := 128) (b := 128) (fun k : Fin (128 + 128) => f k)

/-- ONE ENTRY OF THE LAYER. `X` is the row "scaled neighbour sum, then own features", `W` the column "first weights,
    then second weights"; the stacked product plus the bias, rectified, is the two separate products with the bias
    between them, rectified. -/
theorem layer_entry (a h Wl Wr : Fin 128 → EReal) (X W : Fin 256 → EReal) (b y : EReal) (hy : y ≠ 0)
    (hX1 : ∀ i : Fin 128, X ⟨i.val, by have := i.isLt; omega⟩ = a i * Ideal.div 1 y)
    (hX2 : ∀ i : Fin 128, X ⟨128 + i.val, by have := i.isLt; omega⟩ = h i)
    (hW1 : ∀ i : Fin 128, W ⟨i.val, by have := i.isLt; omega⟩ = Wl i)
    (hW2 : ∀ i : Fin 128, W ⟨128 + i.val, by have := i.isLt; omega⟩ = Wr i) :
    max ((∑ k : Fin 256, X k * W k) + b) 0
      = max (((∑ i : Fin 128, Ideal.div (a i) y * Wl i) + b) + ∑ i : Fin 128, h i * Wr i) 0 := by
  rw [sum_split]
  simp only [hX1, hX2, hW1, hW2, mul_div_one _ _ hy]
  rw [add_right_comm]

end Cert.LayerAlgebra

end
-- ==== Proof.SageEntry.lean ====
/-
  One entry of a mean-aggregation graph layer and of the two-layer classification head, as functions of whole arrays.

  `layerEntry` is the arrangement with one stacked product: row `n` of the left operand holds the neighbour sum times
  the reciprocal count in its first 128 positions and the node's own features in its last 128; it is multiplied into
  column `f` of the stacked weights, the bias row is added and the result is rectified. `layerEntryR` is the
  arrangement with a quotient and two products. `layerEntry_eq` says the two agree whenever the reciprocal column is
  `1 / y`, the divisor row is constantly `y ≠ 0`, the stacked weights are the two weight matrices one above the
  other, and the bias row is the bias vector (the law is `Cert.LayerAlgebra.layer_entry`).
-/
import proofs.«111463_j31756988186712_2_alg».proof.Proof.LayerAlgebra
import Idealize.ShloMosaic.Lib.ValueIdx

noncomputable section

namespace Cert.SageEntry

open Idealize.ShloMosaic Idealize.ShloMosaic.ValueIdx

/-- Position `k` of row `n` of the stacked left operand: scaled neighbour sum, then own features. -/
def xin {M : Nat} (a h : (⟨2, ![M, 128]⟩ : Shape).Idx → EReal) (inv : (⟨2, ![M, 1]⟩ : Shape).Idx → EReal)
    (n : Fin M) (k : Fin 256) : EReal :=
  if hk : k.val < 128 then a (ix2 n ⟨k.val, hk⟩) * inv (ix2 n (0 : Fin 1))
  else h (ix2 n ⟨k.val - 128, by have := k.isLt; omega⟩)

theorem xin_left {M : Nat} (a h : (⟨2, ![M, 128]⟩ : Shape).Idx → EReal) (inv : (⟨2, ![M, 1]⟩ : Shape).Idx → EReal)
    (n : Fin M) (i : Fin 128) :
    xin a h inv n ⟨i.val, by have := i.isLt; omega⟩ = a (ix2 n i) * inv (ix2 n (0 : Fin 1)) := by
  unfold xin
  rw [dif_pos (show (⟨i.val, by have := i.isLt; omega⟩ : Fin 256).val < 128 from i.isLt)]

theorem xin_right {M : Nat} (a h : (⟨2, ![M, 128]⟩ : Shape).Idx → EReal) (inv : (⟨2, ![M, 1]⟩ : Shape).Idx → EReal)
    (n : Fin M) (i : Fin 128) :
    xin a h inv n ⟨128 + i.val, by have := i.isLt; omega⟩ = h (ix2 n i) := by
  unfold xin
  rw [dif_neg (show ¬ (⟨128 + i.val, by have := i.isLt; omega⟩ : Fin 256).val < 128 from by
    show ¬ 128 + i.val < 128; omega)]
  congr 2
  apply Fin.ext
  show 128 + i.val - 128 = i.val
  omega

/-- Entry `(n, f)` of the layer, one stacked product. -/
def layerEntry {M : Nat} (h a : (⟨2, ![M, 128]⟩ : Shape).Idx → EReal) (inv : (⟨2, ![M, 1]⟩ : Shape).Idx → EReal)
    (W : (⟨2, ![256, 128]⟩ : Shape).Idx → EReal) (b : (⟨2, ![1, 128]⟩ : Shape).Idx → EReal) (n : Fin M) (f : Fin 128) : EReal :=
  max ((∑ k : Fin 256, xin a h inv n k * W (ix2 k f)) + b (ix2 (0 : Fin 1) f)) 0

/-- The layer as a whole array. -/
def layerK {M : Nat} (h a : (⟨2, ![M, 128]⟩ : Shape).Idx → EReal) (inv : (⟨2, ![M, 1]⟩ : Shape).Idx → EReal)
    (W : (⟨2, ![256, 128]⟩ : Shape).Idx → EReal) (b : (⟨2, ![1, 128]⟩ : Shape).Idx → EReal) :
    (⟨2, ![M, 128]⟩ : Shape).Idx → EReal :=
  fun j => layerEntry h a inv W b (j 0) (j 1)

theorem layerK_apply {M : Nat} (h a : (⟨2, ![M, 128]⟩ : Shape).Idx → EReal) (inv : (⟨2, ![M, 1]⟩ : Shape).Idx → EReal)
    (W : (⟨2, ![256, 128]⟩ : Shape).Idx → EReal) (b : (⟨2, ![1, 128]⟩ : Shape).Idx → EReal) (n : Fin M) (f : Fin 128) :
    layerK h a inv W b (ix2 n f) = layerEntry h a inv W b n f := rfl

/-- The entry depends on row `n` of the features, of the neighbour sums and of the reciprocal column, on column `f` of
    the weights and on entry `f` of the bias row: two sets of arrays that agree there give the same entry. -/
theorem layerEntry_congr {M M' : Nat} (h a : (⟨2, ![M, 128]⟩ : Shape).Idx → EReal) (inv : (⟨2, ![M, 1]⟩ : Shape).Idx → EReal)
    (W : (⟨2, ![256, 128]⟩ : Shape).Idx → EReal) (b : (⟨2, ![1, 128]⟩ : Shape).Idx → EReal)
    (h' a' : (⟨2, ![M', 128]⟩ : Shape).Idx → EReal) (inv' : (⟨2, ![M', 1]⟩ : Shape).Idx → EReal)
    (W' : (⟨2, ![256, 128]⟩ : Shape).Idx → EReal) (b' : (⟨2, ![1, 128]⟩ : Shape).Idx → EReal)
    (n : Fin M) (n' : Fin M') (f : Fin 128)
    (hh : ∀ i : Fin 128, h (ix2 n i) = h' (ix2 n' i)) (ha : ∀ i : Fin 128, a (ix2 n i) = a' (ix2 n' i))
    (hi : inv (ix2 n (0 : Fin 1)) = inv' (ix2 n' (0 : Fin 1)))
    (hW : ∀ k : Fin 256, W (ix2 k f) = W' (ix2 k f)) (hb : b (ix2 (0 : Fin 1) f) = b' (ix2 (0 : Fin 1) f)) :
    layerEntry h a inv W b n f = layerEntry h' a' inv' W' b' n' f := by
  unfold layerEntry
  rw [hb]
  congr 2
  refine Finset.sum_congr rfl fun k _ => ?_
  rw [hW k]
  congr 1
  unfold xin
  split
  · rw [ha, hi]
  · rw [hh]

/-- Entry `(n, f)` of the layer, a quotient and two products with the bias between them. -/
def layerEntryR {M : Nat} (h a c : (⟨2, ![M, 128]⟩ : Shape).Idx → EReal)
    (Wl Wr : (⟨2, ![128, 128]⟩ : Shape).Idx → EReal) (bl : (⟨1, ![128]⟩ : Shape).Idx → EReal) (n : Fin M) (f : Fin 128) : EReal :=
  max (((∑ i : Fin 128, Ideal.div (a (ix2 n i)) (c (ix2 n i)) * Wl (ix2 i f)) + bl (ix1 f))
    + ∑ i : Fin 128, h (ix2 n i) * Wr (ix2 i f)) 0

/-- THE TWO ARRANGEMENTS AGREE at entry `(n, f)`. -/
theorem layerEntry_eq {M : Nat} (h a c : (⟨2, ![M, 128]⟩ : Shape).Idx → EReal) (inv : (⟨2, ![M, 1]⟩ : Shape).Idx → EReal)
    (W : (⟨2, ![256, 128]⟩ : Shape).Idx → EReal) (b : (⟨2, ![1, 128]⟩ : Shape).Idx → EReal)
    (Wl Wr : (⟨2, ![128, 128]⟩ : Shape).Idx → EReal) (bl : (⟨1, ![128]⟩ : Shape).Idx → EReal)
    (y : EReal) (n : Fin M) (f : Fin 128) (hy : y ≠ 0)
    (hinv : inv (ix2 n (0 : Fin 1)) = Ideal.div 1 y) (hc : ∀ i : Fin 128, c (ix2 n i) = y)
    (hW1 : ∀ i : Fin 128, W (ix2 (⟨i.val, by have := i.isLt; omega⟩ : Fin 256) f) = Wl (ix2 i f))
    (hW2 : ∀ i : Fin 128, W (ix2 (⟨128 + i.val, by have := i.isLt; omega⟩ : Fin 256) f) = Wr (ix2 i f))
    (hb : b (ix2 (0 : Fin 1) f) = bl (ix1 f)) :
    layerEntry h a inv W b n f = layerEntryR h a c Wl Wr bl n f := by
  unfold layerEntry layerEntryR
  rw [hb]
  simp only [hc]
  exact Cert.LayerAlgebra.layer_entry (fun i => a (ix2 n i)) (fun i => h (ix2 n i)) (fun i => Wl (ix2 i f))
    (fun i => Wr (ix2 i f)) (fun k => xin a h inv n k) (fun k => W (ix2 k f)) (bl (ix1 f)) y hy
    (fun i => by rw [xin_left, hinv]) (fun i => xin_right a h inv n i) hW1 hW2

/-- Entry `(p, q)` of the head: a product, a bias row, a second product, a second bias row. -/
def headEntry (g : (⟨2, ![64, 128]⟩ : Shape).Idx → EReal) (W1 : (⟨2, ![128, 128]⟩ : Shape).Idx → EReal)
    (b1 : (⟨2, ![1, 128]⟩ : Shape).Idx → EReal) (W2 : (⟨2, ![128, 16]⟩ : Shape).Idx → EReal)
    (b2 : (⟨2, ![1, 16]⟩ : Shape).Idx → EReal) (p : Fin 64) (q : Fin 16) : EReal :=
  (∑ k : Fin 128, ((∑ i : Fin 128, g (ix2 p i) * W1 (ix2 i k)) + b1 (ix2 (0 : Fin 1) k)) * W2 (ix2 k q))
    + b2 (ix2 (0 : Fin 1) q)

/-- The head's entry depends on its arrays only through their values: arrays that agree entry by entry give the same entry. -/
theorem headEntry_congr (g g' : (⟨2, ![64, 128]⟩ : Shape).Idx → EReal) (W1 W1' : (⟨2, ![128, 128]⟩ : Shape).Idx → EReal)
    (b1 b1' : (⟨2, ![1, 128]⟩ : Shape).Idx → EReal) (W2 W2' : (⟨2, ![128, 16]⟩ : Shape).Idx → EReal)
    (b2 b2' : (⟨2, ![1, 16]⟩ : Shape).Idx → EReal) (p : Fin 64) (q : Fin 16)
    (hg : g = g') (h1 : W1 = W1') (hb1 : b1 = b1') (h2 : W2 = W2') (hb2 : b2 = b2') :
    headEntry g W1 b1 W2 b2 p q = headEntry g' W1' b1' W2' b2' p q := by
  rw [hg, h1, hb1, h2, hb2]

/-- The head as a whole array. -/
def headK (g : (⟨2, ![64, 128]⟩ : Shape).Idx → EReal) (W1 : (⟨2, ![128, 128]⟩ : Shape).Idx → EReal)
    (b1 : (⟨2, ![1, 128]⟩ : Shape).Idx → EReal) (W2 : (⟨2, ![128, 16]⟩ : Shape).Idx → EReal)
    (b2 : (⟨2, ![1, 16]⟩ : Shape).Idx → EReal) : (⟨2, ![64, 16]⟩ : Shape).Idx → EReal :=
  fun j => headEntry g W1 b1 W2 b2 (j 0) (j 1)

theorem headK_apply (g : (⟨2, ![64, 128]⟩ : Shape).Idx → EReal) (W1 : (⟨2, ![128, 128]⟩ : Shape).Idx → EReal)
    (b1 : (⟨2, ![1, 128]⟩ : Shape).Idx → EReal) (W2 : (⟨2, ![128, 16]⟩ : Shape).Idx → EReal)
    (b2 : (⟨2, ![1, 16]⟩ : Shape).Idx → EReal) (p : Fin 64) (q : Fin 16) :
    headK g W1 b1 W2 b2 (ix2 p q) = headEntry g W1 b1 W2 b2 p q := rfl

end Cert.SageEntry

end
-- ==== Proof.SageDefs.lean ====
/-
  The host operations of the kernel program between its kernels, as functions of arrays on the extended reals, and
  the program's result as their composition with the kernels' whole-array functions.

  `srcK` / `dstK`: the two rows of the edge list. `aggK h s d`: gather row `s e` of `h` for every edge `e` (a negative
  index counted from the end) and add it into row `d e`. `invK d`: one over the number of edges into each node,
  that number clamped below by one, as a column. `catW`: two weight matrices one above the other. `rowB`: a bias
  vector as a row. `poolK`: per-graph sums of node features over per-graph node counts clamped below by one.
  `outK`: four layers, the pool and the head.
-/
import proofs.«111463_j31756988186712_2_alg».proof.Proof.Gen.KernelIdeal
import proofs.«111463_j31756988186712_2_alg».proof.Proof.SageEntry
import Idealize.ShloMosaic.PureOps.Ideal

noncomputable section

namespace Cert.KernelIdeal.SageDefs

open Idealize.ShloMosaic Idealize.ShloMosaic.TcCoe Idealize.SL.Sem
open Cert.KernelIdeal Cert.KernelIdeal.Gen Cert.SageEntry

abbrev X := FVec Ideal S50000x128 .f32
abbrev Sv := IVec S800000 32

def srcK (e : IVec S2x800000 32) : Sv :=
  shapeCast S800000 (extractStridedSlice S1x800000 ![0, 0] e slices_S2x800000_S1x800000_0_0) shapeCasts_S1x800000_S800000

def dstK (e : IVec S2x800000 32) : Sv :=
  shapeCast S800000 (extractStridedSlice S1x800000 ![1, 0] e slices_S2x800000_S1x800000_1_0) shapeCasts_S1x800000_S800000

def aggK (h : X) (s d : Sv) : X :=
  Host.scatterAdd (F := Ideal) scatter_S50000x128_S800000x1_S800000x128_1_0_0_1
    (broadcastInDim S50000x128 ![] bcast_S_S50000x128 (constant S_ .f32 0x00000000#32))
    (broadcastInDim S800000x1 ![0] bcast_S800000_S800000x1_0 d)
    (extf .f32
      (Host.gather gather_S50000x128_S800000x1_S800000x128_1_0_n_n_0_1_1128 (truncf .bf16 h bitsLt_bf16_f32)
        (broadcastInDim S800000x1 ![0] bcast_S800000_S800000x1_0
          (select (cmpi .slt s (broadcastInDim S800000 ![] bcast_S_S800000 (constantI S_ 32 0#32)))
            (addi s (broadcastInDim S800000 ![] bcast_S_S800000 (constantI S_ 32 50000#32))) s)))
      bitsLt_bf16_f32)

def cntK (d : Sv) : FVec Ideal S50000 .f32 :=
  Host.scatterAdd (F := Ideal) scatter_S50000_S800000x1_S800000_n_0_0_1
    (broadcastInDim S50000 ![] bcast_S_S50000 (constant S_ .f32 0x00000000#32))
    (broadcastInDim S800000x1 ![0] bcast_S800000_S800000x1_0 d)
    (broadcastInDim S800000 ![] bcast_S_S800000 (constant S_ .f32 0x3F800000#32))

def invK (d : Sv) : FVec Ideal S50000x1 .f32 :=
  shapeCast S50000x1
    (Host.divf (F := Ideal) (broadcastInDim S50000 ![] bcast_S_S50000 (constant S_ .f32 0x3F800000#32))
      (maximumf (cntK d) (broadcastInDim S50000 ![] bcast_S_S50000 (constant S_ .f32 0x3F800000#32))))
    shapeCasts_S50000_S50000x1

def catW (Wl Wr : FVec Ideal S128x128 .f32) : FVec Ideal S256x128 .f32 :=
  concatenate S256x128 0 [⟨S128x128, Wl⟩, ⟨S128x128, Wr⟩] concatenates_S128x128_S128x128_S256x128_d0

def rowB (b : FVec Ideal S128 .f32) : FVec Ideal S1x128 .f32 := shapeCast S1x128 b shapeCasts_S128_S1x128

def rowB16 (b : FVec Ideal S16 .f32) : FVec Ideal S1x16 .f32 := shapeCast S1x16 b shapeCasts_S16_S1x16

def poolK (h : X) (b : IVec S50000 32) : FVec Ideal S64x128 .f32 :=
  Host.divf (F := Ideal)
    (Host.scatterAdd (F := Ideal) scatter_S64x128_S50000x1_S50000x128_1_0_0_1
      (broadcastInDim S64x128 ![] bcast_S_S64x128 (constant S_ .f32 0x00000000#32))
      (broadcastInDim S50000x1 ![0] bcast_S50000_S50000x1_0 b) h)
    (broadcastInDim S64x128 ![0, 1] bcast_S64x1_S64x128_0_1
      (broadcastInDim S64x1 ![0] bcast_S64_S64x1_0
        (maximumf
          (Host.scatterAdd (F := Ideal) scatter_S64_S50000x1_S50000_n_0_0_1
            (broadcastInDim S64 ![] bcast_S_S64 (constant S_ .f32 0x00000000#32))
            (broadcastInDim S50000x1 ![0] bcast_S50000_S50000x1_0 b)
            (broadcastInDim S50000 ![] bcast_S_S50000 (constant S_ .f32 0x3F800000#32)))
          (broadcastInDim S64 ![] bcast_S_S64 (constant S_ .f32 0x3F800000#32)))))

/-- One layer of the kernel program as a function of the previous features, the edge rows and the parameters. -/
def layerOf (h : X) (s d : Sv) (Wl : FVec Ideal S128x128 .f32) (bl : FVec Ideal S128 .f32) (Wr : FVec Ideal S128x128 .f32) : X :=
  layerK h (aggK h s d) (invK d) (catW Wl Wr) (rowB bl)

section Result

variable (m : (ℓ : Loc nD τ sig) → Buf (Elt Ideal) ℓ) (c : Dev nD)

def src : Sv := srcK (m ((c : Thread nD τ).loc main_arg1))
def dst : Sv := dstK (m ((c : Thread nD τ).loc main_arg1))

def h1 : X := layerOf (m ((c : Thread nD τ).loc main_arg0)) (src m c) (dst m c)
  (m ((c : Thread nD τ).loc main_arg3)) (m ((c : Thread nD τ).loc main_arg4)) (m ((c : Thread nD τ).loc main_arg5))
def h2 : X := layerOf (h1 m c) (src m c) (dst m c)
  (m ((c : Thread nD τ).loc main_arg6)) (m ((c : Thread nD τ).loc main_arg7)) (m ((c : Thread nD τ).loc main_arg8))
def h3 : X := layerOf (h2 m c) (src m c) (dst m c)
  (m ((c : Thread nD τ).loc main_arg9)) (m ((c : Thread nD τ).loc main_arg10)) (m ((c : Thread nD τ).loc main_arg11))
def h4 : X := layerOf (h3 m c) (src m c) (dst m c)
  (m ((c : Thread nD τ).loc main_arg12)) (m ((c : Thread nD τ).loc main_arg13)) (m ((c : Thread nD τ).loc main_arg14))

/-- The kernel program's result as a function of its arguments. -/
def outK : FVec Ideal S64x16 .f32 :=
  headK (poolK (h4 m c) (m ((c : Thread nD τ).loc main_arg2))) (m ((c : Thread nD τ).loc main_arg15))
    (rowB (m ((c : Thread nD τ).loc main_arg16))) (m ((c : Thread nD τ).loc main_arg17))
    (rowB16 (m ((c : Thread nD τ).loc main_arg18)))

end Result

end Cert.KernelIdeal.SageDefs

end
-- ==== Proof.SageHost.lean ====
/-
  What each stretch of host operations leaves in the buffers a kernel region then reads, as the functions of
  `Cert.KernelIdeal.SageDefs` of the contents before the stretch: the first stretch computes the edge rows, the
  reciprocal-count column, the first neighbour sums, the first stacked weights and bias row from the arguments; each
  later stretch computes the next neighbour sums from the previous layer's output and the edge rows, and the next
  stacked weights and bias row; the last computes the pooled features and the head's bias rows.
-/
import proofs.«111463_j31756988186712_2_alg».proof.Proof.Gen.KernelIdeal.Frame
import proofs.«111463_j31756988186712_2_alg».proof.Proof.SageDefs
import Idealize.ShloMosaic.Lib.StableHlo.Run

set_option maxRecDepth 16384

noncomputable section

namespace Cert.KernelIdeal.SageHost

open Cert.KernelIdeal Cert.KernelIdeal.Gen Cert.KernelIdeal.SageDefs
open Idealize.ShloMosaic Idealize.ShloMosaic.TcCoe Idealize.SL.Sem Idealize.ShloMosaic.StableHlo

variable (m : (ℓ : Loc nD τ sig) → Buf (Elt Ideal) ℓ) (ρ : Dev nD → PrngReg)

set_option maxHeartbeats 16000000 in
theorem W1_v1 (c : Dev nD) : W1 m ρ c (Proc.devRef .tc main_v1) = srcK (m ((c : Thread nD τ).loc main_arg1)) := by
  show StableHlo.after hostOps0 (W0 m ρ c) (Proc.devRef .tc main_v1) = _
  after_results_simp
  rfl

set_option maxHeartbeats 16000000 in
theorem W1_v3 (c : Dev nD) : W1 m ρ c (Proc.devRef .tc main_v3) = dstK (m ((c : Thread nD τ).loc main_arg1)) := by
  show StableHlo.after hostOps0 (W0 m ρ c) (Proc.devRef .tc main_v3) = _
  after_results_simp
  rfl

set_option maxHeartbeats 16000000 in
theorem W1_v12 (c : Dev nD) : W1 m ρ c (Proc.devRef .tc main_v12) = invK (dstK (m ((c : Thread nD τ).loc main_arg1))) := by
  show StableHlo.after hostOps0 (W0 m ρ c) (Proc.devRef .tc main_v12) = _
  after_results_simp
  rfl

set_option maxHeartbeats 16000000 in
theorem W1_v24 (c : Dev nD) : W1 m ρ c (Proc.devRef .tc main_v24) = aggK (m ((c : Thread nD τ).loc main_arg0)) (srcK (m ((c : Thread nD τ).loc main_arg1))) (dstK (m ((c : Thread nD τ).loc main_arg1))) := by
  show StableHlo.after hostOps0 (W0 m ρ c) (Proc.devRef .tc main_v24) = _
  after_results_simp
  rfl

set_option maxHeartbeats 16000000 in
theorem W1_v25 (c : Dev nD) : W1 m ρ c (Proc.devRef .tc main_v25) = catW (m ((c : Thread nD τ).loc main_arg3)) (m ((c : Thread nD τ).loc main_arg5)) := by
  show StableHlo.after hostOps0 (W0 m ρ c) (Proc.devRef .tc main_v25) = _
  after_results_simp
  rfl

set_option maxHeartbeats 16000000 in
theorem W1_v26 (c : Dev nD) : W1 m ρ c (Proc.devRef .tc main_v26) = rowB (m ((c : Thread nD τ).loc main_arg4)) := by
  show StableHlo.after hostOps0 (W0 m ρ c) (Proc.devRef .tc main_v26) = _
  after_results_simp
  rfl

set_option maxHeartbeats 16000000 in
theorem W3_agg (c : Dev nD) : W3 m ρ c (Proc.devRef .tc main_v39) = aggK (W2 m ρ c (Proc.devRef .tc main_v27)) (W2 m ρ c (Proc.devRef .tc main_v1)) (W2 m ρ c (Proc.devRef .tc main_v3)) := by
  show StableHlo.after hostOps1 (W2 m ρ c) (Proc.devRef .tc main_v39) = _
  after_results_simp
  rfl

set_option maxHeartbeats 16000000 in
theorem W3_cat (c : Dev nD) : W3 m ρ c (Proc.devRef .tc main_v40) = catW (W2 m ρ c (Proc.devRef .tc main_arg6)) (W2 m ρ c (Proc.devRef .tc main_arg8)) := by
  show StableHlo.after hostOps1 (W2 m ρ c) (Proc.devRef .tc main_v40) = _
  after_results_simp
  rfl

set_option maxHeartbeats 16000000 in
theorem W3_row (c : Dev nD) : W3 m ρ c (Proc.devRef .tc main_v41) = rowB (W2 m ρ c (Proc.devRef .tc main_arg7)) := by
  show StableHlo.after hostOps1 (W2 m ρ c) (Proc.devRef .tc main_v41) = _
  after_results_simp
  rfl

set_option maxHeartbeats 16000000 in
theorem W5_agg (c : Dev nD) : W5 m ρ c (Proc.devRef .tc main_v54) = aggK (W4 m ρ c (Proc.devRef .tc main_v42)) (W4 m ρ c (Proc.devRef .tc main_v1)) (W4 m ρ c (Proc.devRef .tc main_v3)) := by
  show StableHlo.after hostOps2 (W4 m ρ c) (Proc.devRef .tc main_v54) = _
  after_results_simp
  rfl

set_option maxHeartbeats 16000000 in
theorem W5_cat (c : Dev nD) : W5 m ρ c (Proc.devRef .tc main_v55) = catW (W4 m ρ c (Proc.devRef .tc main_arg9)) (W4 m ρ c (Proc.devRef .tc main_arg11)) := by
  show StableHlo.after hostOps2 (W4 m ρ c) (Proc.devRef .tc main_v55) = _
  after_results_simp
  rfl

set_option maxHeartbeats 16000000 in
theorem W5_row (c : Dev nD) : W5 m ρ c (Proc.devRef .tc main_v56) = rowB (W4 m ρ c (Proc.devRef .tc main_arg10)) := by
  show StableHlo.after hostOps2 (W4 m ρ c) (Proc.devRef .tc main_v56) = _
  after_results_simp
  rfl

set_option maxHeartbeats 16000000 in
theorem W7_agg (c : Dev nD) : W7 m ρ c (Proc.devRef .tc main_v69) = aggK (W6 m ρ c (Proc.devRef .tc main_v57)) (W6 m ρ c (Proc.devRef .tc main_v1)) (W6 m ρ c (Proc.devRef .tc main_v3)) := by
  show StableHlo.after hostOps3 (W6 m ρ c) (Proc.devRef .tc main_v69) = _
  after_results_simp
  rfl

set_option maxHeartbeats 16000000 in
theorem W7_cat (c : Dev nD) : W7 m ρ c (Proc.devRef .tc main_v70) = catW (W6 m ρ c (Proc.devRef .tc main_arg12)) (W6 m ρ c (Proc.devRef .tc main_arg14)) := by
  show StableHlo.after hostOps3 (W6 m ρ c) (Proc.devRef .tc main_v70) = _
  after_results_simp
  rfl

set_option maxHeartbeats 16000000 in
theorem W7_row (c : Dev nD) : W7 m ρ c (Proc.devRef .tc main_v71) = rowB (W6 m ρ c (Proc.devRef .tc main_arg13)) := by
  show StableHlo.after hostOps3 (W6 m ρ c) (Proc.devRef .tc main_v71) = _
  after_results_simp
  rfl

set_option maxHeartbeats 16000000 in
theorem W9_pool (c : Dev nD) : W9 m ρ c (Proc.devRef .tc main_v84) = poolK (W8 m ρ c (Proc.devRef .tc main_v72)) (W8 m ρ c (Proc.devRef .tc main_arg2)) := by
  show StableHlo.after hostOps4 (W8 m ρ c) (Proc.devRef .tc main_v84) = _
  after_results_simp
  rfl

set_option maxHeartbeats 16000000 in
theorem W9_row1 (c : Dev nD) : W9 m ρ c (Proc.devRef .tc main_v85) = rowB (W8 m ρ c (Proc.devRef .tc main_arg16)) := by
  show StableHlo.after hostOps4 (W8 m ρ c) (Proc.devRef .tc main_v85) = _
  after_results_simp
  rfl

set_option maxHeartbeats 16000000 in
theorem W9_row2 (c : Dev nD) : W9 m ρ c (Proc.devRef .tc main_v86) = rowB16 (W8 m ρ c (Proc.devRef .tc main_arg18)) := by
  show StableHlo.after hostOps4 (W8 m ρ c) (Proc.devRef .tc main_v86) = _
  after_results_simp
  rfl

end Cert.KernelIdeal.SageHost

end
-- ==== Proof.SageKeepArgs.lean ====
/-
  The argument arrays at the boundaries where a later segment reads them: no host operation and no kernel region
  writes an argument (a region reads it through an input window or bypasses it), so the boundary contents at an
  argument's buffer walk back, segment by segment, to the launch memory.
-/
import proofs.«111463_j31756988186712_2_alg».proof.Proof.Gen.KernelIdeal.Frame
import Idealize.ShloMosaic.PureOps.Ideal

set_option maxRecDepth 16384

noncomputable section

namespace Cert.KernelIdeal.SageKeepArgs

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem W1_arg0 (c : Dev nD) : W1 m ρ c (Proc.devRef .tc main_arg0) = m ((c : Thread nD τ).loc main_arg0) :=
  calc W1 m ρ c (Proc.devRef .tc main_arg0)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W2_arg6 (c : Dev nD) : W2 m ρ c (Proc.devRef .tc main_arg6) = m ((c : Thread nD τ).loc main_arg6) :=
  calc W2 m ρ c (Proc.devRef .tc main_arg6)
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

theorem W2_arg7 (c : Dev nD) : W2 m ρ c (Proc.devRef .tc main_arg7) = m ((c : Thread nD τ).loc main_arg7) :=
  calc W2 m ρ c (Proc.devRef .tc main_arg7)
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

theorem W2_arg8 (c : Dev nD) : W2 m ρ c (Proc.devRef .tc main_arg8) = m ((c : Thread nD τ).loc main_arg8) :=
  calc W2 m ρ c (Proc.devRef .tc main_arg8)
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl

theorem W4_arg9 (c : Dev nD) : W4 m ρ c (Proc.devRef .tc main_arg9) = m ((c : Thread nD τ).loc main_arg9) :=
  calc W4 m ρ c (Proc.devRef .tc main_arg9)
    _ = W3 m ρ c (Proc.devRef .tc main_arg9) := W4_of_ne m ρ c main_arg9 (by decide)
    _ = W2 m ρ c (Proc.devRef .tc main_arg9) := StableHlo.after_of_forall_not_mem (b := Proc.devRef .tc main_arg9) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := rfl

theorem W4_arg10 (c : Dev nD) : W4 m ρ c (Proc.devRef .tc main_arg10) = m ((c : Thread nD τ).loc main_arg10) :=
  calc W4 m ρ c (Proc.devRef .tc main_arg10)
    _ = W3 m ρ c (Proc.devRef .tc main_arg10) := W4_of_ne m ρ c main_arg10 (by decide)
    _ = W2 m ρ c (Proc.devRef .tc main_arg10) := StableHlo.after_of_forall_not_mem (b := Proc.devRef .tc main_arg10) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg10) := W2_of_ne m ρ c main_arg10 (by decide)
    _ = W0 m ρ c (Proc.devRef .tc main_arg10) := StableHlo.after_of_forall_not_mem (b := Proc.devRef .tc main_arg10) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg10) := rfl

theorem W4_arg11 (c : Dev nD) : W4 m ρ c (Proc.devRef .tc main_arg11) = m ((c : Thread nD τ).loc main_arg11) :=
  calc W4 m ρ c (Proc.devRef .tc main_arg11)
    _ = W3 m ρ c (Proc.devRef .tc main_arg11) := W4_of_ne m ρ c main_arg11 (by decide)
    _ = W2 m ρ c (Proc.devRef .tc main_arg11) := StableHlo.after_of_forall_not_mem (b := Proc.devRef .tc main_arg11) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg11) := W2_of_ne m ρ c main_arg11 (by decide)
    _ = W0 m ρ c (Proc.devRef .tc main_arg11) := StableHlo.after_of_forall_not_mem (b := Proc.devRef .tc main_arg11) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg11) := rfl

theorem W6_arg12 (c : Dev nD) : W6 m ρ c (Proc.devRef .tc main_arg12) = m ((c : Thread nD τ).loc main_arg12) :=
  calc W6 m ρ c (Proc.devRef .tc main_arg12)
    _ = W5 m ρ c (Proc.devRef .tc main_arg12) := W6_of_ne m ρ c main_arg12 (by decide)
    _ = W4 m ρ c (Proc.devRef .tc main_arg12) := StableHlo.after_of_forall_not_mem (b := Proc.devRef .tc main_arg12) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg12) := W4_of_ne m ρ c main_arg12 (by decide)
    _ = W2 m ρ c (Proc.devRef .tc main_arg12) := StableHlo.after_of_forall_not_mem (b := Proc.devRef .tc main_arg12) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg12) := W2_of_ne m ρ c main_arg12 (by decide)
    _ = W0 m ρ c (Proc.devRef .tc main_arg12) := StableHlo.after_of_forall_not_mem (b := Proc.devRef .tc main_arg12) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg12) := rfl

theorem W6_arg13 (c : Dev nD) : W6 m ρ c (Proc.devRef .tc main_arg13) = m ((c : Thread nD τ).loc main_arg13) :=
  calc W6 m ρ c (Proc.devRef .tc main_arg13)
    _ = W5 m ρ c (Proc.devRef .tc main_arg13) := W6_of_ne m ρ c main_arg13 (by decide)
    _ = W4 m ρ c (Proc.devRef .tc main_arg13) := StableHlo.after_of_forall_not_mem (b := Proc.devRef .tc main_arg13) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg13) := W4_of_ne m ρ c main_arg13 (by decide)
    _ = W2 m ρ c (Proc.devRef .tc main_arg13) := StableHlo.after_of_forall_not_mem (b := Proc.devRef .tc main_arg13) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg13) := W2_of_ne m ρ c main_arg13 (by decide)
    _ = W0 m ρ c (Proc.devRef .tc main_arg13) := StableHlo.after_of_forall_not_mem (b := Proc.devRef .tc main_arg13) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg13) := rfl

theorem W6_arg14 (c : Dev nD) : W6 m ρ c (Proc.devRef .tc main_arg14) = m ((c : Thread nD τ).loc main_arg14) :=
  calc W6 m ρ c (Proc.devRef .tc main_arg14)
    _ = W5 m ρ c (Proc.devRef .tc main_arg14) := W6_of_ne m ρ c main_arg14 (by decide)
    _ = W4 m ρ c (Proc.devRef .tc main_arg14) := StableHlo.after_of_forall_not_mem (b := Proc.devRef .tc main_arg14) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg14) := W4_of_ne m ρ c main_arg14 (by decide)
    _ = W2 m ρ c (Proc.devRef .tc main_arg14) := StableHlo.after_of_forall_not_mem (b := Proc.devRef .tc main_arg14) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg14) := W2_of_ne m ρ c main_arg14 (by decide)
    _ = W0 m ρ c (Proc.devRef .tc main_arg14) := StableHlo.after_of_forall_not_mem (b := Proc.devRef .tc main_arg14) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg14) := rfl

theorem W8_arg2 (c : Dev nD) : W8 m ρ c (Proc.devRef .tc main_arg2) = m ((c : Thread nD τ).loc main_arg2) :=
  calc W8 m ρ c (Proc.devRef .tc main_arg2)
    _ = W7 m ρ c (Proc.devRef .tc main_arg2) := W8_of_ne m ρ c main_arg2 (by decide)
    _ = W6 m ρ c (Proc.devRef .tc main_arg2) := StableHlo.after_of_forall_not_mem (b := Proc.devRef .tc main_arg2) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg2) := W6_of_ne m ρ c main_arg2 (by decide)
    _ = W4 m ρ c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W8_arg16 (c : Dev nD) : W8 m ρ c (Proc.devRef .tc main_arg16) = m ((c : Thread nD τ).loc main_arg16) :=
  calc W8 m ρ c (Proc.devRef .tc main_arg16)
    _ = W7 m ρ c (Proc.devRef .tc main_arg16) := W8_of_ne m ρ c main_arg16 (by decide)
    _ = W6 m ρ c (Proc.devRef .tc main_arg16) := StableHlo.after_of_forall_not_mem (b := Proc.devRef .tc main_arg16) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg16) := W6_of_ne m ρ c main_arg16 (by decide)
    _ = W4 m ρ c (Proc.devRef .tc main_arg16) := StableHlo.after_of_forall_not_mem (b := Proc.devRef .tc main_arg16) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg16) := W4_of_ne m ρ c main_arg16 (by decide)
    _ = W2 m ρ c (Proc.devRef .tc main_arg16) := StableHlo.after_of_forall_not_mem (b := Proc.devRef .tc main_arg16) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg16) := W2_of_ne m ρ c main_arg16 (by decide)
    _ = W0 m ρ c (Proc.devRef .tc main_arg16) := StableHlo.after_of_forall_not_mem (b := Proc.devRef .tc main_arg16) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg16) := rfl

theorem W8_arg18 (c : Dev nD) : W8 m ρ c (Proc.devRef .tc main_arg18) = m ((c : Thread nD τ).loc main_arg18) :=
  calc W8 m ρ c (Proc.devRef .tc main_arg18)
    _ = W7 m ρ c (Proc.devRef .tc main_arg18) := W8_of_ne m ρ c main_arg18 (by decide)
    _ = W6 m ρ c (Proc.devRef .tc main_arg18) := StableHlo.after_of_forall_not_mem (b := Proc.devRef .tc main_arg18) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg18) := W6_of_ne m ρ c main_arg18 (by decide)
    _ = W4 m ρ c (Proc.devRef .tc main_arg18) := StableHlo.after_of_forall_not_mem (b := Proc.devRef .tc main_arg18) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg18) := W4_of_ne m ρ c main_arg18 (by decide)
    _ = W2 m ρ c (Proc.devRef .tc main_arg18) := StableHlo.after_of_forall_not_mem (b := Proc.devRef .tc main_arg18) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg18) := W2_of_ne m ρ c main_arg18 (by decide)
    _ = W0 m ρ c (Proc.devRef .tc main_arg18) := StableHlo.after_of_forall_not_mem (b := Proc.devRef .tc main_arg18) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg18) := rfl

theorem W9_arg15 (c : Dev nD) : W9 m ρ c (Proc.devRef .tc main_arg15) = m ((c : Thread nD τ).loc main_arg15) :=
  calc W9 m ρ c (Proc.devRef .tc main_arg15)
    _ = W8 m ρ c (Proc.devRef .tc main_arg15) := StableHlo.after_of_forall_not_mem (b := Proc.devRef .tc main_arg15) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg15) := W8_of_ne m ρ c main_arg15 (by decide)
    _ = W6 m ρ c (Proc.devRef .tc main_arg15) := StableHlo.after_of_forall_not_mem (b := Proc.devRef .tc main_arg15) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg15) := W6_of_ne m ρ c main_arg15 (by decide)
    _ = W4 m ρ c (Proc.devRef .tc main_arg15) := StableHlo.after_of_forall_not_mem (b := Proc.devRef .tc main_arg15) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg15) := W4_of_ne m ρ c main_arg15 (by decide)
    _ = W2 m ρ c (Proc.devRef .tc main_arg15) := StableHlo.after_of_forall_not_mem (b := Proc.devRef .tc main_arg15) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg15) := W2_of_ne m ρ c main_arg15 (by decide)
    _ = W0 m ρ c (Proc.devRef .tc main_arg15) := StableHlo.after_of_forall_not_mem (b := Proc.devRef .tc main_arg15) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg15) := rfl

theorem W9_arg17 (c : Dev nD) : W9 m ρ c (Proc.devRef .tc main_arg17) = m ((c : Thread nD τ).loc main_arg17) :=
  calc W9 m ρ c (Proc.devRef .tc main_arg17)
    _ = W8 m ρ c (Proc.devRef .tc main_arg17) := StableHlo.after_of_forall_not_mem (b := Proc.devRef .tc main_arg17) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg17) := W8_of_ne m ρ c main_arg17 (by decide)
    _ = W6 m ρ c (Proc.devRef .tc main_arg17) := StableHlo.after_of_forall_not_mem (b := Proc.devRef .tc main_arg17) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg17) := W6_of_ne m ρ c main_arg17 (by decide)
    _ = W4 m ρ c (Proc.devRef .tc main_arg17) := StableHlo.after_of_forall_not_mem (b := Proc.devRef .tc main_arg17) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg17) := W4_of_ne m ρ c main_arg17 (by decide)
    _ = W2 m ρ c (Proc.devRef .tc main_arg17) := StableHlo.after_of_forall_not_mem (b := Proc.devRef .tc main_arg17) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg17) := W2_of_ne m ρ c main_arg17 (by decide)
    _ = W0 m ρ c (Proc.devRef .tc main_arg17) := StableHlo.after_of_forall_not_mem (b := Proc.devRef .tc main_arg17) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg17) := rfl

end Cert.KernelIdeal.SageKeepArgs

end
-- ==== Proof.SageKeepBufs.lean ====
/-
  Buffers a host stretch computes once and later segments read again — the two edge rows, the reciprocal-count column,
  each layer's output — keep their contents across the segments that do not write them: a host stretch that has no
  operation writing the buffer, a kernel region that reads it through an input window or bypasses it.
-/
import proofs.«111463_j31756988186712_2_alg».proof.Proof.Gen.KernelIdeal.Frame
import Idealize.ShloMosaic.PureOps.Ideal

set_option maxRecDepth 16384

noncomputable section

namespace Cert.KernelIdeal.SageKeepBufs

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem W2_v1 (c : Dev nD) : W2 m ρ c (Proc.devRef .tc main_v1) = W1 m ρ c (Proc.devRef .tc main_v1) :=
  calc W2 m ρ c (Proc.devRef .tc main_v1)
    _ = W1 m ρ c (Proc.devRef .tc main_v1) := W2_of_ne m ρ c main_v1 (by decide)

theorem W2_v3 (c : Dev nD) : W2 m ρ c (Proc.devRef .tc main_v3) = W1 m ρ c (Proc.devRef .tc main_v3) :=
  calc W2 m ρ c (Proc.devRef .tc main_v3)
    _ = W1 m ρ c (Proc.devRef .tc main_v3) := W2_of_ne m ρ c main_v3 (by decide)

theorem W4_v1 (c : Dev nD) : W4 m ρ c (Proc.devRef .tc main_v1) = W1 m ρ c (Proc.devRef .tc main_v1) :=
  calc W4 m ρ c (Proc.devRef .tc main_v1)
    _ = W3 m ρ c (Proc.devRef .tc main_v1) := W4_of_ne m ρ c main_v1 (by decide)
    _ = W2 m ρ c (Proc.devRef .tc main_v1) := StableHlo.after_of_forall_not_mem (b := Proc.devRef .tc main_v1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v1) := W2_of_ne m ρ c main_v1 (by decide)

theorem W4_v3 (c : Dev nD) : W4 m ρ c (Proc.devRef .tc main_v3) = W1 m ρ c (Proc.devRef .tc main_v3) :=
  calc W4 m ρ c (Proc.devRef .tc main_v3)
    _ = W3 m ρ c (Proc.devRef .tc main_v3) := W4_of_ne m ρ c main_v3 (by decide)
    _ = W2 m ρ c (Proc.devRef .tc main_v3) := StableHlo.after_of_forall_not_mem (b := Proc.devRef .tc main_v3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v3) := W2_of_ne m ρ c main_v3 (by decide)

theorem W6_v1 (c : Dev nD) : W6 m ρ c (Proc.devRef .tc main_v1) = W1 m ρ c (Proc.devRef .tc main_v1) :=
  calc W6 m ρ c (Proc.devRef .tc main_v1)
    _ = W5 m ρ c (Proc.devRef .tc main_v1) := W6_of_ne m ρ c main_v1 (by decide)
    _ = W4 m ρ c (Proc.devRef .tc main_v1) := StableHlo.after_of_forall_not_mem (b := Proc.devRef .tc main_v1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v1) := W4_of_ne m ρ c main_v1 (by decide)
    _ = W2 m ρ c (Proc.devRef .tc main_v1) := StableHlo.after_of_forall_not_mem (b := Proc.devRef .tc main_v1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v1) := W2_of_ne m ρ c main_v1 (by decide)

theorem W6_v3 (c : Dev nD) : W6 m ρ c (Proc.devRef .tc main_v3) = W1 m ρ c (Proc.devRef .tc main_v3) :=
  calc W6 m ρ c (Proc.devRef .tc main_v3)
    _ = W5 m ρ c (Proc.devRef .tc main_v3) := W6_of_ne m ρ c main_v3 (by decide)
    _ = W4 m ρ c (Proc.devRef .tc main_v3) := StableHlo.after_of_forall_not_mem (b := Proc.devRef .tc main_v3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v3) := W4_of_ne m ρ c main_v3 (by decide)
    _ = W2 m ρ c (Proc.devRef .tc main_v3) := StableHlo.after_of_forall_not_mem (b := Proc.devRef .tc main_v3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v3) := W2_of_ne m ρ c main_v3 (by decide)

theorem W3_v12 (c : Dev nD) : W3 m ρ c (Proc.devRef .tc main_v12) = W1 m ρ c (Proc.devRef .tc main_v12) :=
  calc W3 m ρ c (Proc.devRef .tc main_v12)
    _ = W2 m ρ c (Proc.devRef .tc main_v12) := StableHlo.after_of_forall_not_mem (b := Proc.devRef .tc main_v12) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v12) := (W2_arr m ρ c 2).trans (((dat0 (V1 m ρ) c).arrAt_in 2 rfl _).trans (A_eq0 (V1 m ρ) c 2))

theorem W5_v12 (c : Dev nD) : W5 m ρ c (Proc.devRef .tc main_v12) = W1 m ρ c (Proc.devRef .tc main_v12) :=
  calc W5 m ρ c (Proc.devRef .tc main_v12)
    _ = W4 m ρ c (Proc.devRef .tc main_v12) := StableHlo.after_of_forall_not_mem (b := Proc.devRef .tc main_v12) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v12) := (W4_arr m ρ c 2).trans (((dat1 (V3 m ρ) c).arrAt_in 2 rfl _).trans (A_eq1 (V3 m ρ) c 2))
    _ = W2 m ρ c (Proc.devRef .tc main_v12) := StableHlo.after_of_forall_not_mem (b := Proc.devRef .tc main_v12) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v12) := (W2_arr m ρ c 2).trans (((dat0 (V1 m ρ) c).arrAt_in 2 rfl _).trans (A_eq0 (V1 m ρ) c 2))

theorem W7_v12 (c : Dev nD) : W7 m ρ c (Proc.devRef .tc main_v12) = W1 m ρ c (Proc.devRef .tc main_v12) :=
  calc W7 m ρ c (Proc.devRef .tc main_v12)
    _ = W6 m ρ c (Proc.devRef .tc main_v12) := StableHlo.after_of_forall_not_mem (b := Proc.devRef .tc main_v12) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v12) := (W6_arr m ρ c 2).trans (((dat2 (V5 m ρ) c).arrAt_in 2 rfl _).trans (A_eq2 (V5 m ρ) c 2))
    _ = W4 m ρ c (Proc.devRef .tc main_v12) := StableHlo.after_of_forall_not_mem (b := Proc.devRef .tc main_v12) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v12) := (W4_arr m ρ c 2).trans (((dat1 (V3 m ρ) c).arrAt_in 2 rfl _).trans (A_eq1 (V3 m ρ) c 2))
    _ = W2 m ρ c (Proc.devRef .tc main_v12) := StableHlo.after_of_forall_not_mem (b := Proc.devRef .tc main_v12) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v12) := (W2_arr m ρ c 2).trans (((dat0 (V1 m ρ) c).arrAt_in 2 rfl _).trans (A_eq0 (V1 m ρ) c 2))

theorem W3_v27 (c : Dev nD) : W3 m ρ c (Proc.devRef .tc main_v27) = W2 m ρ c (Proc.devRef .tc main_v27) :=
  calc W3 m ρ c (Proc.devRef .tc main_v27)
    _ = W2 m ρ c (Proc.devRef .tc main_v27) := StableHlo.after_of_forall_not_mem (b := Proc.devRef .tc main_v27) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem W5_v42 (c : Dev nD) : W5 m ρ c (Proc.devRef .tc main_v42) = W4 m ρ c (Proc.devRef .tc main_v42) :=
  calc W5 m ρ c (Proc.devRef .tc main_v42)
    _ = W4 m ρ c (Proc.devRef .tc main_v42) := StableHlo.after_of_forall_not_mem (b := Proc.devRef .tc main_v42) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem W7_v57 (c : Dev nD) : W7 m ρ c (Proc.devRef .tc main_v57) = W6 m ρ c (Proc.devRef .tc main_v57) :=
  calc W7 m ρ c (Proc.devRef .tc main_v57)
    _ = W6 m ρ c (Proc.devRef .tc main_v57) := StableHlo.after_of_forall_not_mem (b := Proc.devRef .tc main_v57) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

end Cert.KernelIdeal.SageKeepBufs

end
-- ==== Proof.LibDot.lean ====
/-
  A plain matrix product read at an entry. For the dimension numbers "rows × contraction by contraction × columns"
  (`DotDims.plain M K N`) the sum over the contraction index, of the left operand at the dot's left index times the
  right operand at its right index, is the textbook sum `∑ i, l (p, i) · r (i, q)` at output entry `(p, q)`: the
  contraction shape has one axis of extent `K`, and the two operand indices at contraction position `i` are
  `(p, i)` and `(i, q)`. Both a `tpu.matmul` into a zero accumulator and a host `dot_general` are this sum at the
  exact values, so each reads at an entry as the textbook sum.
-/
import Idealize.ShloMosaic.PureOps.Ideal.Laws
import Idealize.ShloMosaic.Lib.ValueIdx

noncomputable section

namespace Cert.LibDot

open Idealize.ShloMosaic Idealize.ShloMosaic.ValueIdx

/-- The left index of a plain product at output `(p, q)` and contraction position `i` is `(p, i)`. -/
theorem plain_lhsIdx (M K N : Nat) (p : Fin M) (q : Fin N) (i : Fin K) :
    (DotDims.plain M K N).lhsIdx (ix2 p q) ((contrEquiv1 (DotDims.plain M K N) K rfl rfl).symm i) = ix2 p i := by
  funext a
  apply Fin.ext
  match a with
  | ⟨0, _⟩ => rfl
  | ⟨1, _⟩ =>
    refine ((DotDims.plain M K N).lhsIdx_val_of_single (cl := (1 : Fin 2)) rfl (ix2 p q) _).trans ?_
    exact contrEquiv1_symm_val (DotDims.plain M K N) K rfl rfl i

/-- The right index of a plain product at output `(p, q)` and contraction position `i` is `(i, q)`. -/
theorem plain_rhsIdx (M K N : Nat) (p : Fin M) (q : Fin N) (i : Fin K) :
    (DotDims.plain M K N).rhsIdx (ix2 p q) ((contrEquiv1 (DotDims.plain M K N) K rfl rfl).symm i) = ix2 i q := by
  funext a
  apply Fin.ext
  match a with
  | ⟨0, _⟩ =>
    refine ((DotDims.plain M K N).rhsIdx_val_of_single (cr := (0 : Fin 2)) rfl (ix2 p q) _).trans ?_
    exact contrEquiv1_symm_val (DotDims.plain M K N) K rfl rfl i
  | ⟨1, _⟩ => rfl

/-- The contraction sum of a plain product at output `(p, q)` is `∑ i, l (p, i) · r (i, q)`. -/
theorem plain_sum (M K N : Nat) (l : (⟨2, ![M, K]⟩ : Shape).Idx → EReal) (r : (⟨2, ![K, N]⟩ : Shape).Idx → EReal)
    (p : Fin M) (q : Fin N) :
    ∑ k : (DotDims.plain M K N).contr.Idx,
        l ((DotDims.plain M K N).lhsIdx (ix2 p q) k) * r ((DotDims.plain M K N).rhsIdx (ix2 p q) k)
      = ∑ i : Fin K, l (ix2 p i) * r (ix2 i q) := by
  rw [← Equiv.sum_comp (contrEquiv1 (DotDims.plain M K N) K rfl rfl).symm]
  refine Finset.sum_congr rfl fun i _ => ?_
  rw [plain_lhsIdx, plain_rhsIdx]

end Cert.LibDot

end
-- ==== Proof.LibRows.lean ====
/-
  Rows of dense layers, read entry by entry on the extended reals. A matrix product with the plain dimension
  numbers (rows × contraction by contraction × columns), taken by the matrix unit into a zero accumulator or by the
  host, is the textbook sum `∑ i, l (p, i) · r (i, q)` at entry `(p, q)`; a bias vector made a row and repeated down
  the rows reads its entry `q` at `(p, q)`, in the kernel's spelling and in the host's; a scalar broadcast reads the
  scalar everywhere; two 64-column arrays side by side read the first below column 64 and the second from there on.
  With these one entry of a two-layer perceptron's output depends on one row of its input (`mlpRow`).
-/
import proofs.«111463_j31756988186712_2_alg».proof.Proof.LibDot
import Idealize.ShloMosaic.PureOps.Ideal
import Idealize.ShloMosaic.PureOps.Ideal.Laws
import Idealize.ShloMosaic.Lib.Pipeline.Value
import Idealize.ShloMosaic.Lib.ValueIdx
import Idealize.ShloMosaic.Lib.ValueLayout

noncomputable section

namespace Cert.LibRows

open Idealize.ShloMosaic Idealize.ShloMosaic.ValueIdx

/-- A product into a zero accumulator, for dimension numbers that are the plain ones, read at an entry. -/
theorem matmul_plain_apply {M K N : Nat} {φ₁ φ₂ : FTy} (D : DotDims ⟨2, ![M, K]⟩ ⟨2, ![K, N]⟩ ⟨2, ![M, N]⟩)
    (hD : D = DotDims.plain M K N) (prec : Option ContractPrecision)
    (l : FVec Ideal ⟨2, ![M, K]⟩ φ₁) (r : FVec Ideal ⟨2, ![K, N]⟩ φ₂) (p : Fin M) (q : Fin N) :
    matmul D prec l r (constant ⟨2, ![M, N]⟩ .f32 0x00000000#32) (ix2 p q) = ∑ i : Fin K, l (ix2 p i) * r (ix2 i q) := by
  subst hD
  refine (Ideal.matmul_constant_zero_apply (DotDims.plain M K N) prec l r (ix2 p q)).trans ?_
  exact Cert.LibDot.plain_sum M K N l r p q

/-- The host's product with the plain dimension numbers, read at an entry: the same sum. -/
theorem dotGeneral_plain_apply {M K N : Nat} {φ₁ φ₂ : FTy} (D : DotDims ⟨2, ![M, K]⟩ ⟨2, ![K, N]⟩ ⟨2, ![M, N]⟩)
    (hD : D = DotDims.plain M K N) (prec : Option ContractPrecision)
    (l : FVec Ideal ⟨2, ![M, K]⟩ φ₁) (r : FVec Ideal ⟨2, ![K, N]⟩ φ₂) (p : Fin M) (q : Fin N) :
    Host.dotGeneral D prec l r (ix2 p q) = ∑ i : Fin K, l (ix2 p i) * r (ix2 i q) := by
  subst hD
  refine (Ideal.dotGeneral_apply (DotDims.plain M K N) prec .single l r (ix2 p q)).trans ?_
  exact Cert.LibDot.plain_sum M K N l r p q

/-- A vector of `b` entries made a row and repeated down `a` rows reads, at `(p, c)`, the vector's entry `c`. -/
theorem rowBias_apply {α : Type} {a b : Nat} (v : (⟨1, ![b]⟩ : Shape).Idx → α) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ v h1) h2 (ix2 p c) = v (ix1 c) := by
  rw [broadcastTo_1b_ab_apply, shapeCast_a_1a_apply]

/-- The host's spelling of the same: a `[b]` vector broadcast along axis 1 to `[1, b]`, then along both to `[a, b]`. -/
theorem rowBiasInDim_apply {α : Type} {a b : Nat} (v : (⟨1, ![b]⟩ : Shape).Idx → α)
    (h1 : (⟨1, ![b]⟩ : Shape).BroadcastsInDim ⟨2, ![1, b]⟩ ![1])
    (h2 : (⟨2, ![1, b]⟩ : Shape).BroadcastsInDim ⟨2, ![a, b]⟩ ![0, 1]) (p : Fin a) (c : Fin b) :
    broadcastInDim ⟨2, ![a, b]⟩ ![0, 1] h2 (broadcastInDim ⟨2, ![1, b]⟩ ![1] h1 v) (ix2 p c) = v (ix1 c) := by
  rw [broadcastInDim_apply ![0, 1] h2 _ (ix2 p c) (ix2 (0 : Fin 1) c) (fun ax => by
    match ax with
    | ⟨0, _⟩ => rfl
    | ⟨1, _⟩ =>
      show c.val = if b = 1 then 0 else c.val
      split
      · have := c.isLt; omega
      · rfl)]
  rw [broadcastInDim_apply ![1] h1 v (ix2 (0 : Fin 1) c) (ix1 c) (fun ax => by
    match ax with
    | ⟨0, _⟩ =>
      show c.val = if b = 1 then 0 else c.val
      split
      · have := c.isLt; omega
      · rfl)]

/-- A scalar broadcast to any shape reads the scalar at every index. -/
theorem scalarInDim_apply {α : Type} {s : Shape} (x : (⟨0, ![]⟩ : Shape).Idx → α) (h : (⟨0, ![]⟩ : Shape).BroadcastsInDim s ![]) (j : s.Idx) :
    broadcastInDim s ![] h x j = x ix0 := by
  rw [broadcastInDim_apply ![] h x j ix0 (fun ax => ax.elim0)]

/-- The leaky rectifier on one extended real. -/
def lk (x : Ideal .f32) : Ideal .f32 :=
  Scalar.select (FloatOps.cmpf .oge x (Ideal.ofBits .f32 0x00000000#32)) x (Ideal.ofBits .f32 0x3C23D70A#32 * x)

/-- One entry of a two-layer perceptron's row: from the row `A` of the input. -/
def mlpRow {K H N : Nat} (A : Fin K → EReal) (w1 : (⟨2, ![K, H]⟩ : Shape).Idx → EReal) (b1 : (⟨1, ![H]⟩ : Shape).Idx → EReal)
    (w2 : (⟨2, ![H, N]⟩ : Shape).Idx → EReal) (b2 : (⟨1, ![N]⟩ : Shape).Idx → EReal) (q : Fin N) : EReal :=
  (∑ k : Fin H, lk ((∑ i : Fin K, A i * w1 (ix2 i k)) + b1 (ix1 k)) * w2 (ix2 k q)) + b2 (ix1 q)

/-- Two arrays of 64 columns side by side: column `i` is the first array's below 64 and the second's column `i - 64` from there on. -/
theorem cat_apply {α : Type} {M : Nat} (a b : (⟨2, ![M, 64]⟩ : Shape).Idx → α)
    (h : Shape.Concatenates [⟨2, ![M, 64]⟩, ⟨2, ![M, 64]⟩] ⟨2, ![M, 128]⟩ 1) (p : Fin M) (i : Fin 128) :
    concatenate ⟨2, ![M, 128]⟩ 1 [⟨⟨2, ![M, 64]⟩, a⟩, ⟨⟨2, ![M, 64]⟩, b⟩] h (ix2 p i)
      = if hi : i.val < 64 then a (ix2 p ⟨i.val, hi⟩) else b (ix2 p ⟨i.val - 64, by have := i.isLt; omega⟩) := by
  split
  · next hi =>
    refine concatenate_pair_apply_left 1 a b h (ix2 p i) rfl (ix2 p ⟨i.val, hi⟩) fun bb => ?_
    match bb with
    | ⟨0, _⟩ => rfl
    | ⟨1, _⟩ => rfl
  · next hi =>
    refine concatenate_pair_apply_right 1 a b h (ix2 p i) rfl rfl (ix2 p ⟨i.val - 64, by have := i.isLt; omega⟩) (fun bb hb => ?_) ?_
    · match bb with
      | ⟨0, _⟩ => rfl
      | ⟨1, _⟩ => exact absurd rfl hb
    · show i.val - 64 + 64 = i.val
      omega

end Cert.LibRows

end
-- ==== Proof.LibCols.lean ====
/-
  A column of per-row numbers against a matrix, read entry by entry. A vector of `a` entries made a column `[a, 1]`
  reads its entry `p` at `(p, 0)`; a column repeated across `b` columns reads its entry `p` at `(p, c)`. Both in the
  vector unit's spelling (a shape cast, a broadcast) and in the host's (two `broadcast_in_dim`s). These are the forms
  a keep-dimensions row reduction takes on its way back to the matrix it was reduced from.
-/
import Idealize.ShloMosaic.Lib.Pipeline.Value
import Idealize.ShloMosaic.Lib.ValueIdx
import Idealize.ShloMosaic.Lib.ValueLayout

namespace Cert.LibCols

open Idealize.ShloMosaic Idealize.ShloMosaic.ValueIdx

variable {α : Type}

/-- An `[a]` array cast to `[a, 1]` reads, at `(p, u)`, the operand at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's column: an `[a]` vector broadcast along axis 0 into `[a, 1]` reads, at `(p, u)`, the vector's entry `p`. -/
theorem inDim_a_a1_apply {a : ℕ} (v : (⟨1, ![a]⟩ : Shape).Idx → α) (h : (⟨1, ![a]⟩ : Shape).BroadcastsInDim ⟨2, ![a, 1]⟩ ![0])
    (p : Fin a) (u : Fin 1) : broadcastInDim ⟨2, ![a, 1]⟩ ![0] h v (ix2 p u) = v (ix1 p) := by
  refine broadcastInDim_apply ![0] h v (ix2 p u) (ix1 p) fun ax => ?_
  match ax with
  | ⟨0, _⟩ =>
    show p.val = if a = 1 then 0 else p.val
    split
    · have := p.isLt; omega
    · rfl

/-- The host's repeated column: an `[a, 1]` array broadcast along both axes into `[a, b]` reads, at `(p, c)`, entry `p`. -/
theorem inDim_a1_ab_apply {a b : ℕ} (v : (⟨2, ![a, 1]⟩ : Shape).Idx → α) (h : (⟨2, ![a, 1]⟩ : Shape).BroadcastsInDim ⟨2, ![a, b]⟩ ![0, 1])
    (p : Fin a) (c : Fin b) : broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

end Cert.LibCols
-- ==== Proof.LibCat.lean ====
/-
  Two arrays of 128 columns side by side, and two arrays of 128 rows one above the other, read at an entry: below
  position 128 on the joined axis the joined array is the first piece, from there on it is the second piece at the
  position less 128.
-/
import Idealize.ShloMosaic.Lib.Pipeline.Value
import Idealize.ShloMosaic.Lib.ValueIdx

noncomputable section

namespace Cert.LibCat

open Idealize.ShloMosaic Idealize.ShloMosaic.ValueIdx

/-- Two `[M, 128]` arrays side by side: in the first 128 columns, the first array. -/
theorem cols_left {α : Type} {M : Nat} (a b : (⟨2, ![M, 128]⟩ : Shape).Idx → α)
    (h : Shape.Concatenates [⟨2, ![M, 128]⟩, ⟨2, ![M, 128]⟩] ⟨2, ![M, 256]⟩ 1) (p : Fin M) (i : Fin 128) :
    concatenate ⟨2, ![M, 256]⟩ 1 [⟨⟨2, ![M, 128]⟩, a⟩, ⟨⟨2, ![M, 128]⟩, b⟩] h
        (ix2 p (⟨i.val, by have := i.isLt; omega⟩ : Fin 256)) = a (ix2 p i) := by
  refine concatenate_pair_apply_left 1 a b h _ rfl (ix2 p i) fun bb => ?_
  match bb with
  | ⟨0, _⟩ => rfl
  | ⟨1, _⟩ => rfl

/-- Two `[M, 128]` arrays side by side: in the last 128 columns, the second array. -/
theorem cols_right {α : Type} {M : Nat} (a b : (⟨2, ![M, 128]⟩ : Shape).Idx → α)
    (h : Shape.Concatenates [⟨2, ![M, 128]⟩, ⟨2, ![M, 128]⟩] ⟨2, ![M, 256]⟩ 1) (p : Fin M) (i : Fin 128) :
    concatenate ⟨2, ![M, 256]⟩ 1 [⟨⟨2, ![M, 128]⟩, a⟩, ⟨⟨2, ![M, 128]⟩, b⟩] h
        (ix2 p (⟨128 + i.val, by have := i.isLt; omega⟩ : Fin 256)) = b (ix2 p i) := by
  refine concatenate_pair_apply_right 1 a b h _ rfl rfl (ix2 p i) (fun bb hb => ?_) ?_
  · match bb with
    | ⟨0, _⟩ => rfl
    | ⟨1, _⟩ => exact absurd rfl hb
  · show i.val + 128 = 128 + i.val
    omega

/-- Two `[128, N]` arrays one above the other: in the first 128 rows, the first array. -/
theorem rows_left {α : Type} {N : Nat} (a b : (⟨2, ![128, N]⟩ : Shape).Idx → α)
    (h : Shape.Concatenates [⟨2, ![128, N]⟩, ⟨2, ![128, N]⟩] ⟨2, ![256, N]⟩ 0) (i : Fin 128) (q : Fin N) :
    concatenate ⟨2, ![256, N]⟩ 0 [⟨⟨2, ![128, N]⟩, a⟩, ⟨⟨2, ![128, N]⟩, b⟩] h
        (ix2 (⟨i.val, by have := i.isLt; omega⟩ : Fin 256) q) = a (ix2 i q) := by
  refine concatenate_pair_apply_left 0 a b h _ rfl (ix2 i q) fun bb => ?_
  match bb with
  | ⟨0, _⟩ => rfl
  | ⟨1, _⟩ => rfl

/-- Two `[128, N]` arrays one above the other: in the last 128 rows, the second array. -/
theorem rows_right {α : Type} {N : Nat} (a b : (⟨2, ![128, N]⟩ : Shape).Idx → α)
    (h : Shape.Concatenates [⟨2, ![128, N]⟩, ⟨2, ![128, N]⟩] ⟨2, ![256, N]⟩ 0) (i : Fin 128) (q : Fin N) :
    concatenate ⟨2, ![256, N]⟩ 0 [⟨⟨2, ![128, N]⟩, a⟩, ⟨⟨2, ![128, N]⟩, b⟩] h
        (ix2 (⟨128 + i.val, by have := i.isLt; omega⟩ : Fin 256) q) = b (ix2 i q) := by
  refine concatenate_pair_apply_right 0 a b h _ rfl rfl (ix2 i q) (fun bb hb => ?_) ?_
  · match bb with
    | ⟨0, _⟩ => exact absurd rfl hb
    | ⟨1, _⟩ => rfl
  · show i.val + 128 = 128 + i.val
    omega

end Cert.LibCat

end
-- ==== Proof.SagePayload.lean ====
/-
  What the kernel bodies store, read at an entry on the extended reals.

  A dense-layer body multiplies the loaded neighbour-sum block by the loaded reciprocal-count column repeated across
  the columns, puts the node-feature block beside it, takes the matrix unit's product of that [2000, 256] block with
  the [256, 128] weights into a zero accumulator, adds the bias row repeated down the rows, and rectifies: entry
  `(p, q)` of what it stores is `Cert.SageEntry.layerEntry` of the loaded blocks at `(p, q)`. The head body takes
  two such products with a bias row after each: entry `(p, q)` is `Cert.SageEntry.headEntry`. Changes of float
  format are the identity on the extended reals.
-/
import proofs.«111463_j31756988186712_2_alg».proof.Proof.Gen.KernelIdeal.Skeleton
import proofs.«111463_j31756988186712_2_alg».proof.Proof.LibRows
import proofs.«111463_j31756988186712_2_alg».proof.Proof.LibCols
import proofs.«111463_j31756988186712_2_alg».proof.Proof.LibCat
import proofs.«111463_j31756988186712_2_alg».proof.Proof.SageEntry

noncomputable section

namespace Cert.KernelIdeal.SagePayload

open Idealize.ShloMosaic Idealize.ShloMosaic.ValueIdx
open Cert.KernelIdeal Cert.KernelIdeal.Gen Cert.SageEntry

theorem dot_layer_plain : dot_S2000x256_S256x128_S2000x128_1_0_0_1_n_n = DotDims.plain 2000 256 128 := rfl
theorem dot_head1_plain : dot_S64x128_S128x128_S64x128_1_0_0_1_n_n = DotDims.plain 64 128 128 := rfl
theorem dot_head2_plain : dot_S64x128_S128x16_S64x16_1_0_0_1_n_n = DotDims.plain 64 128 16 := rfl

/-- The product's left operand: the scaled neighbour sums beside the node features. -/
def lhs (a h : Vec Ideal S2000x128 .f32) (inv : Vec Ideal S2000x1 .f32) : FVec Ideal S2000x256 .f32 :=
  concatenate S2000x256 1 [⟨S2000x128, mulf a (broadcastTo S2000x128 inv broadcasts_S2000x1_S2000x128)⟩, ⟨S2000x128, h⟩]
    concatenates_S2000x128_S2000x128_S2000x256_d1

/-- Row `p` of the left operand, position by position. -/
theorem lhs_apply (a h : Vec Ideal S2000x128 .f32) (inv : Vec Ideal S2000x1 .f32) (p : Fin 2000) (k : Fin 256) :
    lhs a h inv (ix2 p k) = xin a h inv p k := by
  obtain ⟨kv, hkv⟩ := k
  by_cases hk : kv < 128
  · refine (Cert.LibCat.cols_left _ _ _ p ⟨kv, hk⟩).trans ?_
    rw [mulf_apply, Cert.LibCols.broadcastTo_a1_ab_apply]
    exact (xin_left a h inv p ⟨kv, hk⟩).symm
  · obtain ⟨d, rfl⟩ : ∃ d, kv = 128 + d := ⟨kv - 128, by omega⟩
    refine (Cert.LibCat.cols_right _ _ _ p ⟨d, by omega⟩).trans ?_
    exact (xin_right a h inv p ⟨d, by omega⟩).symm

/-- The dense-layer payload as one term of its loads (layer 1's body: no cast of the feature block). -/
theorem pay0_eq (v0 : Vec Ideal S2000x128 .f32) (v2 : Vec Ideal S2000x1 .f32) (v6 : Vec Ideal S2000x128 .f32)
    (v9 : Vec Ideal S256x128 .f32) (v13 : Vec Ideal S1x128 .f32) :
    k0_pay1 (F := Ideal) v0 v2 v6 v9 v13
      = maximumf (addf (matmul dot_S2000x256_S256x128_S2000x128_1_0_0_1_n_n none
            (truncf .bf16 (lhs (shapeCast S2000x128 v0 shapeCasts_S2000x128_S2000x128) v6 (shapeCast S2000x1 v2 shapeCasts_S2000x1_S2000x1)) bitsLt_bf16_f32)
            (truncf .bf16 (shapeCast S256x128 v9 shapeCasts_S256x128_S256x128) bitsLt_bf16_f32)
            (constant S2000x128 .f32 0x00000000#32))
          (broadcastTo S2000x128 (shapeCast S1x128 v13 shapeCasts_S1x128_S1x128) broadcasts_S1x128_S2000x128))
        (broadcast S2000x128 (Scalar.ofBits .f32 0x00000000#32)) := rfl

/-- The same for layers 2 to 4, whose bodies cast the feature block to its own shape first. -/
theorem pay1_eq (v0 : Vec Ideal S2000x128 .f32) (v2 : Vec Ideal S2000x1 .f32) (v6 : Vec Ideal S2000x128 .f32)
    (v9 : Vec Ideal S256x128 .f32) (v13 : Vec Ideal S1x128 .f32) :
    k1_pay1 (F := Ideal) v0 v2 v6 v9 v13
      = maximumf (addf (matmul dot_S2000x256_S256x128_S2000x128_1_0_0_1_n_n none
            (truncf .bf16 (lhs (shapeCast S2000x128 v0 shapeCasts_S2000x128_S2000x128) (shapeCast S2000x128 v6 shapeCasts_S2000x128_S2000x128) (shapeCast S2000x1 v2 shapeCasts_S2000x1_S2000x1)) bitsLt_bf16_f32)
            (truncf .bf16 (shapeCast S256x128 v9 shapeCasts_S256x128_S256x128) bitsLt_bf16_f32)
            (constant S2000x128 .f32 0x00000000#32))
          (broadcastTo S2000x128 (shapeCast S1x128 v13 shapeCasts_S1x128_S1x128) broadcasts_S1x128_S2000x128))
        (broadcast S2000x128 (Scalar.ofBits .f32 0x00000000#32)) := rfl

theorem pay2_eq : @k2_pay1 Ideal _ = @k1_pay1 Ideal _ := rfl
theorem pay3_eq : @k3_pay1 Ideal _ = @k1_pay1 Ideal _ := rfl

/-- The rectified biased product of a left operand `L` with the weights, at an entry. -/
theorem core_apply (L : FVec Ideal S2000x256 .f32) (v9 : Vec Ideal S256x128 .f32) (v13 : Vec Ideal S1x128 .f32)
    (p : Fin 2000) (q : Fin 128) :
    maximumf (addf (matmul dot_S2000x256_S256x128_S2000x128_1_0_0_1_n_n none
            (truncf .bf16 L bitsLt_bf16_f32)
            (truncf .bf16 (shapeCast S256x128 v9 shapeCasts_S256x128_S256x128) bitsLt_bf16_f32)
            (constant S2000x128 .f32 0x00000000#32))
          (broadcastTo S2000x128 (shapeCast S1x128 v13 shapeCasts_S1x128_S1x128) broadcasts_S1x128_S2000x128))
        (broadcast S2000x128 (Scalar.ofBits .f32 0x00000000#32)) (ix2 p q)
      = max ((∑ k : Fin 256, L (ix2 p k) * v9 (ix2 k q)) + v13 (ix2 (0 : Fin 1) q)) 0 := by
  rw [maximumf_apply, addf_apply, broadcast_apply,
    Cert.LibRows.matmul_plain_apply _ dot_layer_plain, broadcastTo_1b_ab_apply, shapeCast_self, shapeCast_self]
  show max ((∑ k : Fin 256, L (ix2 p k) * v9 (ix2 k q)) + v13 (ix2 (0 : Fin 1) q)) (Ideal.ofBits .f32 0x00000000#32) = _
  rw [Ideal.ofBits_zero_f32]

/-- ENTRY `(p, q)` OF LAYER 1's PAYLOAD. -/
theorem pay0_apply (v0 : Vec Ideal S2000x128 .f32) (v2 : Vec Ideal S2000x1 .f32) (v6 : Vec Ideal S2000x128 .f32)
    (v9 : Vec Ideal S256x128 .f32) (v13 : Vec Ideal S1x128 .f32) (p : Fin 2000) (q : Fin 128) :
    k0_pay1 (F := Ideal) v0 v2 v6 v9 v13 (ix2 p q) = layerEntry v6 v0 v2 v9 v13 p q := by
  rw [pay0_eq, core_apply, shapeCast_self, shapeCast_self]
  unfold layerEntry
  simp only [lhs_apply]

/-- ENTRY `(p, q)` OF THE PAYLOAD OF LAYERS 2 TO 4. -/
theorem pay1_apply (v0 : Vec Ideal S2000x128 .f32) (v2 : Vec Ideal S2000x1 .f32) (v6 : Vec Ideal S2000x128 .f32)
    (v9 : Vec Ideal S256x128 .f32) (v13 : Vec Ideal S1x128 .f32) (p : Fin 2000) (q : Fin 128) :
    k1_pay1 (F := Ideal) v0 v2 v6 v9 v13 (ix2 p q) = layerEntry v6 v0 v2 v9 v13 p q := by
  rw [pay1_eq, core_apply, shapeCast_self, shapeCast_self, shapeCast_self]
  unfold layerEntry
  simp only [lhs_apply]

/-- The head payload as one term of its loads. -/
theorem pay4_eq (v0 : Vec Ideal S64x128 .f32) (v3 : Vec Ideal S128x128 .f32) (v6 : Vec Ideal S1x128 .f32)
    (v11 : Vec Ideal S128x16 .f32) (v14 : Vec Ideal S1x16 .f32) :
    k4_pay1 (F := Ideal) v0 v3 v6 v11 v14
      = addf (matmul dot_S64x128_S128x16_S64x16_1_0_0_1_n_n none
          (truncf .bf16 (addf (matmul dot_S64x128_S128x128_S64x128_1_0_0_1_n_n none
              (truncf .bf16 (shapeCast S64x128 v0 shapeCasts_S64x128_S64x128) bitsLt_bf16_f32)
              (truncf .bf16 v3 bitsLt_bf16_f32) (constant S64x128 .f32 0x00000000#32))
            (broadcastTo S64x128 (shapeCast S1x128 v6 shapeCasts_S1x128_S1x128) broadcasts_S1x128_S64x128)) bitsLt_bf16_f32)
          (truncf .bf16 v11 bitsLt_bf16_f32) (constant S64x16 .f32 0x00000000#32))
        (broadcastTo S64x16 (shapeCast S1x16 v14 shapeCasts_S1x16_S1x16) broadcasts_S1x16_S64x16) := rfl

/-- ENTRY `(p, q)` OF THE HEAD's PAYLOAD. -/
theorem pay4_apply (v0 : Vec Ideal S64x128 .f32) (v3 : Vec Ideal S128x128 .f32) (v6 : Vec Ideal S1x128 .f32)
    (v11 : Vec Ideal S128x16 .f32) (v14 : Vec Ideal S1x16 .f32) (p : Fin 64) (q : Fin 16) :
    k4_pay1 (F := Ideal) v0 v3 v6 v11 v14 (ix2 p q) = headEntry v0 v3 v6 v11 v14 p q := by
  rw [pay4_eq, addf_apply, Cert.LibRows.matmul_plain_apply _ dot_head2_plain, broadcastTo_1b_ab_apply]
  simp only [shapeCast_self]
  unfold headEntry
  congr 1
  refine Finset.sum_congr rfl fun k _ => ?_
  rw [truncf_apply, truncf_apply, addf_apply, Cert.LibRows.matmul_plain_apply _ dot_head1_plain,
    broadcastTo_1b_ab_apply]
  rfl

end Cert.KernelIdeal.SagePayload

end
-- ==== Proof.SageRegion0.lean ====
/-
  Kernel region 0 (graph layer 1) as one whole-array function of the arrays it reads.

  The region walks 25 grid points; at point `t` it reads rows `2000 t … 2000 t + 1999` of the node features, of the
  neighbour sums and of the reciprocal-count column, and the whole stacked weights and bias row, and writes back rows
  `2000 t … 2000 t + 1999` of the output. Entry `(p, q)` of what point `t` writes back is the layer's entry
  `(2000 t + p, q)` of the whole arrays, the 25 blocks cover the output, so the output array ends at
  `Cert.SageEntry.layerK` of the five arrays as the region finds them.
-/
import proofs.«111463_j31756988186712_2_alg».proof.Proof.Gen.KernelIdeal.Frame
import proofs.«111463_j31756988186712_2_alg».proof.Proof.SagePayload
import Idealize.ShloMosaic.Lib.Pipeline.Value

set_option maxRecDepth 16384

noncomputable section

namespace Cert.KernelIdeal.SageRegion0

open Idealize.ShloMosaic Idealize.ShloMosaic.TcCoe Idealize.ShloMosaic.ValueIdx Idealize.SL.Sem
open Idealize.ShloMosaic.Pipeline (Dat)
open Cert.KernelIdeal Cert.KernelIdeal.Gen Cert.SageEntry

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the 25 points: the three row-blocked inputs and the output are at block
    `(t, 0)`, the weights and the bias row at block `(0, 0)`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 ∧ t.val < 25 :=
  (by decide +kernel : ∀ t : Fin grid0.N, _)

/-- Every row block is some point's. -/
theorem idx_onto : ∀ q0 : Fin 25, ∃ t : Fin cfg0.N, win0_5.index t = ![q0.val, 0] :=
  (by decide +kernel : ∀ q0 : Fin 25, ∃ t : Fin grid0.N, win0_5.index t = ![q0.val, 0])

/-- Row `p` of point `t`'s blocks is row `2000 t + p` of the arrays. -/
def row (t : Fin cfg0.N) (p : Fin 2000) : Fin 50000 :=
  ⟨t.val * 2000 + p.val, by have := (idx_facts t).2.2.2.2.2.2.2.2.2.2.2.2; have := p.isLt; omega⟩

theorem blk0 (c : Dev nD) (t : Fin cfg0.N) (p : Fin 2000) (i : Fin 128) :
    iblk0 V c 0 t (ix2 p i) = V c main_arg0 (ix2 (row t p) i) := by
  show V c main_arg0 (((cfg0.win 0).blk t).view.emb (ix2 p i)) = _
  congr 1
  funext a; apply Fin.ext
  obtain ⟨e0, e1, -⟩ := idx_facts t
  match a with
  | ⟨0, _⟩ => show win0_0.index t (0 : Fin 2) * 2000 + 1 * p.val = t.val * 2000 + p.val; rw [e0]; omega
  | ⟨1, _⟩ => show win0_0.index t (1 : Fin 2) * 128 + 1 * i.val = i.val; rw [e1]; omega

theorem blk1 (c : Dev nD) (t : Fin cfg0.N) (p : Fin 2000) (i : Fin 128) :
    iblk0 V c 1 t (ix2 p i) = V c main_v24 (ix2 (row t p) i) := by
  show V c main_v24 (((cfg0.win 1).blk t).view.emb (ix2 p i)) = _
  congr 1
  funext a; apply Fin.ext
  obtain ⟨-, -, e0, e1, -⟩ := idx_facts t
  match a with
  | ⟨0, _⟩ => show win0_1.index t (0 : Fin 2) * 2000 + 1 * p.val = t.val * 2000 + p.val; rw [e0]; omega
  | ⟨1, _⟩ => show win0_1.index t (1 : Fin 2) * 128 + 1 * i.val = i.val; rw [e1]; omega

theorem blk2 (c : Dev nD) (t : Fin cfg0.N) (p : Fin 2000) :
    iblk0 V c 2 t (ix2 p (0 : Fin 1)) = V c main_v12 (ix2 (row t p) (0 : Fin 1)) := by
  show V c main_v12 (((cfg0.win 2).blk t).view.emb (ix2 p (0 : Fin 1))) = _
  congr 1
  funext a; apply Fin.ext
  obtain ⟨-, -, -, -, e0, e1, -⟩ := idx_facts t
  match a with
  | ⟨0, _⟩ => show win0_2.index t (0 : Fin 2) * 2000 + 1 * p.val = t.val * 2000 + p.val; rw [e0]; omega
  | ⟨1, _⟩ => show win0_2.index t (1 : Fin 2) * 1 + 1 * 0 = 0; rw [e1]

theorem blk3 (c : Dev nD) (t : Fin cfg0.N) (k : Fin 256) (q : Fin 128) :
    iblk0 V c 3 t (ix2 k q) = V c main_v25 (ix2 k q) := by
  show V c main_v25 (((cfg0.win 3).blk t).view.emb (ix2 k q)) = _
  congr 1
  funext a; apply Fin.ext
  obtain ⟨-, -, -, -, -, -, e0, e1, -⟩ := idx_facts t
  match a with
  | ⟨0, _⟩ => show win0_3.index t (0 : Fin 2) * 256 + 1 * k.val = k.val; rw [e0]; omega
  | ⟨1, _⟩ => show win0_3.index t (1 : Fin 2) * 128 + 1 * q.val = q.val; rw [e1]; omega

theorem blk4 (c : Dev nD) (t : Fin cfg0.N) (q : Fin 128) :
    iblk0 V c 4 t (ix2 (0 : Fin 1) q) = V c main_v26 (ix2 (0 : Fin 1) q) := by
  show V c main_v26 (((cfg0.win 4).blk t).view.emb (ix2 (0 : Fin 1) q)) = _
  congr 1
  funext a; apply Fin.ext
  obtain ⟨-, -, -, -, -, -, -, -, e0, e1, -⟩ := idx_facts t
  match a with
  | ⟨0, _⟩ => show win0_4.index t (0 : Fin 2) * 1 + 1 * 0 = 0; rw [e0]
  | ⟨1, _⟩ => show win0_4.index t (1 : Fin 2) * 128 + 1 * q.val = q.val; rw [e1]; omega

theorem emb5 (t : Fin cfg0.N) (p : Fin 2000) (q : Fin 128) :
    ((cfg0.win 5).blk t).view.emb (ix2 p q) = ix2 (row t p) q := by
  funext a; apply Fin.ext
  obtain ⟨-, -, -, -, -, -, -, -, -, -, e0, e1, -⟩ := idx_facts t
  match a with
  | ⟨0, _⟩ => show win0_5.index t (0 : Fin 2) * 2000 + 1 * p.val = t.val * 2000 + p.val; rw [e0]; omega
  | ⟨1, _⟩ => show win0_5.index t (1 : Fin 2) * 128 + 1 * q.val = q.val; rw [e1]; omega

/-- WHAT POINT `t` WRITES BACK is block `t` of the layer of the whole arrays. -/
theorem flushed_eq (c : Dev nD) (t : Fin cfg0.N) :
    (dat0 V c).flushed 5 t = ((cfg0.win 5).blk t).view.read (Elt Ideal)
      (layerK (V c main_arg0) (V c main_v24) (V c main_v12) (V c main_v25) (V c main_v26)) := by
  show (cfg0.win 5).cut (grid0.coords t) ((dat0 V c).after 5 t) = _
  rw [after0_5]
  unfold out0_5
  rw [View.canon_unit_zero hz]
  simp only [View.ld_unit_zero (S := S2000x128) hz, View.ld_unit_zero (S := S2000x1) hz,
    View.ld_unit_zero (S := S256x128) hz, View.ld_unit_zero (S := S1x128) hz]
  funext j
  obtain ⟨p, q, rfl⟩ : ∃ (p : Fin 2000) (q : Fin 128), j = ix2 p q := ⟨j 0, j 1, eq_ix2 j⟩
  show k0_pay1 (iblk0 V c 1 t) (iblk0 V c 2 t) (iblk0 V c 0 t) (iblk0 V c 3 t) (iblk0 V c 4 t) (ix2 p q)
    = layerK (V c main_arg0) (V c main_v24) (V c main_v12) (V c main_v25) (V c main_v26) (((cfg0.win 5).blk t).view.emb (ix2 p q))
  rw [emb5, layerK_apply]
  refine (Cert.KernelIdeal.SagePayload.pay0_apply _ _ _ _ _ p q).trans ?_
  exact layerEntry_congr _ _ _ _ _ _ _ _ _ _ p (row t p) q (fun i => blk0 V c t p i) (fun i => blk1 V c t p i)
    (blk2 V c t p) (fun k => blk3 V c t k q) (blk4 V c t q)

/-- An index of the output array is in point `t`'s block iff each coordinate is in the block's range on its axis. -/
theorem mem_blk (t : Fin cfg0.N) (i : S50000x128.Idx) :
    i ∈ ((cfg0.win 5).blk t).view.set ↔ ∀ a : Fin 2, win0_5.index t a * S2000x128.size a ≤ (i a).val
      ∧ (i a).val < win0_5.index t a * S2000x128.size a + S2000x128.size a := by
  show i ∈ ((View.whole main_v27).slice (win0_5.rect t)).set ↔ _
  rw [View.set_slice_whole, Rect.mem_set_unit]
  exact Iff.rfl

/-- Every index of the output is in the block of the point that owns its row. -/
theorem cover (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  obtain ⟨t, ht⟩ := idx_onto ⟨(i 0).val / 2000, by omega⟩
  have q0 : win0_5.index t (0 : Fin 2) = (i 0).val / 2000 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 2000 ≤ (i 0).val ∧ (i 0).val < win0_5.index t (0 : Fin 2) * 2000 + 2000; omega
  | ⟨1, _⟩ => show win0_5.index t (1 : Fin 2) * 128 ≤ (i 1).val ∧ (i 1).val < win0_5.index t (1 : Fin 2) * 128 + 128; omega

/-- THE OUTPUT ARRAY after the region: the layer of the arrays as the region finds them. -/
theorem final (c : Dev nD) :
    (dat0 V c).arrAt 5 cfg0.N
      = layerK (V c main_arg0) (V c main_v24) (V c main_v12) (V c main_v25) (V c main_v26) :=
  (dat0 V c).arrAt_eq_of_cover 5 _ (fun t _ => flushed_eq V c t) cover

end Cert.KernelIdeal.SageRegion0

end
-- ==== Proof.SageRegion1.lean ====
/-
  Kernel region 1 (graph layer 2) as one whole-array function of the arrays it reads.

  The region walks 25 grid points; at point `t` it reads rows `2000 t … 2000 t + 1999` of the node features, of the
  neighbour sums and of the reciprocal-count column, and the whole stacked weights and bias row, and writes back rows
  `2000 t … 2000 t + 1999` of the output. Entry `(p, q)` of what point `t` writes back is the layer's entry
  `(2000 t + p, q)` of the whole arrays, the 25 blocks cover the output, so the output array ends at
  `Cert.SageEntry.layerK` of the five arrays as the region finds them.
-/
import proofs.«111463_j31756988186712_2_alg».proof.Proof.Gen.KernelIdeal.Frame
import proofs.«111463_j31756988186712_2_alg».proof.Proof.SagePayload
import Idealize.ShloMosaic.Lib.Pipeline.Value

set_option maxRecDepth 16384

noncomputable section

namespace Cert.KernelIdeal.SageRegion1

open Idealize.ShloMosaic Idealize.ShloMosaic.TcCoe Idealize.ShloMosaic.ValueIdx Idealize.SL.Sem
open Idealize.ShloMosaic.Pipeline (Dat)
open Cert.KernelIdeal Cert.KernelIdeal.Gen Cert.SageEntry

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the 25 points: the three row-blocked inputs and the output are at block
    `(t, 0)`, the weights and the bias row at block `(0, 0)`. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 ∧ t.val < 25 :=
  (by decide +kernel : ∀ t : Fin grid1.N, _)

/-- Every row block is some point's. -/
theorem idx_onto : ∀ q0 : Fin 25, ∃ t : Fin cfg1.N, win1_5.index t = ![q0.val, 0] :=
  (by decide +kernel : ∀ q0 : Fin 25, ∃ t : Fin grid1.N, win1_5.index t = ![q0.val, 0])

/-- Row `p` of point `t`'s blocks is row `2000 t + p` of the arrays. -/
def row (t : Fin cfg1.N) (p : Fin 2000) : Fin 50000 :=
  ⟨t.val * 2000 + p.val, by have := (idx_facts t).2.2.2.2.2.2.2.2.2.2.2.2; have := p.isLt; omega⟩

theorem blk0 (c : Dev nD) (t : Fin cfg1.N) (p : Fin 2000) (i : Fin 128) :
    iblk1 V c 0 t (ix2 p i) = V c main_v27 (ix2 (row t p) i) := by
  show V c main_v27 (((cfg1.win 0).blk t).view.emb (ix2 p i)) = _
  congr 1
  funext a; apply Fin.ext
  obtain ⟨e0, e1, -⟩ := idx_facts t
  match a with
  | ⟨0, _⟩ => show win1_0.index t (0 : Fin 2) * 2000 + 1 * p.val = t.val * 2000 + p.val; rw [e0]; omega
  | ⟨1, _⟩ => show win1_0.index t (1 : Fin 2) * 128 + 1 * i.val = i.val; rw [e1]; omega

theorem blk1 (c : Dev nD) (t : Fin cfg1.N) (p : Fin 2000) (i : Fin 128) :
    iblk1 V c 1 t (ix2 p i) = V c main_v39 (ix2 (row t p) i) := by
  show V c main_v39 (((cfg1.win 1).blk t).view.emb (ix2 p i)) = _
  congr 1
  funext a; apply Fin.ext
  obtain ⟨-, -, e0, e1, -⟩ := idx_facts t
  match a with
  | ⟨0, _⟩ => show win1_1.index t (0 : Fin 2) * 2000 + 1 * p.val = t.val * 2000 + p.val; rw [e0]; omega
  | ⟨1, _⟩ => show win1_1.index t (1 : Fin 2) * 128 + 1 * i.val = i.val; rw [e1]; omega

theorem blk2 (c : Dev nD) (t : Fin cfg1.N) (p : Fin 2000) :
    iblk1 V c 2 t (ix2 p (0 : Fin 1)) = V c main_v12 (ix2 (row t p) (0 : Fin 1)) := by
  show V c main_v12 (((cfg1.win 2).blk t).view.emb (ix2 p (0 : Fin 1))) = _
  congr 1
  funext a; apply Fin.ext
  obtain ⟨-, -, -, -, e0, e1, -⟩ := idx_facts t
  match a with
  | ⟨0, _⟩ => show win1_2.index t (0 : Fin 2) * 2000 + 1 * p.val = t.val * 2000 + p.val; rw [e0]; omega
  | ⟨1, _⟩ => show win1_2.index t (1 : Fin 2) * 1 + 1 * 0 = 0; rw [e1]

theorem blk3 (c : Dev nD) (t : Fin cfg1.N) (k : Fin 256) (q : Fin 128) :
    iblk1 V c 3 t (ix2 k q) = V c main_v40 (ix2 k q) := by
  show V c main_v40 (((cfg1.win 3).blk t).view.emb (ix2 k q)) = _
  congr 1
  funext a; apply Fin.ext
  obtain ⟨-, -, -, -, -, -, e0, e1, -⟩ := idx_facts t
  match a with
  | ⟨0, _⟩ => show win1_3.index t (0 : Fin 2) * 256 + 1 * k.val = k.val; rw [e0]; omega
  | ⟨1, _⟩ => show win1_3.index t (1 : Fin 2) * 128 + 1 * q.val = q.val; rw [e1]; omega

theorem blk4 (c : Dev nD) (t : Fin cfg1.N) (q : Fin 128) :
    iblk1 V c 4 t (ix2 (0 : Fin 1) q) = V c main_v41 (ix2 (0 : Fin 1) q) := by
  show V c main_v41 (((cfg1.win 4).blk t).view.emb (ix2 (0 : Fin 1) q)) = _
  congr 1
  funext a; apply Fin.ext
  obtain ⟨-, -, -, -, -, -, -, -, e0, e1, -⟩ := idx_facts t
  match a with
  | ⟨0, _⟩ => show win1_4.index t (0 : Fin 2) * 1 + 1 * 0 = 0; rw [e0]
  | ⟨1, _⟩ => show win1_4.index t (1 : Fin 2) * 128 + 1 * q.val = q.val; rw [e1]; omega

theorem emb5 (t : Fin cfg1.N) (p : Fin 2000) (q : Fin 128) :
    ((cfg1.win 5).blk t).view.emb (ix2 p q) = ix2 (row t p) q := by
  funext a; apply Fin.ext
  obtain ⟨-, -, -, -, -, -, -, -, -, -, e0, e1, -⟩ := idx_facts t
  match a with
  | ⟨0, _⟩ => show win1_5.index t (0 : Fin 2) * 2000 + 1 * p.val = t.val * 2000 + p.val; rw [e0]; omega
  | ⟨1, _⟩ => show win1_5.index t (1 : Fin 2) * 128 + 1 * q.val = q.val; rw [e1]; omega

/-- WHAT POINT `t` WRITES BACK is block `t` of the layer of the whole arrays. -/
theorem flushed_eq (c : Dev nD) (t : Fin cfg1.N) :
    (dat1 V c).flushed 5 t = ((cfg1.win 5).blk t).view.read (Elt Ideal)
      (layerK (V c main_v27) (V c main_v39) (V c main_v12) (V c main_v40) (V c main_v41)) := by
  show (cfg1.win 5).cut (grid1.coords t) ((dat1 V c).after 5 t) = _
  rw [after1_5]
  unfold out1_5
  rw [View.canon_unit_zero hz]
  simp only [View.ld_unit_zero (S := S2000x128) hz, View.ld_unit_zero (S := S2000x1) hz,
    View.ld_unit_zero (S := S256x128) hz, View.ld_unit_zero (S := S1x128) hz]
  funext j
  obtain ⟨p, q, rfl⟩ : ∃ (p : Fin 2000) (q : Fin 128), j = ix2 p q := ⟨j 0, j 1, eq_ix2 j⟩
  show k1_pay1 (iblk1 V c 1 t) (iblk1 V c 2 t) (iblk1 V c 0 t) (iblk1 V c 3 t) (iblk1 V c 4 t) (ix2 p q)
    = layerK (V c main_v27) (V c main_v39) (V c main_v12) (V c main_v40) (V c main_v41) (((cfg1.win 5).blk t).view.emb (ix2 p q))
  rw [emb5, layerK_apply]
  refine (Cert.KernelIdeal.SagePayload.pay1_apply _ _ _ _ _ p q).trans ?_
  exact layerEntry_congr _ _ _ _ _ _ _ _ _ _ p (row t p) q (fun i => blk0 V c t p i) (fun i => blk1 V c t p i)
    (blk2 V c t p) (fun k => blk3 V c t k q) (blk4 V c t q)

/-- An index of the output array is in point `t`'s block iff each coordinate is in the block's range on its axis. -/
theorem mem_blk (t : Fin cfg1.N) (i : S50000x128.Idx) :
    i ∈ ((cfg1.win 5).blk t).view.set ↔ ∀ a : Fin 2, win1_5.index t a * S2000x128.size a ≤ (i a).val
      ∧ (i a).val < win1_5.index t a * S2000x128.size a + S2000x128.size a := by
  show i ∈ ((View.whole main_v42).slice (win1_5.rect t)).set ↔ _
  rw [View.set_slice_whole, Rect.mem_set_unit]
  exact Iff.rfl

/-- Every index of the output is in the block of the point that owns its row. -/
theorem cover (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  obtain ⟨t, ht⟩ := idx_onto ⟨(i 0).val / 2000, by omega⟩
  have q0 : win1_5.index t (0 : Fin 2) = (i 0).val / 2000 := congrFun ht 0
  have q1 : win1_5.index t (1 : Fin 2) = 0 := congrFun ht 1
  refine ⟨t, flush1_5 t, ?_⟩
  rw [mem_blk]
  intro a
  match a with
  | ⟨0, _⟩ => show win1_5.index t (0 : Fin 2) * 2000 ≤ (i 0).val ∧ (i 0).val < win1_5.index t (0 : Fin 2) * 2000 + 2000; omega
  | ⟨1, _⟩ => show win1_5.index t (1 : Fin 2) * 128 ≤ (i 1).val ∧ (i 1).val < win1_5.index t (1 : Fin 2) * 128 + 128; omega

/-- THE OUTPUT ARRAY after the region: the layer of the arrays as the region finds them. -/
theorem final (c : Dev nD) :
    (dat1 V c).arrAt 5 cfg1.N
      = layerK (V c main_v27) (V c main_v39) (V c main_v12) (V c main_v40) (V c main_v41) :=
  (dat1 V c).arrAt_eq_of_cover 5 _ (fun t _ => flushed_eq V c t) cover

end Cert.KernelIdeal.SageRegion1

end
-- ==== Proof.SageRegion2.lean ====
/-
  Kernel region 2 (graph layer 3) as one whole-array function of the arrays it reads.

  The region walks 25 grid points; at point `t` it reads rows `2000 t … 2000 t + 1999` of the node features, of the
  neighbour sums and of the reciprocal-count column, and the whole stacked weights and bias row, and writes back rows
  `2000 t … 2000 t + 1999` of the output. Entry `(p, q)` of what point `t` writes back is the layer's entry
  `(2000 t + p, q)` of the whole arrays, the 25 blocks cover the output, so the output array ends at
  `Cert.SageEntry.layerK` of the five arrays as the region finds them.
-/
import proofs.«111463_j31756988186712_2_alg».proof.Proof.Gen.KernelIdeal.Frame
import proofs.«111463_j31756988186712_2_alg».proof.Proof.SagePayload
import Idealize.ShloMosaic.Lib.Pipeline.Value

set_option maxRecDepth 16384

noncomputable section

namespace Cert.KernelIdeal.SageRegion2

open Idealize.ShloMosaic Idealize.ShloMosaic.TcCoe Idealize.ShloMosaic.ValueIdx Idealize.SL.Sem
open Idealize.ShloMosaic.Pipeline (Dat)
open Cert.KernelIdeal Cert.KernelIdeal.Gen Cert.SageEntry

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the 25 points: the three row-blocked inputs and the output are at block
    `(t, 0)`, the weights and the bias row at block `(0, 0)`. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 ∧ t.val < 25 :=
  (by decide +kernel : ∀ t : Fin grid2.N, _)

/-- Every row block is some point's. -/
theorem idx_onto : ∀ q0 : Fin 25, ∃ t : Fin cfg2.N, win2_5.index t = ![q0.val, 0] :=
  (by decide +kernel : ∀ q0 : Fin 25, ∃ t : Fin grid2.N, win2_5.index t = ![q0.val, 0])

/-- Row `p` of point `t`'s blocks is row `2000 t + p` of the arrays. -/
def row (t : Fin cfg2.N) (p : Fin 2000) : Fin 50000 :=
  ⟨t.val * 2000 + p.val, by have := (idx_facts t).2.2.2.2.2.2.2.2.2.2.2.2; have := p.isLt; omega⟩

theorem blk0 (c : Dev nD) (t : Fin cfg2.N) (p : Fin 2000) (i : Fin 128) :
    iblk2 V c 0 t (ix2 p i) = V c main_v42 (ix2 (row t p) i) := by
  show V c main_v42 (((cfg2.win 0).blk t).view.emb (ix2 p i)) = _
  congr 1
  funext a; apply Fin.ext
  obtain ⟨e0, e1, -⟩ := idx_facts t
  match a with
  | ⟨0, _⟩ => show win2_0.index t (0 : Fin 2) * 2000 + 1 * p.val = t.val * 2000 + p.val; rw [e0]; omega
  | ⟨1, _⟩ => show win2_0.index t (1 : Fin 2) * 128 + 1 * i.val = i.val; rw [e1]; omega

theorem blk1 (c : Dev nD) (t : Fin cfg2.N) (p : Fin 2000) (i : Fin 128) :
    iblk2 V c 1 t (ix2 p i) = V c main_v54 (ix2 (row t p) i) := by
  show V c main_v54 (((cfg2.win 1).blk t).view.emb (ix2 p i)) = _
  congr 1
  funext a; apply Fin.ext
  obtain ⟨-, -, e0, e1, -⟩ := idx_facts t
  match a with
  | ⟨0, _⟩ => show win2_1.index t (0 : Fin 2) * 2000 + 1 * p.val = t.val * 2000 + p.val; rw [e0]; omega
  | ⟨1, _⟩ => show win2_1.index t (1 : Fin 2) * 128 + 1 * i.val = i.val; rw [e1]; omega

theorem blk2 (c : Dev nD) (t : Fin cfg2.N) (p : Fin 2000) :
    iblk2 V c 2 t (ix2 p (0 : Fin 1)) = V c main_v12 (ix2 (row t p) (0 : Fin 1)) := by
  show V c main_v12 (((cfg2.win 2).blk t).view.emb (ix2 p (0 : Fin 1))) = _
  congr 1
  funext a; apply Fin.ext
  obtain ⟨-, -, -, -, e0, e1, -⟩ := idx_facts t
  match a with
  | ⟨0, _⟩ => show win2_2.index t (0 : Fin 2) * 2000 + 1 * p.val = t.val * 2000 + p.val; rw [e0]; omega
  | ⟨1, _⟩ => show win2_2.index t (1 : Fin 2) * 1 + 1 * 0 = 0; rw [e1]

theorem blk3 (c : Dev nD) (t : Fin cfg2.N) (k : Fin 256) (q : Fin 128) :
    iblk2 V c 3 t (ix2 k q) = V c main_v55 (ix2 k q) := by
  show V c main_v55 (((cfg2.win 3).blk t).view.emb (ix2 k q)) = _
  congr 1
  funext a; apply Fin.ext
  obtain ⟨-, -, -, -, -, -, e0, e1, -⟩ := idx_facts t
  match a with
  | ⟨0, _⟩ => show win2_3.index t (0 : Fin 2) * 256 + 1 * k.val = k.val; rw [e0]; omega
  | ⟨1, _⟩ => show win2_3.index t (1 : Fin 2) * 128 + 1 * q.val = q.val; rw [e1]; omega

theorem blk4 (c : Dev nD) (t : Fin cfg2.N) (q : Fin 128) :
    iblk2 V c 4 t (ix2 (0 : Fin 1) q) = V c main_v56 (ix2 (0 : Fin 1) q) := by
  show V c main_v56 (((cfg2.win 4).blk t).view.emb (ix2 (0 : Fin 1) q)) = _
  congr 1
  funext a; apply Fin.ext
  obtain ⟨-, -, -, -, -, -, -, -, e0, e1, -⟩ := idx_facts t
  match a with
  | ⟨0, _⟩ => show win2_4.index t (0 : Fin 2) * 1 + 1 * 0 = 0; rw [e0]
  | ⟨1, _⟩ => show win2_4.index t (1 : Fin 2) * 128 + 1 * q.val = q.val; rw [e1]; omega

theorem emb5 (t : Fin cfg2.N) (p : Fin 2000) (q : Fin 128) :
    ((cfg2.win 5).blk t).view.emb (ix2 p q) = ix2 (row t p) q := by
  funext a; apply Fin.ext
  obtain ⟨-, -, -, -, -, -, -, -, -, -, e0, e1, -⟩ := idx_facts t
  match a with
  | ⟨0, _⟩ => show win2_5.index t (0 : Fin 2) * 2000 + 1 * p.val = t.val * 2000 + p.val; rw [e0]; omega
  | ⟨1, _⟩ => show win2_5.index t (1 : Fin 2) * 128 + 1 * q.val = q.val; rw [e1]; omega

/-- WHAT POINT `t` WRITES BACK is block `t` of the layer of the whole arrays. -/
theorem flushed_eq (c : Dev nD) (t : Fin cfg2.N) :
    (dat2 V c).flushed 5 t = ((cfg2.win 5).blk t).view.read (Elt Ideal)
      (layerK (V c main_v42) (V c main_v54) (V c main_v12) (V c main_v55) (V c main_v56)) := by
  show (cfg2.win 5).cut (grid2.coords t) ((dat2 V c).after 5 t) = _
  rw [after2_5]
  unfold out2_5
  rw [View.canon_unit_zero hz]
  simp only [View.ld_unit_zero (S := S2000x128) hz, View.ld_unit_zero (S := S2000x1) hz,
    View.ld_unit_zero (S := S256x128) hz, View.ld_unit_zero (S := S1x128) hz]
  funext j
  obtain ⟨p, q, rfl⟩ : ∃ (p : Fin 2000) (q : Fin 128), j = ix2 p q := ⟨j 0, j 1, eq_ix2 j⟩
  show k2_pay1 (iblk2 V c 1 t) (iblk2 V c 2 t) (iblk2 V c 0 t) (iblk2 V c 3 t) (iblk2 V c 4 t) (ix2 p q)
    = layerK (V c main_v42) (V c main_v54) (V c main_v12) (V c main_v55) (V c main_v56) (((cfg2.win 5).blk t).view.emb (ix2 p q))
  rw [emb5, layerK_apply]
  rw [Cert.KernelIdeal.SagePayload.pay2_eq]
  refine (Cert.KernelIdeal.SagePayload.pay1_apply _ _ _ _ _ p q).trans ?_
  exact layerEntry_congr _ _ _ _ _ _ _ _ _ _ p (row t p) q (fun i => blk0 V c t p i) (fun i => blk1 V c t p i)
    (blk2 V c t p) (fun k => blk3 V c t k q) (blk4 V c t q)

/-- An index of the output array is in point `t`'s block iff each coordinate is in the block's range on its axis. -/
theorem mem_blk (t : Fin cfg2.N) (i : S50000x128.Idx) :
    i ∈ ((cfg2.win 5).blk t).view.set ↔ ∀ a : Fin 2, win2_5.index t a * S2000x128.size a ≤ (i a).val
      ∧ (i a).val < win2_5.index t a * S2000x128.size a + S2000x128.size a := by
  show i ∈ ((View.whole main_v57).slice (win2_5.rect t)).set ↔ _
  rw [View.set_slice_whole, Rect.mem_set_unit]
  exact Iff.rfl

/-- Every index of the output is in the block of the point that owns its row. -/
theorem cover (i : S50000x128.Idx) :
    ∃ t : Fin cfg2.N, (cfg2.win 5).flush t = true ∧ i ∈ ((cfg2.win 5).blk t).view.set := by
  have hi0 : (i 0).val < 50000 := (i 0).isLt
  have hi1 : (i 1).val < 128 := (i 1).isLt
  obtain ⟨t, ht⟩ := idx_onto ⟨(i 0).val / 2000, by omega⟩
  have q0 : win2_5.index t (0 : Fin 2) = (i 0).val / 2000 := congrFun ht 0
  have q1 : win2_5.index t (1 : Fin 2) = 0 := congrFun ht 1
  refine ⟨t, flush2_5 t, ?_⟩
  rw [mem_blk]
  intro a
  match a with
  | ⟨0, _⟩ => show win2_5.index t (0 : Fin 2) * 2000 ≤ (i 0).val ∧ (i 0).val < win2_5.index t (0 : Fin 2) * 2000 + 2000; omega
  | ⟨1, _⟩ => show win2_5.index t (1 : Fin 2) * 128 ≤ (i 1).val ∧ (i 1).val < win2_5.index t (1 : Fin 2) * 128 + 128; omega

/-- THE OUTPUT ARRAY after the region: the layer of the arrays as the region finds them. -/
theorem final (c : Dev nD) :
    (dat2 V c).arrAt 5 cfg2.N
      = layerK (V c main_v42) (V c main_v54) (V c main_v12) (V c main_v55) (V c main_v56) :=
  (dat2 V c).arrAt_eq_of_cover 5 _ (fun t _ => flushed_eq V c t) cover

end Cert.KernelIdeal.SageRegion2

end
-- ==== Proof.SageRegion3.lean ====
/-
  Kernel region 3 (graph layer 4) as one whole-array function of the arrays it reads.

  The region walks 25 grid points; at point `t` it reads rows `2000 t … 2000 t + 1999` of the node features, of the
  neighbour sums and of the reciprocal-count column, and the whole stacked weights and bias row, and writes back rows
  `2000 t … 2000 t + 1999` of the output. Entry `(p, q)` of what point `t` writes back is the layer's entry
  `(2000 t + p, q)` of the whole arrays, the 25 blocks cover the output, so the output array ends at
  `Cert.SageEntry.layerK` of the five arrays as the region finds them.
-/
import proofs.«111463_j31756988186712_2_alg».proof.Proof.Gen.KernelIdeal.Frame
import proofs.«111463_j31756988186712_2_alg».proof.Proof.SagePayload
import Idealize.ShloMosaic.Lib.Pipeline.Value

set_option maxRecDepth 16384

noncomputable section

namespace Cert.KernelIdeal.SageRegion3

open Idealize.ShloMosaic Idealize.ShloMosaic.TcCoe Idealize.ShloMosaic.ValueIdx Idealize.SL.Sem
open Idealize.ShloMosaic.Pipeline (Dat)
open Cert.KernelIdeal Cert.KernelIdeal.Gen Cert.SageEntry

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the 25 points: the three row-blocked inputs and the output are at block
    `(t, 0)`, the weights and the bias row at block `(0, 0)`. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 ∧ t.val < 25 :=
  (by decide +kernel : ∀ t : Fin grid3.N, _)

/-- Every row block is some point's. -/
theorem idx_onto : ∀ q0 : Fin 25, ∃ t : Fin cfg3.N, win3_5.index t = ![q0.val, 0] :=
  (by decide +kernel : ∀ q0 : Fin 25, ∃ t : Fin grid3.N, win3_5.index t = ![q0.val, 0])

/-- Row `p` of point `t`'s blocks is row `2000 t + p` of the arrays. -/
def row (t : Fin cfg3.N) (p : Fin 2000) : Fin 50000 :=
  ⟨t.val * 2000 + p.val, by have := (idx_facts t).2.2.2.2.2.2.2.2.2.2.2.2; have := p.isLt; omega⟩

theorem blk0 (c : Dev nD) (t : Fin cfg3.N) (p : Fin 2000) (i : Fin 128) :
    iblk3 V c 0 t (ix2 p i) = V c main_v57 (ix2 (row t p) i) := by
  show V c main_v57 (((cfg3.win 0).blk t).view.emb (ix2 p i)) = _
  congr 1
  funext a; apply Fin.ext
  obtain ⟨e0, e1, -⟩ := idx_facts t
  match a with
  | ⟨0, _⟩ => show win3_0.index t (0 : Fin 2) * 2000 + 1 * p.val = t.val * 2000 + p.val; rw [e0]; omega
  | ⟨1, _⟩ => show win3_0.index t (1 : Fin 2) * 128 + 1 * i.val = i.val; rw [e1]; omega

theorem blk1 (c : Dev nD) (t : Fin cfg3.N) (p : Fin 2000) (i : Fin 128) :
    iblk3 V c 1 t (ix2 p i) = V c main_v69 (ix2 (row t p) i) := by
  show V c main_v69 (((cfg3.win 1).blk t).view.emb (ix2 p i)) = _
  congr 1
  funext a; apply Fin.ext
  obtain ⟨-, -, e0, e1, -⟩ := idx_facts t
  match a with
  | ⟨0, _⟩ => show win3_1.index t (0 : Fin 2) * 2000 + 1 * p.val = t.val * 2000 + p.val; rw [e0]; omega
  | ⟨1, _⟩ => show win3_1.index t (1 : Fin 2) * 128 + 1 * i.val = i.val; rw [e1]; omega

theorem blk2 (c : Dev nD) (t : Fin cfg3.N) (p : Fin 2000) :
    iblk3 V c 2 t (ix2 p (0 : Fin 1)) = V c main_v12 (ix2 (row t p) (0 : Fin 1)) := by
  show V c main_v12 (((cfg3.win 2).blk t).view.emb (ix2 p (0 : Fin 1))) = _
  congr 1
  funext a; apply Fin.ext
  obtain ⟨-, -, -, -, e0, e1, -⟩ := idx_facts t
  match a with
  | ⟨0, _⟩ => show win3_2.index t (0 : Fin 2) * 2000 + 1 * p.val = t.val * 2000 + p.val; rw [e0]; omega
  | ⟨1, _⟩ => show win3_2.index t (1 : Fin 2) * 1 + 1 * 0 = 0; rw [e1]

theorem blk3 (c : Dev nD) (t : Fin cfg3.N) (k : Fin 256) (q : Fin 128) :
    iblk3 V c 3 t (ix2 k q) = V c main_v70 (ix2 k q) := by
  show V c main_v70 (((cfg3.win 3).blk t).view.emb (ix2 k q)) = _
  congr 1
  funext a; apply Fin.ext
  obtain ⟨-, -, -, -, -, -, e0, e1, -⟩ := idx_facts t
  match a with
  | ⟨0, _⟩ => show win3_3.index t (0 : Fin 2) * 256 + 1 * k.val = k.val; rw [e0]; omega
  | ⟨1, _⟩ => show win3_3.index t (1 : Fin 2) * 128 + 1 * q.val = q.val; rw [e1]; omega

theorem blk4 (c : Dev nD) (t : Fin cfg3.N) (q : Fin 128) :
    iblk3 V c 4 t (ix2 (0 : Fin 1) q) = V c main_v71 (ix2 (0 : Fin 1) q) := by
  show V c main_v71 (((cfg3.win 4).blk t).view.emb (ix2 (0 : Fin 1) q)) = _
  congr 1
  funext a; apply Fin.ext
  obtain ⟨-, -, -, -, -, -, -, -, e0, e1, -⟩ := idx_facts t
  match a with
  | ⟨0, _⟩ => show win3_4.index t (0 : Fin 2) * 1 + 1 * 0 = 0; rw [e0]
  | ⟨1, _⟩ => show win3_4.index t (1 : Fin 2) * 128 + 1 * q.val = q.val; rw [e1]; omega

theorem emb5 (t : Fin cfg3.N) (p : Fin 2000) (q : Fin 128) :
    ((cfg3.win 5).blk t).view.emb (ix2 p q) = ix2 (row t p) q := by
  funext a; apply Fin.ext
  obtain ⟨-, -, -, -, -, -, -, -, -, -, e0, e1, -⟩ := idx_facts t
  match a with
  | ⟨0, _⟩ => show win3_5.index t (0 : Fin 2) * 2000 + 1 * p.val = t.val * 2000 + p.val; rw [e0]; omega
  | ⟨1, _⟩ => show win3_5.index t (1 : Fin 2) * 128 + 1 * q.val = q.val; rw [e1]; omega

/-- WHAT POINT `t` WRITES BACK is block `t` of the layer of the whole arrays. -/
theorem flushed_eq (c : Dev nD) (t : Fin cfg3.N) :
    (dat3 V c).flushed 5 t = ((cfg3.win 5).blk t).view.read (Elt Ideal)
      (layerK (V c main_v57) (V c main_v69) (V c main_v12) (V c main_v70) (V c main_v71)) := by
  show (cfg3.win 5).cut (grid3.coords t) ((dat3 V c).after 5 t) = _
  rw [after3_5]
  unfold out3_5
  rw [View.canon_unit_zero hz]
  simp only [View.ld_unit_zero (S := S2000x128) hz, View.ld_unit_zero (S := S2000x1) hz,
    View.ld_unit_zero (S := S256x128) hz, View.ld_unit_zero (S := S1x128) hz]
  funext j
  obtain ⟨p, q, rfl⟩ : ∃ (p : Fin 2000) (q : Fin 128), j = ix2 p q := ⟨j 0, j 1, eq_ix2 j⟩
  show k3_pay1 (iblk3 V c 1 t) (iblk3 V c 2 t) (iblk3 V c 0 t) (iblk3 V c 3 t) (iblk3 V c 4 t) (ix2 p q)
    = layerK (V c main_v57) (V c main_v69) (V c main_v12) (V c main_v70) (V c main_v71) (((cfg3.win 5).blk t).view.emb (ix2 p q))
  rw [emb5, layerK_apply]
  rw [Cert.KernelIdeal.SagePayload.pay3_eq]
  refine (Cert.KernelIdeal.SagePayload.pay1_apply _ _ _ _ _ p q).trans ?_
  exact layerEntry_congr _ _ _ _ _ _ _ _ _ _ p (row t p) q (fun i => blk0 V c t p i) (fun i => blk1 V c t p i)
    (blk2 V c t p) (fun k => blk3 V c t k q) (blk4 V c t q)

/-- An index of the output array is in point `t`'s block iff each coordinate is in the block's range on its axis. -/
theorem mem_blk (t : Fin cfg3.N) (i : S50000x128.Idx) :
    i ∈ ((cfg3.win 5).blk t).view.set ↔ ∀ a : Fin 2, win3_5.index t a * S2000x128.size a ≤ (i a).val
      ∧ (i a).val < win3_5.index t a * S2000x128.size a + S2000x128.size a := by
  show i ∈ ((View.whole main_v72).slice (win3_5.rect t)).set ↔ _
  rw [View.set_slice_whole, Rect.mem_set_unit]
  exact Iff.rfl

/-- Every index of the output is in the block of the point that owns its row. -/
theorem cover (i : S50000x128.Idx) :
    ∃ t : Fin cfg3.N, (cfg3.win 5).flush t = true ∧ i ∈ ((cfg3.win 5).blk t).view.set := by
  have hi0 : (i 0).val < 50000 := (i 0).isLt
  have hi1 : (i 1).val < 128 := (i 1).isLt
  obtain ⟨t, ht⟩ := idx_onto ⟨(i 0).val / 2000, by omega⟩
  have q0 : win3_5.index t (0 : Fin 2) = (i 0).val / 2000 := congrFun ht 0
  have q1 : win3_5.index t (1 : Fin 2) = 0 := congrFun ht 1
  refine ⟨t, flush3_5 t, ?_⟩
  rw [mem_blk]
  intro a
  match a with
  | ⟨0, _⟩ => show win3_5.index t (0 : Fin 2) * 2000 ≤ (i 0).val ∧ (i 0).val < win3_5.index t (0 : Fin 2) * 2000 + 2000; omega
  | ⟨1, _⟩ => show win3_5.index t (1 : Fin 2) * 128 ≤ (i 1).val ∧ (i 1).val < win3_5.index t (1 : Fin 2) * 128 + 128; omega

/-- THE OUTPUT ARRAY after the region: the layer of the arrays as the region finds them. -/
theorem final (c : Dev nD) :
    (dat3 V c).arrAt 5 cfg3.N
      = layerK (V c main_v57) (V c main_v69) (V c main_v12) (V c main_v70) (V c main_v71) :=
  (dat3 V c).arrAt_eq_of_cover 5 _ (fun t _ => flushed_eq V c t) cover

end Cert.KernelIdeal.SageRegion3

end
-- ==== Proof.SageRegion4.lean ====
/-
  Kernel region 4 (the classification head) as one whole-array function of the arrays it reads.

  The region has one grid point; it reads the pooled features, both weight matrices and both bias rows whole and writes
  back the whole [64, 16] output: the output array ends at `Cert.SageEntry.headK` of the five arrays as the region
  finds them.
-/
import proofs.«111463_j31756988186712_2_alg».proof.Proof.Gen.KernelIdeal.Frame
import proofs.«111463_j31756988186712_2_alg».proof.Proof.SagePayload
import Idealize.ShloMosaic.Lib.Pipeline.Value

set_option maxRecDepth 16384

noncomputable section

namespace Cert.KernelIdeal.SageRegion4

open Idealize.ShloMosaic Idealize.ShloMosaic.TcCoe Idealize.ShloMosaic.ValueIdx Idealize.SL.Sem
open Idealize.ShloMosaic.Pipeline (Dat)
open Cert.KernelIdeal Cert.KernelIdeal.Gen Cert.SageEntry

variable (V : (c : Dev nD) → (b : Ref sig .tc) → Buf (Elt Ideal) ((c : Thread nD τ).loc b))

theorem hz : (![0, 0] : Fin 2 → Nat) = fun _ => 0 := funext fun a => by fin_cases a <;> rfl

/-- The printed index maps at the one point: every window is at block `(0, 0)`. -/
theorem idx_facts : ∀ t : Fin cfg4.N,
    win4_0.index t (0 : Fin 2) = 0 ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0 :=
  (by decide +kernel : ∀ t : Fin grid4.N, _)

theorem idx_onto : ∃ t : Fin cfg4.N, win4_5.index t = ![0, 0] :=
  (by decide +kernel : ∃ t : Fin grid4.N, win4_5.index t = ![0, 0])

theorem blk0 (c : Dev nD) (t : Fin cfg4.N) : iblk4 V c 0 t = V c main_v84 := by
  funext y
  show V c main_v84 (((cfg4.win 0).blk t).view.emb y) = _
  congr 1
  funext a; apply Fin.ext
  obtain ⟨e0, e1, -⟩ := idx_facts t
  match a with
  | ⟨0, _⟩ => show win4_0.index t (0 : Fin 2) * 64 + 1 * (y 0).val = (y 0).val; rw [e0]; omega
  | ⟨1, _⟩ => show win4_0.index t (1 : Fin 2) * 128 + 1 * (y 1).val = (y 1).val; rw [e1]; omega

theorem blk1 (c : Dev nD) (t : Fin cfg4.N) : iblk4 V c 1 t = V c main_arg15 := by
  funext y
  show V c main_arg15 (((cfg4.win 1).blk t).view.emb y) = _
  congr 1
  funext a; apply Fin.ext
  obtain ⟨-, -, e0, e1, -⟩ := idx_facts t
  match a with
  | ⟨0, _⟩ => show win4_1.index t (0 : Fin 2) * 128 + 1 * (y 0).val = (y 0).val; rw [e0]; omega
  | ⟨1, _⟩ => show win4_1.index t (1 : Fin 2) * 128 + 1 * (y 1).val = (y 1).val; rw [e1]; omega

theorem blk2 (c : Dev nD) (t : Fin cfg4.N) : iblk4 V c 2 t = V c main_v85 := by
  funext y
  show V c main_v85 (((cfg4.win 2).blk t).view.emb y) = _
  congr 1
  funext a; apply Fin.ext
  obtain ⟨-, -, -, -, e0, e1, -⟩ := idx_facts t
  match a with
  | ⟨0, _⟩ => show win4_2.index t (0 : Fin 2) * 1 + 1 * (y 0).val = (y 0).val; rw [e0]; omega
  | ⟨1, _⟩ => show win4_2.index t (1 : Fin 2) * 128 + 1 * (y 1).val = (y 1).val; rw [e1]; omega

theorem blk3 (c : Dev nD) (t : Fin cfg4.N) : iblk4 V c 3 t = V c main_arg17 := by
  funext y
  show V c main_arg17 (((cfg4.win 3).blk t).view.emb y) = _
  congr 1
  funext a; apply Fin.ext
  obtain ⟨-, -, -, -, -, -, e0, e1, -⟩ := idx_facts t
  match a with
  | ⟨0, _⟩ => show win4_3.index t (0 : Fin 2) * 128 + 1 * (y 0).val = (y 0).val; rw [e0]; omega
  | ⟨1, _⟩ => show win4_3.index t (1 : Fin 2) * 16 + 1 * (y 1).val = (y 1).val; rw [e1]; omega

theorem blk4 (c : Dev nD) (t : Fin cfg4.N) : iblk4 V c 4 t = V c main_v86 := by
  funext y
  show V c main_v86 (((cfg4.win 4).blk t).view.emb y) = _
  congr 1
  funext a; apply Fin.ext
  obtain ⟨-, -, -, -, -, -, -, -, e0, e1, -⟩ := idx_facts t
  match a with
  | ⟨0, _⟩ => show win4_4.index t (0 : Fin 2) * 1 + 1 * (y 0).val = (y 0).val; rw [e0]; omega
  | ⟨1, _⟩ => show win4_4.index t (1 : Fin 2) * 16 + 1 * (y 1).val = (y 1).val; rw [e1]; omega

theorem emb5 (t : Fin cfg4.N) (y : S64x16.Idx) : ((cfg4.win 5).blk t).view.emb y = y := by
  funext a; apply Fin.ext
  obtain ⟨-, -, -, -, -, -, -, -, -, -, e0, e1⟩ := idx_facts t
  match a with
  | ⟨0, _⟩ => show win4_5.index t (0 : Fin 2) * 64 + 1 * (y 0).val = (y 0).val; rw [e0]; omega
  | ⟨1, _⟩ => show win4_5.index t (1 : Fin 2) * 16 + 1 * (y 1).val = (y 1).val; rw [e1]; omega

/-- WHAT THE ONE POINT WRITES BACK is the head of the whole arrays. -/
theorem flushed_eq (c : Dev nD) (t : Fin cfg4.N) :
    (dat4 V c).flushed 5 t = ((cfg4.win 5).blk t).view.read (Elt Ideal)
      (headK (V c main_v84) (V c main_arg15) (V c main_v85) (V c main_arg17) (V c main_v86)) := by
  show (cfg4.win 5).cut (grid4.coords t) ((dat4 V c).after 5 t) = _
  rw [after4_5]
  unfold out4_5
  rw [View.canon_unit_zero hz]
  simp only [View.ld_unit_zero (S := S64x128) hz, View.ld_unit_zero (S := S128x128) hz,
    View.ld_unit_zero (S := S1x128) hz, View.ld_unit_zero (S := S128x16) hz, View.ld_unit_zero (S := S1x16) hz]
  funext j
  obtain ⟨p, q, rfl⟩ : ∃ (p : Fin 64) (q : Fin 16), j = ix2 p q := ⟨j 0, j 1, eq_ix2 j⟩
  show k4_pay1 (iblk4 V c 0 t) (iblk4 V c 1 t) (iblk4 V c 2 t) (iblk4 V c 3 t) (iblk4 V c 4 t) (ix2 p q)
    = headK (V c main_v84) (V c main_arg15) (V c main_v85) (V c main_arg17) (V c main_v86) (((cfg4.win 5).blk t).view.emb (ix2 p q))
  rw [emb5, headK_apply]
  refine (Cert.KernelIdeal.SagePayload.pay4_apply _ _ _ _ _ p q).trans ?_
  exact headEntry_congr _ _ _ _ _ _ _ _ _ _ p q (blk0 V c t) (blk1 V c t) (blk2 V c t) (blk3 V c t) (blk4 V c t)

theorem mem_blk (t : Fin cfg4.N) (i : S64x16.Idx) :
    i ∈ ((cfg4.win 5).blk t).view.set ↔ ∀ a : Fin 2, win4_5.index t a * S64x16.size a ≤ (i a).val
      ∧ (i a).val < win4_5.index t a * S64x16.size a + S64x16.size a := by
  show i ∈ ((View.whole main_v87).slice (win4_5.rect t)).set ↔ _
  rw [View.set_slice_whole, Rect.mem_set_unit]
  exact Iff.rfl

theorem cover (i : S64x16.Idx) :
    ∃ t : Fin cfg4.N, (cfg4.win 5).flush t = true ∧ i ∈ ((cfg4.win 5).blk t).view.set := by
  have hi0 : (i 0).val < 64 := (i 0).isLt
  have hi1 : (i 1).val < 16 := (i 1).isLt
  obtain ⟨t, ht⟩ := idx_onto
  have q0 : win4_5.index t (0 : Fin 2) = 0 := congrFun ht 0
  have q1 : win4_5.index t (1 : Fin 2) = 0 := congrFun ht 1
  refine ⟨t, flush4_5 t, ?_⟩
  rw [mem_blk]
  intro a
  match a with
  | ⟨0, _⟩ => show win4_5.index t (0 : Fin 2) * 64 ≤ (i 0).val ∧ (i 0).val < win4_5.index t (0 : Fin 2) * 64 + 64; omega
  | ⟨1, _⟩ => show win4_5.index t (1 : Fin 2) * 16 ≤ (i 1).val ∧ (i 1).val < win4_5.index t (1 : Fin 2) * 16 + 16; omega

/-- THE OUTPUT ARRAY after the region: the head of the arrays as the region finds them. -/
theorem final (c : Dev nD) :
    (dat4 V c).arrAt 5 cfg4.N
      = headK (V c main_v84) (V c main_arg15) (V c main_v85) (V c main_arg17) (V c main_v86) :=
  (dat4 V c).arrAt_eq_of_cover 5 _ (fun t _ => flushed_eq V c t) cover

end Cert.KernelIdeal.SageRegion4

end
-- ==== Proof.SageChain.lean ====
/-
  The kernel program's result buffer, read back through the ten segments to the arguments.

  At each kernel region's exit its output array is the layer (or the head) of the region's five input arrays as the
  region finds them (the region modules); each of those is what the preceding host stretch computed from the
  boundary before it, or a buffer kept across segments; walking back layer by layer, the result is
  `Cert.KernelIdeal.SageDefs.outK` of the arguments. The program's run then ends with the result buffer at `outK`
  and the arguments unchanged.
-/
import proofs.«111463_j31756988186712_2_alg».proof.Proof.SageRun
import proofs.«111463_j31756988186712_2_alg».proof.Proof.SageHost
import proofs.«111463_j31756988186712_2_alg».proof.Proof.SageKeepArgs
import proofs.«111463_j31756988186712_2_alg».proof.Proof.SageKeepBufs
import proofs.«111463_j31756988186712_2_alg».proof.Proof.SageRegion0
import proofs.«111463_j31756988186712_2_alg».proof.Proof.SageRegion1
import proofs.«111463_j31756988186712_2_alg».proof.Proof.SageRegion2
import proofs.«111463_j31756988186712_2_alg».proof.Proof.SageRegion3
import proofs.«111463_j31756988186712_2_alg».proof.Proof.SageRegion4

set_option maxRecDepth 16384

noncomputable section

namespace Cert.KernelIdeal.SageChain

open Cert.KernelIdeal Cert.KernelIdeal.Gen Cert.KernelIdeal.SageDefs Cert.SageEntry
open Cert.KernelIdeal.SageHost Cert.KernelIdeal.SageKeepArgs Cert.KernelIdeal.SageKeepBufs
open Idealize.ShloMosaic Idealize.ShloMosaic.TcCoe Idealize.SL.Sem

variable (m : (ℓ : Loc nD τ sig) → Buf (Elt Ideal) ℓ) (ρ : Dev nD → PrngReg)

/-- After region 0 the first layer's output. -/
theorem W2_h1 (c : Dev nD) : W2 m ρ c (Proc.devRef .tc main_v27) = h1 m c :=
  (W2_arr m ρ c 5).trans ((Cert.KernelIdeal.SageRegion0.final (V1 m ρ) c).trans (by
    show layerK (W1 m ρ c (Proc.devRef .tc main_arg0)) (W1 m ρ c (Proc.devRef .tc main_v24)) (W1 m ρ c (Proc.devRef .tc main_v12)) (W1 m ρ c (Proc.devRef .tc main_v25)) (W1 m ρ c (Proc.devRef .tc main_v26)) = _
    rw [W1_arg0 m ρ c, W1_v24 m ρ c, W1_v12 m ρ c, W1_v25 m ρ c, W1_v26 m ρ c]
    rfl))

/-- After region 1 the layer's output. -/
theorem W4_h2 (c : Dev nD) : W4 m ρ c (Proc.devRef .tc main_v42) = h2 m c :=
  (W4_arr m ρ c 5).trans ((Cert.KernelIdeal.SageRegion1.final (V3 m ρ) c).trans (by
    show layerK (W3 m ρ c (Proc.devRef .tc main_v27)) (W3 m ρ c (Proc.devRef .tc main_v39)) (W3 m ρ c (Proc.devRef .tc main_v12)) (W3 m ρ c (Proc.devRef .tc main_v40)) (W3 m ρ c (Proc.devRef .tc main_v41)) = _
    rw [W3_v27 m ρ c, W3_agg m ρ c, W2_h1 m ρ c, W2_v1 m ρ c, W1_v1 m ρ c, W2_v3 m ρ c, W1_v3 m ρ c,
      W3_v12 m ρ c, W1_v12 m ρ c, W3_cat m ρ c, W2_arg6 m ρ c, W2_arg8 m ρ c, W3_row m ρ c, W2_arg7 m ρ c]
    rfl))

/-- After region 2 the layer's output. -/
theorem W6_h3 (c : Dev nD) : W6 m ρ c (Proc.devRef .tc main_v57) = h3 m c :=
  (W6_arr m ρ c 5).trans ((Cert.KernelIdeal.SageRegion2.final (V5 m ρ) c).trans (by
    show layerK (W5 m ρ c (Proc.devRef .tc main_v42)) (W5 m ρ c (Proc.devRef .tc main_v54)) (W5 m ρ c (Proc.devRef .tc main_v12)) (W5 m ρ c (Proc.devRef .tc main_v55)) (W5 m ρ c (Proc.devRef .tc main_v56)) = _
    rw [W5_v42 m ρ c, W5_agg m ρ c, W4_h2 m ρ c, W4_v1 m ρ c, W1_v1 m ρ c, W4_v3 m ρ c, W1_v3 m ρ c,
      W5_v12 m ρ c, W1_v12 m ρ c, W5_cat m ρ c, W4_arg9 m ρ c, W4_arg11 m ρ c, W5_row m ρ c, W4_arg10 m ρ c]
    rfl))

/-- After region 3 the layer's output. -/
theorem W8_h4 (c : Dev nD) : W8 m ρ c (Proc.devRef .tc main_v72) = h4 m c :=
  (W8_arr m ρ c 5).trans ((Cert.KernelIdeal.SageRegion3.final (V7 m ρ) c).trans (by
    show layerK (W7 m ρ c (Proc.devRef .tc main_v57)) (W7 m ρ c (Proc.devRef .tc main_v69)) (W7 m ρ c (Proc.devRef .tc main_v12)) (W7 m ρ c (Proc.devRef .tc main_v70)) (W7 m ρ c (Proc.devRef .tc main_v71)) = _
    rw [W7_v57 m ρ c, W7_agg m ρ c, W6_h3 m ρ c, W6_v1 m ρ c, W1_v1 m ρ c, W6_v3 m ρ c, W1_v3 m ρ c,
      W7_v12 m ρ c, W1_v12 m ρ c, W7_cat m ρ c, W6_arg12 m ρ c, W6_arg14 m ρ c, W7_row m ρ c, W6_arg13 m ρ c]
    rfl))

/-- After region 4 the program's result. -/
theorem W10_out (c : Dev nD) : W10 m ρ c (Proc.devRef .tc main_v87) = outK m c :=
  (W10_arr m ρ c 5).trans ((Cert.KernelIdeal.SageRegion4.final (V9 m ρ) c).trans (by
    show headK (W9 m ρ c (Proc.devRef .tc main_v84)) (W9 m ρ c (Proc.devRef .tc main_arg15)) (W9 m ρ c (Proc.devRef .tc main_v85)) (W9 m ρ c (Proc.devRef .tc main_arg17)) (W9 m ρ c (Proc.devRef .tc main_v86)) = _
    rw [W9_pool m ρ c, W8_h4 m ρ c, W8_arg2 m ρ c, W9_arg15 m ρ c, W9_row1 m ρ c, W8_arg16 m ρ c, W9_arg17 m ρ c,
      W9_row2 m ρ c, W8_arg18 m ρ c]
    rfl))

/-- THE KERNEL PROGRAM'S RUN: every weakly fair execution terminates without a fault, with the result buffer at
    `outK` of the arguments and the arguments unchanged. -/
theorem run : θ_run defs (onTc (τ := τ) (main (F := Ideal))) ⟨m, fun _ => 0, ρ⟩ (fun r => ∀ c : Dev nD,
      r.2.mem ((c.tc : Thread nD τ).loc main_v87) = outK m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c => ⟨(h c).1.trans (W10_out m ρ c), (h c).2⟩) (Cert.KernelIdeal.SageRun.run_val m ρ)

end Cert.KernelIdeal.SageChain

end
-- ==== Proof.SageRef.lean ====
/-
  The reference program's result as four graph layers, a mean pool and a two-layer head.

  Each layer of the reference gathers the source node's features along every edge, sums them into the destination
  nodes, divides by the neighbour count clamped below by one, multiplies by the first weight matrix, adds the bias,
  adds the node's own features times the second weight matrix, and rectifies (`layerR`). The four layers apply the
  same operations to the previous layer's output, so the stages the generated reading names are `layerR` of one
  another; the pooled features are a shared chain of host operations of the last layer's output (`poolR`), and the
  result is the head of the pooled features (`headR`). Entry `(n, f)` of a layer is
  `Cert.SageEntry.layerEntryR`; the divisor row is constantly the clamped count of node `n`.
-/
import proofs.«111463_j31756988186712_2_alg».proof.Proof.Gen.ReferenceIdeal.Read
import proofs.«111463_j31756988186712_2_alg».proof.Proof.LibRows
import proofs.«111463_j31756988186712_2_alg».proof.Proof.LibCols
import proofs.«111463_j31756988186712_2_alg».proof.Proof.SageEntry

noncomputable section

namespace Cert.ReferenceIdeal.SageRef

open Idealize.ShloMosaic Idealize.ShloMosaic.ValueIdx
open Cert.ReferenceIdeal Cert.ReferenceIdeal.Gen Cert.ReferenceIdeal.Read Cert.SageEntry

abbrev X := FVec Ideal S50000x128 .f32
abbrev E := IVec S2x800000 32
abbrev Wt := FVec Ideal S128x128 .f32
abbrev Bt := FVec Ideal S128 .f32
abbrev G := FVec Ideal S64x128 .f32
abbrev Bat := IVec S50000 32
abbrev W2t := FVec Ideal S128x16 .f32
abbrev B2t := FVec Ideal S16 .f32
abbrev Out := FVec Ideal S64x16 .f32

theorem dot_layer_plain : dot_S50000x128_S128x128_S50000x128_1_0_0_1_n_n = DotDims.plain 50000 128 128 := rfl
theorem dot_head1_plain : dot_S64x128_S128x128_S64x128_1_0_0_1_n_n = DotDims.plain 64 128 128 := rfl
theorem dot_head2_plain : dot_S64x128_S128x16_S64x16_1_0_0_1_n_n = DotDims.plain 64 128 16 := rfl

/-- The neighbour sums of features `h` along the edges `e`: gather the sources, scatter-add into the destinations. -/
def aggR (h : X) (e : E) : X :=
  Host.scatterAdd (F := Ideal) scatter_S50000x128_S800000x1_S800000x128_1_0_0_1 (val_main_v11 (F := Ideal)) (val_main_v12 (F := Ideal) e)
    (Host.gather gather_S50000x128_S800000x1_S800000x128_1_0_n_n_0_1_1128 h (val_main_v9 (F := Ideal) e))

/-- One layer of the reference. -/
def layerR (h : X) (e : E) (Wl : Wt) (bl : Bt) (Wr : Wt) : X :=
  maximumf (addf (addf (Host.dotGeneral dot_S50000x128_S128x128_S50000x128_1_0_0_1_n_n none
        (Host.divf (aggR h e) (val_main_v21 (F := Ideal) e)) Wl) (val_main_v25 (F := Ideal) bl))
      (Host.dotGeneral dot_S50000x128_S128x128_S50000x128_1_0_0_1_n_n none h Wr))
    (val_main_call0_v0 (F := Ideal))

/-- The pooled features: the per-graph sums of the node features over the per-graph node counts clamped below by one. -/
def poolR (h : X) (b : Bat) : G :=
  Host.divf (Host.scatterAdd scatter_S64x128_S50000x1_S50000x128_1_0_0_1 (val_main_v108 (F := Ideal)) (val_main_v109 (F := Ideal) b) h)
    (val_main_v118 (F := Ideal) b)

/-- The head of the reference. -/
def headR (g : G) (W1 : Wt) (b1 : Bt)
    (W2 : W2t) (b2 : B2t) :
    Out :=
  addf (Host.dotGeneral dot_S64x128_S128x16_S64x16_1_0_0_1_n_n none
      (addf (Host.dotGeneral dot_S64x128_S128x128_S64x128_1_0_0_1_n_n none g W1) (val_main_v122 (F := Ideal) b1)) W2)
    (val_main_v126 (F := Ideal) b2)

/-! ## The stages are the layers of one another -/

theorem v29_eq (x0 : X) (x1 : E) (x3 : Wt) (x4 : Bt) (x5 : Wt) :
    val_main_v29 (F := Ideal) x0 x1 x3 x4 x5 = layerR x0 x1 x3 x4 x5 := rfl

theorem v55_eq (x0 : X) (x1 : E) (x3 : Wt) (x4 : Bt) (x5 x6 : Wt) (x7 : Bt) (x8 : Wt) :
    val_main_v55 (F := Ideal) x0 x1 x3 x4 x5 x6 x7 x8 = layerR (val_main_v29 (F := Ideal) x0 x1 x3 x4 x5) x1 x6 x7 x8 := rfl

theorem v81_eq (x0 : X) (x1 : E) (x3 : Wt) (x4 : Bt) (x5 x6 : Wt) (x7 : Bt) (x8 x9 : Wt) (x10 : Bt) (x11 : Wt) :
    val_main_v81 (F := Ideal) x0 x1 x3 x4 x5 x6 x7 x8 x9 x10 x11
      = layerR (val_main_v55 (F := Ideal) x0 x1 x3 x4 x5 x6 x7 x8) x1 x9 x10 x11 := rfl

theorem v107_eq (x0 : X) (x1 : E) (x3 : Wt) (x4 : Bt) (x5 x6 : Wt) (x7 : Bt) (x8 x9 : Wt) (x10 : Bt) (x11 x12 : Wt)
    (x13 : Bt) (x14 : Wt) :
    val_main_v107 (F := Ideal) x0 x1 x3 x4 x5 x6 x7 x8 x9 x10 x11 x12 x13 x14
      = layerR (val_main_v81 (F := Ideal) x0 x1 x3 x4 x5 x6 x7 x8 x9 x10 x11) x1 x12 x13 x14 := rfl

theorem v127_eq (x0 : X) (x1 : E) (x2 : Bat) (x3 : Wt) (x4 : Bt) (x5 x6 : Wt)
    (x7 : Bt) (x8 x9 : Wt) (x10 : Bt) (x11 x12 : Wt) (x13 : Bt) (x14 x15 : Wt) (x16 : Bt)
    (x17 : W2t) (x18 : B2t) :
    val_main_v127 (F := Ideal) x0 x1 x2 x3 x4 x5 x6 x7 x8 x9 x10 x11 x12 x13 x14 x15 x16 x17 x18
      = headR (poolR (val_main_v107 (F := Ideal) x0 x1 x3 x4 x5 x6 x7 x8 x9 x10 x11 x12 x13 x14) x2) x15 x16 x17 x18 := rfl

/-! ## Entries -/

/-- The divisor array at `(n, i)`: the neighbour count of node `n`, clamped below by one. -/
theorem den_apply (e : E) (n : Fin 50000) (i : Fin 128) :
    val_main_v21 (F := Ideal) e (ix2 n i) = max (val_main_v17 (F := Ideal) e (ix1 n)) 1 := by
  unfold val_main_v21 val_main_v20 val_main_v19 val_main_v18 val_main_cst_3
  rw [Cert.LibCols.inDim_a1_ab_apply, Cert.LibCols.inDim_a_a1_apply, maximumf_apply, Cert.LibRows.scalarInDim_apply,
    constant_apply, Cert.LayerAlgebra.ofBits_one_f32]

/-- The layer's operations at an entry, for ANY arrays in the places of the neighbour sums, the divisor, the bias
    array and the zero array. -/
theorem layer_core_apply (a cc h brow z : X) (Wl Wr : Wt) (n : Fin 50000) (f : Fin 128) :
    maximumf (addf (addf (Host.dotGeneral dot_S50000x128_S128x128_S50000x128_1_0_0_1_n_n none (Host.divf a cc) Wl) brow)
        (Host.dotGeneral dot_S50000x128_S128x128_S50000x128_1_0_0_1_n_n none h Wr)) z (ix2 n f)
      = max (((∑ i : Fin 128, Ideal.div (a (ix2 n i)) (cc (ix2 n i)) * Wl (ix2 i f)) + brow (ix2 n f))
          + ∑ i : Fin 128, h (ix2 n i) * Wr (ix2 i f)) (z (ix2 n f)) := by
  rw [maximumf_apply, addf_apply, addf_apply, Cert.LibRows.dotGeneral_plain_apply _ dot_layer_plain,
    Cert.LibRows.dotGeneral_plain_apply _ dot_layer_plain]
  rfl

/-- The bias array at `(n, f)` is the bias vector's entry `f`. -/
theorem bias_apply (bl : Bt) (n : Fin 50000) (f : Fin 128) : val_main_v25 (F := Ideal) bl (ix2 n f) = bl (ix1 f) := by
  unfold val_main_v25 val_main_v24
  rw [Cert.LibRows.rowBiasInDim_apply]

/-- The rectifier's zero array is zero. -/
theorem zero_apply (n : Fin 50000) (f : Fin 128) : val_main_call0_v0 (F := Ideal) (ix2 n f) = 0 := by
  unfold val_main_call0_v0 val_main_call0_cst
  rw [Cert.LibRows.scalarInDim_apply, constant_apply, Ideal.ofBits_zero_f32]

/-- ENTRY `(n, f)` OF A LAYER OF THE REFERENCE. -/
theorem layerR_apply (h : X) (e : E) (Wl : Wt) (bl : Bt) (Wr : Wt) (n : Fin 50000) (f : Fin 128) :
    layerR h e Wl bl Wr (ix2 n f) = layerEntryR h (aggR h e) (val_main_v21 (F := Ideal) e) Wl Wr bl n f := by
  unfold layerR layerEntryR
  rw [layer_core_apply, bias_apply, zero_apply]

/-- ENTRY `(p, q)` OF THE HEAD OF THE REFERENCE. -/
theorem headR_apply (g : G) (W1 : Wt) (b1 : Bt)
    (W2 : W2t) (b2 : B2t)
    (p : Fin 64) (q : Fin 16) :
    headR g W1 b1 W2 b2 (ix2 p q)
      = (∑ k : Fin 128, ((∑ i : Fin 128, g (ix2 p i) * W1 (ix2 i k)) + b1 (ix1 k)) * W2 (ix2 k q)) + b2 (ix1 q) := by
  unfold headR val_main_v126 val_main_v125 val_main_v122 val_main_v121
  rw [addf_apply, Cert.LibRows.dotGeneral_plain_apply _ dot_head2_plain, Cert.LibRows.rowBiasInDim_apply]
  congr 1
  refine Finset.sum_congr rfl fun k _ => ?_
  rw [addf_apply, Cert.LibRows.dotGeneral_plain_apply _ dot_head1_plain, Cert.LibRows.rowBiasInDim_apply]

end Cert.ReferenceIdeal.SageRef

end
-- ==== Proof.SageBridge.lean ====
/-
  The kernel program's result and the reference's result are one function of the arguments.

  Layer by layer. Both programs form the neighbour sums by the same gather and scatter-add (the kernel through a
  narrower float format and back, which changes nothing on the extended reals) and count the neighbours by the same
  scatter-add of ones. The kernel then multiplies the sums by `1 / max(count, 1)` and takes one product with the two
  weight matrices stacked; the reference divides by `max(count, 1)` and takes two products: equal entry by entry by
  `Cert.SageEntry.layerEntry_eq`, the divisor being at least one. The pooled features are the same host operations of
  the last layer's output, and the two heads are the same two products with a bias after each, the kernel's bias
  rows being the reference's bias vectors.
-/
import proofs.«111463_j31756988186712_2_alg».proof.Proof.SageDefs
import proofs.«111463_j31756988186712_2_alg».proof.Proof.SageRef
import proofs.«111463_j31756988186712_2_alg».proof.Proof.LibCat

noncomputable section

namespace Cert.SageBridge

open Idealize.ShloMosaic Idealize.ShloMosaic.ValueIdx
open Cert.SageEntry Cert.KernelIdeal.SageDefs Cert.ReferenceIdeal.SageRef Cert.ReferenceIdeal.Read

/-- Narrowing a float format is the identity on the extended reals. -/
theorem truncf_id {s : Shape} {φ ψ : FTy} (a : FVec Ideal s φ) (h : ψ.bits < φ.bits) :
    (truncf ψ a h : FVec Ideal s ψ) = (a : s.Idx → EReal) := rfl

/-- Widening a float format is the identity on the extended reals. -/
theorem extf_id {s : Shape} {φ ψ : FTy} (a : FVec Ideal s φ) (h : φ.bits < ψ.bits) :
    (extf ψ a h : FVec Ideal s ψ) = (a : s.Idx → EReal) := rfl

/-- The host's quotient at an index. -/
theorem hostDivf_apply {s : Shape} {φ : FTy} (a b : FVec Ideal s φ) (i : s.Idx) :
    Host.divf a b i = Ideal.div (a i) (b i) := rfl

/-- The two programs' neighbour sums are the same gather and scatter-add. -/
theorem agg_eq (h : Cert.ReferenceIdeal.SageRef.X) (e : E) : aggK h (srcK e) (dstK e) = aggR h e := by
  unfold aggK aggR
  rw [extf_id, truncf_id]
  rfl

/-- The two programs' neighbour counts are the same scatter-add of ones. -/
theorem cnt_eq (e : E) : cntK (dstK e) = val_main_v17 (F := Ideal) e := rfl

theorem catW_left (Wl Wr : Wt) (i : Fin 128) (f : Fin 128) :
    catW Wl Wr (ix2 (⟨i.val, by have := i.isLt; omega⟩ : Fin 256) f) = Wl (ix2 i f) :=
  Cert.LibCat.rows_left Wl Wr _ i f

theorem catW_right (Wl Wr : Wt) (i : Fin 128) (f : Fin 128) :
    catW Wl Wr (ix2 (⟨128 + i.val, by have := i.isLt; omega⟩ : Fin 256) f) = Wr (ix2 i f) :=
  Cert.LibCat.rows_right Wl Wr _ i f

theorem rowB_apply (bl : Bt) (f : Fin 128) : rowB bl (ix2 (0 : Fin 1) f) = bl (ix1 f) :=
  shapeCast_a_1a_apply bl _ 0 f

theorem rowB16_apply (b : B2t) (q : Fin 16) : rowB16 b (ix2 (0 : Fin 1) q) = b (ix1 q) :=
  shapeCast_a_1a_apply b _ 0 q

/-- The reciprocal-count column at node `n`: one over the clamped neighbour count. -/
theorem inv_apply (e : E) (n : Fin 50000) :
    invK (dstK e) (ix2 n (0 : Fin 1)) = Ideal.div 1 (max (val_main_v17 (F := Ideal) e (ix1 n)) 1) := by
  unfold invK
  rw [Cert.LibCols.shapeCast_a_a1_apply, hostDivf_apply, maximumf_apply, Cert.LibRows.scalarInDim_apply, constant_apply,
    Cert.LayerAlgebra.ofBits_one_f32, cnt_eq]

/-- ONE LAYER: the kernel program's arrangement is the reference's. -/
theorem layer_bridge (h : Cert.ReferenceIdeal.SageRef.X) (e : E) (Wl : Wt) (bl : Bt) (Wr : Wt) :
    layerOf h (srcK e) (dstK e) Wl bl Wr = layerR h e Wl bl Wr := by
  funext j
  obtain ⟨n, f, rfl⟩ : ∃ (n : Fin 50000) (f : Fin 128), j = ix2 n f := ⟨j 0, j 1, eq_ix2 j⟩
  rw [layerR_apply]
  unfold layerOf
  rw [layerK_apply, agg_eq]
  exact layerEntry_eq h (aggR h e) (val_main_v21 (F := Ideal) e) (invK (dstK e)) (catW Wl Wr) (rowB bl) Wl Wr bl
    (max (val_main_v17 (F := Ideal) e (ix1 n)) 1) n f (Cert.LayerAlgebra.max_one_ne_zero _) (inv_apply e n)
    (fun i => den_apply e n i) (fun i => catW_left Wl Wr i f) (fun i => catW_right Wl Wr i f) (rowB_apply bl f)

/-- The pooled features are the same host operations of the node features in both programs. -/
theorem pool_eq (h : Cert.ReferenceIdeal.SageRef.X) (b : Bat) : poolK h b = poolR h b := rfl

/-- THE HEAD: the kernel's two products with bias rows are the reference's two products with bias vectors. -/
theorem head_eq (g : G) (W1 : Wt) (b1 : Bt) (W2 : W2t) (b2 : B2t) :
    headK g W1 (rowB b1) W2 (rowB16 b2) = headR g W1 b1 W2 b2 := by
  funext j
  obtain ⟨p, q, rfl⟩ : ∃ (p : Fin 64) (q : Fin 16), j = ix2 p q := ⟨j 0, j 1, eq_ix2 j⟩
  rw [headK_apply, headR_apply]
  unfold headEntry
  simp only [rowB_apply, rowB16_apply]

/-- THE WHOLE RESULT: four layers, the pool and the head of the kernel program are the reference's last stage. -/
theorem out_eq (x0 : Cert.ReferenceIdeal.SageRef.X) (x1 : E) (x2 : Bat) (x3 : Wt) (x4 : Bt) (x5 x6 : Wt) (x7 : Bt) (x8 x9 : Wt) (x10 : Bt)
    (x11 x12 : Wt) (x13 : Bt) (x14 x15 : Wt) (x16 : Bt) (x17 : W2t) (x18 : B2t) :
    headK (poolK (layerOf (layerOf (layerOf (layerOf x0 (srcK x1) (dstK x1) x3 x4 x5) (srcK x1) (dstK x1) x6 x7 x8)
        (srcK x1) (dstK x1) x9 x10 x11) (srcK x1) (dstK x1) x12 x13 x14) x2) x15 (rowB x16) x17 (rowB16 x18)
      = val_main_v127 (F := Ideal) x0 x1 x2 x3 x4 x5 x6 x7 x8 x9 x10 x11 x12 x13 x14 x15 x16 x17 x18 := by
  rw [v127_eq, v107_eq, v81_eq, v55_eq, v29_eq, layer_bridge, layer_bridge, layer_bridge, layer_bridge, pool_eq, head_eq]

end Cert.SageBridge

end
-- ==== Proof.lean ====
/-
  A four-layer mean-aggregation graph network with a mean pool and a two-layer head, as a program of five pipelined
  kernels among host operations, against its plain reference: the two programs, read on the extended reals, end with
  equal results from memories that agree on the arguments.

  The kernel program's run is read back through its ten segments to one function of the arguments
  (`Cert.KernelIdeal.SageChain.run`, `Cert.KernelIdeal.SageDefs.outK`); the reference's run is its generated run, whose
  last stage is four layers, the pool and the head of the reference (`Cert.ReferenceIdeal.SageRef`); the two are one
  function (`Cert.SageBridge.out_eq`): per layer, multiplying the neighbour sum by the reciprocal of the clamped
  neighbour count and taking one product with the stacked weights is dividing by the clamped count and taking two
  products, on every extended real. The frames are the generated ones; the idealization rewrote nothing.
-/
import proofs.«111463_j31756988186712_2_alg».proof.Defs
import proofs.«111463_j31756988186712_2_alg».proof.Proof.Gen.Kernel
import proofs.«111463_j31756988186712_2_alg».proof.Proof.Gen.Kernel.Frame
import proofs.«111463_j31756988186712_2_alg».proof.Proof.Gen.KernelIdeal
import proofs.«111463_j31756988186712_2_alg».proof.Proof.Gen.KernelIdeal.Frame
import proofs.«111463_j31756988186712_2_alg».proof.Proof.Gen.ReferenceIdeal
import proofs.«111463_j31756988186712_2_alg».proof.Proof.Gen.ReferenceIdeal.Run
import proofs.«111463_j31756988186712_2_alg».proof.Proof.Gen.ReferenceIdeal.Read
import proofs.«111463_j31756988186712_2_alg».proof.Proof.Gen.Pre_finite_inputs
import proofs.«111463_j31756988186712_2_alg».proof.Proof.SageChain
import proofs.«111463_j31756988186712_2_alg».proof.Proof.SageBridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at `outK` of the kernel program's arguments: the kernel program by its run read back, the
    reference by its generated run, its last stage, the agreement of the arguments, and the bridge. -/
theorem algebraic : Cert.algebraic_KernelIdeal_ReferenceIdeal := by
  intro m ρ m' ρ' _ hagree
  refine ⟨fun c => Cert.KernelIdeal.SageDefs.outK m c, Cert.KernelIdeal.SageChain.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10, e11, e12, e13, e14, e15, e16, e17, e18⟩ := hagree c
  rw [Cert.ReferenceIdeal.Read.val_main_v127_eq, e0, e1, e2, e3, e4, e5, e6, e7, e8, e9, e10, e11, e12, e13, e14, e15, e16, e17, e18]
  exact (Cert.SageBridge.out_eq _ _ _ _ _ _ _ _ _ _ _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
